-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x8192x3 : Shape := ⟨4, ![16, 1, 8192, 3]⟩
abbrev S16x1x8192 : Shape := ⟨3, ![16, 1, 8192]⟩
abbrev S256x3 : Shape := ⟨2, ![256, 3]⟩
abbrev S256 : Shape := ⟨1, ![256]⟩
abbrev S4x256x256 : Shape := ⟨3, ![4, 256, 256]⟩
abbrev S4x256 : Shape := ⟨2, ![4, 256]⟩
abbrev S4x256x512 : Shape := ⟨3, ![4, 256, 512]⟩
abbrev S256x1024 : Shape := ⟨2, ![256, 1024]⟩
abbrev S1024x256 : Shape := ⟨2, ![1024, 256]⟩
abbrev S1024 : Shape := ⟨1, ![1024]⟩
abbrev S_ : Shape := ⟨0, ![]⟩

class Facts : Prop where
  bcast_S_S16x1x8192x3 : S_.BroadcastsInDim S16x1x8192x3 (![] : Fin 0 → Fin S16x1x8192x3.rank)
  reducesTo_S16x1x8192x3_S_d0_1_2_3 : S16x1x8192x3.ReducesTo [0, 1, 2, 3] S_
  h_S_ : 0 < S_.numel
  bcast_S_S256x3 : S_.BroadcastsInDim S256x3 (![] : Fin 0 → Fin S256x3.rank)
  reducesTo_S256x3_S_d0_1 : S256x3.ReducesTo [0, 1] S_
  bcast_S_S256 : S_.BroadcastsInDim S256 (![] : Fin 0 → Fin S256.rank)
  reducesTo_S256_S_d0 : S256.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S4x256x512 : S_.BroadcastsInDim S4x256x512 (![] : Fin 0 → Fin S4x256x512.rank)
  reducesTo_S4x256x512_S_d0_1_2 : S4x256x512.ReducesTo [0, 1, 2] S_
  bcast_S_S256x1024 : S_.BroadcastsInDim S256x1024 (![] : Fin 0 → Fin S256x1024.rank)
  reducesTo_S256x1024_S_d0_1 : S256x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg12 : FVec F S1024 .f32) (main_v48 : IVec S_ 1) (main_v49 : FVec F S1024x256 .f32) (main_v50 : FVec F S1024x256 .f32) : IVec S_ 1 :=
  let main_v51 : IVec S1024x256 1 := cmpf .olt main_v49 main_v50
  let main_c_19 : IVec S_ 1 := constantI S_ 1 1#1
  let main_v52 : IVec S_ 1 := (fun x v => Host.reduce IntOp.andi x v reducesTo_S1024x256_S_d0_1 h_S_) main_v51 main_c_19
  let main_v53 : IVec S_ 1 := andi main_v48 main_v52
  let main_v54 : FVec F S1024 .f32 := Host.absf main_arg12
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg8 : FVec F S4x256 .f32) (main_arg9 : FVec F S256x1024 .f32) (main_arg10 : FVec F S256 .f32) (main_arg11 : FVec F S1024x256 .f32) (main_arg12 : FVec F S1024 .f32) (main_v33 : IVec S_ 1) : IVec S_ 1 :=
  let main_v34 : FVec F S4x256 .f32 := Host.absf main_arg8
  let main_cst_12 : FVec F S_ .f32 := constant S_ .f32 0x7F800000#32
  let main_v35 : FVec F S4x256 .f32 := broadcastInDim S4x256 ![] bcast_S_S4x256 main_cst_12
  let main_v36 : IVec S4x256 1 := cmpf .olt main_v34 main_v35
  let main_c_13 : IVec S_ 1 := constantI S_ 1 1#1
  let main_v37 : IVec S_ 1 := (fun x v => Host.reduce IntOp.andi x v reducesTo_S4x256_S_d0_1 h_S_) main_v36 main_c_13
  let main_v38 : IVec S_ 1 := andi main_v33 main_v37
  let main_v39 : FVec F S256x1024 .f32 := Host.absf main_arg9
  let main_cst_14 : FVec F S_ .f32 := constant S_ .f32 0x7F800000#32
  let main_v40 : FVec F S256x1024 .f32 := broadcastInDim S256x1024 ![] bcast_S_S256x1024 main_cst_14
  let main_v41 : IVec S256x1024 1 := cmpf .olt main_v39 main_v40
  let main_c_15 : IVec S_ 1 := constantI S_ 1 1#1
  let main_v42 : IVec S_ 1 := (fun x v => Host.reduce IntOp.andi x v reducesTo_S256x1024_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1024x256 .f32 := Host.absf main_arg11
  let main_cst_18 : FVec F S_ .f32 := constant S_ .f32 0x7F800000#32
  let main_v50 : FVec F S1024x256 .f32 := broadcastInDim S1024x256 ![] bcast_S_S1024x256 main_cst_18
  fn_part3 (F := F) main_arg12 main_v48 main_v49 main_v50

def fn_part1 {F : FTy → Type} [FloatOps F] (main_arg5 : FVec F S4x256x256 .f32) (main_arg6 : FVec F S4x256 .f32) (main_arg7 : FVec F S4x256x512 .f32) (main_arg8 : FVec F S4x256 .f32) (main_arg9 : FVec F S256x1024 .f32) (main_arg10 : FVec F S256 .f32) (main_arg11 : FVec F S1024x256 .f32) (main_arg12 : FVec F S1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S4x256x256 .f32 := Host.absf main_arg5
  let main_cst_6 : FVec F S_ .f32 := constant S_ .f32 0x7F800000#32
  let main_v20 : FVec F S4x256x256 .f32 := broadcastInDim S4x256x256 ![] bcast_S_S4x256x256 main_cst_6
  let main_v21 : IVec S4x256x256 1 := cmpf .olt main_v19 main_v20
  let main_c_7 : IVec S_ 1 := constantI S_ 1 1#1
  let main_v22 : IVec S_ 1 := (fun x v => Host.reduce IntOp.andi x v reducesTo_S4x256x256_S_d0_1_2 h_S_) main_v21 main_c_7
  let main_v23 : IVec S_ 1 := andi main_v18 main_v22
  let main_v24 : FVec F S4x256 .f32 := Host.absf main_arg6
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x256x512 .f32 := Host.absf main_arg7
  let main_cst_10 : FVec F S_ .f32 := constant S_ .f32 0x7F800000#32
  let main_v30 : FVec F S4x256x512 .f32 := broadcastInDim S4x256x512 ![] bcast_S_S4x256x512 main_cst_10
  let main_v31 : IVec S4x256x512 1 := cmpf .olt main_v29 main_v30
  let main_c_11 : IVec S_ 1 := constantI S_ 1 1#1
  let main_v32 : IVec S_ 1 := (fun x v => Host.reduce IntOp.andi x v reducesTo_S4x256x512_S_d0_1_2 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S16x1x8192x3 .f32) (main_arg1 : FVec F S16x1x8192x3 .f32) (main_arg2 : IVec S16x1x8192 1) (main_arg3 : FVec F S256x3 .f32) (main_arg4 : FVec F S256 .f32) (main_arg5 : FVec F S4x256x256 .f32) (main_arg6 : FVec F S4x256 .f32) (main_arg7 : FVec F S4x256x512 .f32) (main_arg8 : FVec F S4x256 .f32) (main_arg9 : FVec F S256x1024 .f32) (main_arg10 : FVec F S256 .f32) (main_arg11 : FVec F S1024x256 .f32) (main_arg12 : FVec F S1024 .f32) : IVec S_ 1 :=
  let main_v0 : FVec F S16x1x8192x3 .f32 := Host.absf main_arg0
  let main_cst : FVec F S_ .f32 := constant S_ .f32 0x7F800000#32
  let main_v1 : FVec F S16x1x8192x3 .f32 := broadcastInDim S16x1x8192x3 ![] bcast_S_S16x1x8192x3 main_cst
  let main_v2 : IVec S16x1x8192x3 1 := cmpf .olt main_v0 main_v1
  let main_c : IVec S_ 1 := constantI S_ 1 1#1
  let main_v3 : IVec S_ 1 := (fun x v => Host.reduce IntOp.andi x v reducesTo_S16x1x8192x3_S_d0_1_2_3 h_S_) main_v2 main_c
  let main_v4 : FVec F S16x1x8192x3 .f32 := Host.absf main_arg1
  let main_cst_0 : FVec F S_ .f32 := constant S_ .f32 0x7F800000#32
  let main_v5 : FVec F S16x1x8192x3 .f32 := broadcastInDim S16x1x8192x3 ![] bcast_S_S16x1x8192x3 main_cst_0
  let main_v6 : IVec S16x1x8192x3 1 := cmpf .olt main_v4 main_v5
  let main_c_1 : IVec S_ 1 := constantI S_ 1 1#1
  let main_v7 : IVec S_ 1 := (fun x v => Host.reduce IntOp.andi x v reducesTo_S16x1x8192x3_S_d0_1_2_3 h_S_) main_v6 main_c_1
  let main_v8 : IVec S_ 1 := andi main_v3 main_v7
  let main_v9 : FVec F S256x3 .f32 := Host.absf main_arg3
  let main_cst_2 : FVec F S_ .f32 := constant S_ .f32 0x7F800000#32
  let main_v10 : FVec F S256x3 .f32 := broadcastInDim S256x3 ![] bcast_S_S256x3 main_cst_2
  let main_v11 : IVec S256x3 1 := cmpf .olt main_v9 main_v10
  let main_c_3 : IVec S_ 1 := constantI S_ 1 1#1
  let main_v12 : IVec S_ 1 := (fun x v => Host.reduce IntOp.andi x v reducesTo_S256x3_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_v13 main_v16
-- ==== Kernel.lean ====
abbrev S16x1x8192x3 : Shape := ⟨4, ![16, 1, 8192, 3]⟩
abbrev S16x1x8192 : Shape := ⟨3, ![16, 1, 8192]⟩
abbrev S256x3 : Shape := ⟨2, ![256, 3]⟩
abbrev S256 : Shape := ⟨1, ![256]⟩
abbrev S4x256x256 : Shape := ⟨3, ![4, 256, 256]⟩
abbrev S4x256 : Shape := ⟨2, ![4, 256]⟩
abbrev S4x256x512 : Shape := ⟨3, ![4, 256, 512]⟩
abbrev S256x1024 : Shape := ⟨2, ![256, 1024]⟩
abbrev S1024x256 : Shape := ⟨2, ![1024, 256]⟩
abbrev S1024 : Shape := ⟨1, ![1024]⟩
abbrev S16x8192x3 : Shape := ⟨3, ![16, 8192, 3]⟩
abbrev S16x3x8192 : Shape := ⟨3, ![16, 3, 8192]⟩
abbrev S_ : Shape := ⟨0, ![]⟩
abbrev S256x1 : Shape := ⟨2, ![256, 1]⟩
abbrev S4x256x1 : Shape := ⟨3, ![4, 256, 1]⟩
abbrev S16x256x1 : Shape := ⟨3, ![16, 256, 1]⟩
abbrev S1x3x8192 : Shape := ⟨3, ![1, 3, 8192]⟩
abbrev S1x1x8192 : Shape := ⟨3, ![1, 1, 8192]⟩
abbrev S1x256x1 : Shape := ⟨3, ![1, 256, 1]⟩
abbrev S3x8192 : Shape := ⟨2, ![3, 8192]⟩
abbrev S256x8192 : Shape := ⟨2, ![256, 8192]⟩
abbrev S1x256x256 : Shape := ⟨3, ![1, 256, 256]⟩
abbrev S256x256 : Shape := ⟨2, ![256, 256]⟩
abbrev S1x256x512 : Shape := ⟨3, ![1, 256, 512]⟩
abbrev S256x512 : Shape := ⟨2, ![256, 512]⟩
abbrev S1x8192 : Shape := ⟨2, ![1, 8192]⟩
abbrev S16x256 : Shape := ⟨2, ![16, 256]⟩
abbrev S1x1024 : Shape := ⟨2, ![1, 1024]⟩
abbrev S16x1024 : Shape := ⟨2, ![16, 1024]⟩
abbrev S16x1x1024 : Shape := ⟨3, ![16, 1, 1024]⟩

abbrev nBuf : Space → Nat
  | .hbm => 35
  | .vmem => 18
  | .smem => 0
  | _ => 0

abbrev bufTy : (tb : Table) → Fin (tcTables nBuf tb) → BufTy
  | .hbm, ⟨0, _⟩ => ⟨S16x1x8192x3, .f32⟩
  | .hbm, ⟨1, _⟩ => ⟨S16x1x8192x3, .f32⟩
  | .hbm, ⟨2, _⟩ => ⟨S16x1x8192, .i1⟩
  | .hbm, ⟨3, _⟩ => ⟨S256x3, .f32⟩
  | .hbm, ⟨4, _⟩ => ⟨S256, .f32⟩
  | .hbm, ⟨5, _⟩ => ⟨S4x256x256, .f32⟩
  | .hbm, ⟨6, _⟩ => ⟨S4x256, .f32⟩
  | .hbm, ⟨7, _⟩ => ⟨S4x256x512, .f32⟩
  | .hbm, ⟨8, _⟩ => ⟨S4x256, .f32⟩
  | .hbm, ⟨9, _⟩ => ⟨S256x1024, .f32⟩
  | .hbm, ⟨10, _⟩ => ⟨S256, .f32⟩
  | .hbm, ⟨11, _⟩ => ⟨S1024x256, .f32⟩
  | .hbm, ⟨12, _⟩ => ⟨S1024, .f32⟩
  | .hbm, ⟨13, _⟩ => ⟨S16x8192x3, .f32⟩
  | .hbm, ⟨14, _⟩ => ⟨S16x3x8192, .f32⟩
  | .hbm, ⟨15, _⟩ => ⟨S16x1x8192, .i1⟩
  | .hbm, ⟨16, _⟩ => ⟨S16x1x8192, .f32⟩
  | .hbm, ⟨17, _⟩ => ⟨S_, .f32⟩
  | .hbm, ⟨18, _⟩ => ⟨S16x1x8192, .f32⟩
  | .hbm, ⟨19, _⟩ => ⟨S16x1x8192, .f32⟩
  | .hbm, ⟨20, _⟩ => ⟨S256x3, .bf16⟩
  | .hbm, ⟨21, _⟩ => ⟨S256x1, .f32⟩
  | .hbm, ⟨22, _⟩ => ⟨S4x256x256, .bf16⟩
  | .hbm, ⟨23, _⟩ => ⟨S4x256x1, .f32⟩
  | .hbm, ⟨24, _⟩ => ⟨S4x256x512, .bf16⟩
  | .hbm, ⟨25, _⟩ => ⟨S4x256x1, .f32⟩
  | .hbm, ⟨26, _⟩ => ⟨S256x1024, .bf16⟩
  | .hbm, ⟨27, _⟩ => ⟨S256x1, .f32⟩
  | .hbm, ⟨28, _⟩ => ⟨S16x256x1, .f32⟩
  | .hbm, ⟨29, _⟩ => ⟨S16x256, .f32⟩
  | .hbm, ⟨30, _⟩ => ⟨S256x1024, .f32⟩
  | .hbm, ⟨31, _⟩ => ⟨S256x1024, .bf16⟩
  | .hbm, ⟨32, _⟩ => ⟨S1x1024, .f32⟩
  | .hbm, ⟨33, _⟩ => ⟨S16x1024, .f32⟩
  | .hbm, ⟨34, _⟩ => ⟨S16x1x1024, .f32⟩
  | .local _ .vmem, ⟨0, _⟩ => ⟨S1x3x8192, .f32⟩
  | .local _ .vmem, ⟨1, _⟩ => ⟨S1x3x8192, .f32⟩
  | .local _ .vmem, ⟨2, _⟩ => ⟨S1x1x8192, .f32⟩
  | .local _ .vmem, ⟨3, _⟩ => ⟨S1x1x8192, .f32⟩
  | .local _ .vmem, ⟨4, _⟩ => ⟨S256x3, .bf16⟩
  | .local _ .vmem, ⟨5, _⟩ => ⟨S256x1, .f32⟩
  | .local _ .vmem, ⟨6, _⟩ => ⟨S4x256x256, .bf16⟩
  | .local _ .vmem, ⟨7, _⟩ => ⟨S4x256x1, .f32⟩
  | .local _ .vmem, ⟨8, _⟩ => ⟨S4x256x512, .bf16⟩
  | .local _ .vmem, ⟨9, _⟩ => ⟨S4x256x1, .f32⟩
  | .local _ .vmem, ⟨10, _⟩ => ⟨S256x1024, .bf16⟩
  | .local _ .vmem, ⟨11, _⟩ => ⟨S256x1, .f32⟩
  | .local _ .vmem, ⟨12, _⟩ => ⟨S1x256x1, .f32⟩
  | .local _ .vmem, ⟨13, _⟩ => ⟨S1x256x1, .f32⟩
  | .local _ .vmem, ⟨14, _⟩ => ⟨S16x256, .f32⟩
  | .local _ .vmem, ⟨15, _⟩ => ⟨S256x1024, .bf16⟩
  | .local _ .vmem, ⟨16, _⟩ => ⟨S1x1024, .f32⟩
  | .local _ .vmem, ⟨17, _⟩ => ⟨S16x1024, .f32⟩
  | _, _ => ⟨S16x1x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem1_0 : DmaSem sig := 15
abbrev cc1_sem2_0 : DmaSem sig := 16
abbrev cc1_sem3_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x3 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  shapeCasts_S16x1x8192x3_S16x8192x3 : S16x1x8192x3.ShapeCasts S16x8192x3
  transposes_S16x8192x3_S16x3x8192_0_2_1 : S16x8192x3.Transposes [0, 2, 1] S16x3x8192
  bcast_S_S16x1x8192 : S_.BroadcastsInDim S16x1x8192 (![] : Fin 0 → Fin S16x1x8192.rank)
  bitsLt_bf16_f32 : FTy.bits .bf16 < FTy.bits .f32
  shapeCasts_S256_S256x1 : S256.ShapeCasts S256x1
  shapeCasts_S4x256_S4x256x1 : S4x256.ShapeCasts S4x256x1
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x8192 : S256x1.Broadcasts S256x8192
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x256x1_S1x256x1_0_0_0 : ∀ a, (![0, 0, 0] : Fin 3 → Nat) a + S1x256x1.size a ≤ S4x256x1.size a
  h_S1x256x1 : 0 < S1x256x1.numel
  shapeCasts_S1x256x1_S256x1 : S1x256x1.ShapeCasts S256x1
  reduces_S256x8192_S256 : S256x8192.Reduces [1] S256
  inb_S4x256x512_S1x256x512_0_0_0 : ∀ a, (![0, 0, 0] : Fin 3 → Nat) a + S1x256x512.size a ≤ S4x256x512.size a
  h_S1x256x512 : 0 < S1x256x512.numel
  shapeCasts_S1x256x512_S256x512 : S1x256x512.ShapeCasts S256x512
  slices_S256x512_o0_0_S256x256 : S256x512.Slices ![0, 0] S256x256
  slices_S256x512_o0_256_S256x256 : S256x512.Slices ![0, 256] S256x256
  inb_S256x1024_S256x256_0_0 : ∀ a, (![0, 0] : Fin 2 → Nat) a + S256x256.size a ≤ S256x1024.size a
  h_S256x256 : 0 < S256x256.numel
  shapeCasts_S256x256_S256x256 : S256x256.ShapeCasts S256x256
  inb_S4x256x256_S1x256x256_1_0_0 : ∀ a, (![1, 0, 0] : Fin 3 → Nat) a + S1x256x256.size a ≤ S4x256x256.size a
  inb_S4x256x1_S1x256x1_1_0_0 : ∀ a, (![1, 0, 0] : Fin 3 → Nat) a + S1x256x1.size a ≤ S4x256x1.size a
  inb_S4x256x512_S1x256x512_1_0_0 : ∀ a, (![1, 0, 0] : Fin 3 → Nat) a + S1x256x512.size a ≤ S4x256x512.size a
  inb_S256x1024_S256x256_0_256 : ∀ a, (![0, 256] : Fin 2 → Nat) a + S256x256.size a ≤ S256x1024.size a
  inb_S4x256x256_S1x256x256_2_0_0 : ∀ a, (![2, 0, 0] : Fin 3 → Nat) a + S1x256x256.size a ≤ S4x256x256.size a
  inb_S4x256x1_S1x256x1_2_0_0 : ∀ a, (![2, 0, 0] : Fin 3 → Nat) a + S1x256x1.size a ≤ S4x256x1.size a
  inb_S4x256x512_S1x256x512_2_0_0 : ∀ a, (![2, 0, 0] : Fin 3 → Nat) a + S1x256x512.size a ≤ S4x256x512.size a
  inb_S256x1024_S256x256_0_512 : ∀ a, (![0, 512] : Fin 2 → Nat) a + S256x256.size a ≤ S256x1024.size a
  inb_S4x256x256_S1x256x256_3_0_0 : ∀ a, (![3, 0, 0] : Fin 3 → Nat) a + S1x256x256.size a ≤ S4x256x256.size a
  inb_S4x256x1_S1x256x1_3_0_0 : ∀ a, (![3, 0, 0] : Fin 3 → Nat) a + S1x256x1.size a ≤ S4x256x1.size a
  inb_S4x256x512_S1x256x512_3_0_0 : ∀ a, (![3, 0, 0] : Fin 3 → Nat) a + S1x256x512.size a ≤ S4x256x512.size a
  inb_S256x1024_S256x256_0_768 : ∀ a, (![0, 768] : Fin 2 → Nat) a + S256x256.size a ≤ S256x1024.size a
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  broadcasts_S1x8192_S256x8192 : S1x8192.Broadcasts S256x8192
  inb_S1x256x1_S1x256x1_0_0_0 : ∀ a, (![0, 0, 0] : Fin 3 → Nat) a + S1x256x1.size a ≤ S1x256x1.size a
  shapeCasts_S256x1_S1x256x1 : S256x1.ShapeCasts S1x256x1
  shapeCasts_S16x256x1_S16x256 : S16x256x1.ShapeCasts S16x256
  transposes_S1024x256_S256x1024_1_0 : S1024x256.Transposes [1, 0] S256x1024
  shapeCasts_S1024_S1x1024 : S1024.ShapeCasts S1x1024
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S16x1024 : S1x1024.Broadcasts S16x1024
  inb_S16x1024_S16x1024_0_0 : ∀ a, (![0, 0] : Fin 2 → Nat) a + S16x1024.size a ≤ S16x1024.size a
  h_S16x1024 : 0 < S16x1024.numel
  shapeCasts_S16x1024_S16x1x1024 : S16x1024.ShapeCasts S16x1x1024
  dot_S256x3_S3x8192_S256x8192_1_0_0_1_n_n_wf : DotDims.WF S256x3 S3x8192 S256x8192 [1] [0] [0] [1] [] []
  dot_S256x256_S256x8192_S256x8192_1_0_0_1_n_n_wf : DotDims.WF S256x256 S256x8192 S256x8192 [1] [0] [0] [1] [] []
  dot_S256x256_S256x1_S256x1_1_0_0_1_n_n_wf : DotDims.WF S256x256 S256x1 S256x1 [1] [0] [0] [1] [] []
  dot_S16x256_S256x1024_S16x1024_1_0_0_1_n_n_wf : DotDims.WF S16x256 S256x1024 S16x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x8192.size a ≤ S16x3x8192.size a
  hwx0_0 : ∀ i : grid0.Coords, EltTy.bits .f32 = 32 ∨ (Rect.block (s := S16x3x8192) S1x3x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S16x1x8192.size a
  hwx0_1 : ∀ i : grid0.Coords, EltTy.bits .f32 = 32 ∨ (Rect.block (s := S16x1x8192) S1x1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x3.size a ≤ S256x3.size a
  hwx0_2 : ∀ i : grid0.Coords, EltTy.bits .bf16 = 32 ∨ (Rect.block (s := S256x3) S256x3.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x256x256.size a ≤ S4x256x256.size a
  hwx0_4 : ∀ i : grid0.Coords, EltTy.bits .bf16 = 32 ∨ (Rect.block (s := S4x256x256) S4x256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256x1.size a ≤ S4x256x1.size a
  hwx0_5 : ∀ i : grid0.Coords, EltTy.bits .f32 = 32 ∨ (Rect.block (s := S4x256x1) S4x256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x256x512.size a ≤ S4x256x512.size a
  hwx0_6 : ∀ i : grid0.Coords, EltTy.bits .bf16 = 32 ∨ (Rect.block (s := S4x256x512) S4x256x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x256x1.size a ≤ S4x256x1.size a
  hwx0_7 : ∀ i : grid0.Coords, EltTy.bits .f32 = 32 ∨ (Rect.block (s := S4x256x1) S4x256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S256x1024.size a
  hwx0_8 : ∀ i : grid0.Coords, EltTy.bits .bf16 = 32 ∨ (Rect.block (s := S256x1024) S256x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .f32 = 32 ∨ (Rect.block (s := S256x1) S256x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x1.size a ≤ S16x256x1.size a
  hwx0_10 : ∀ i : grid0.Coords, EltTy.bits .f32 = 32 ∨ (Rect.block (s := S16x256x1) S1x256x1.size (cc0_transform_10 i) (hinb0_10 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x256.size a ≤ S16x256.size a
  hwx1_0 : ∀ i : grid1.Coords, EltTy.bits .f32 = 32 ∨ (Rect.block (s := S16x256) S16x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x1024.size a
  hwx1_1 : ∀ i : grid1.Coords, EltTy.bits .bf16 = 32 ∨ (Rect.block (s := S256x1024) S256x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x1024.size a ≤ S16x1024.size a
  hwx1_3 : ∀ i : grid1.Coords, EltTy.bits .f32 = 32 ∨ (Rect.block (s := S16x1024) S16x1024.size (cc1_transform_3 i) (hinb1_3 i)).WholeWords (EltTy.packing .f32)

variable [Facts₀]

def dot_S256x3_S3x8192_S256x8192_1_0_0_1_n_n : DotDims S256x3 S3x8192 S256x8192 where
  lhsContracting := [1]
  rhsContracting := [0]
  lhsNonContracting := [0]
  rhsNonContracting := [1]
  lhsBatch := []
  rhsBatch := []
  wf := dot_S256x3_S3x8192_S256x8192_1_0_0_1_n_n_wf
def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S16x256_S256x1024_S16x1024_1_0_0_1_n_n : DotDims S16x256 S256x1024 S16x1024 where
  lhsContracting := [1]
  rhsContracting := [0]
  lhsNonContracting := [0]
  rhsNonContracting := [1]
  lhsBatch := []
  rhsBatch := []
  wf := dot_S16x256_S256x1024_S16x1024_1_0_0_1_n_n_wf

abbrev win0_0 : Pipeline.Window sig grid0 :=
  Pipeline.Window.ofSpec (Memref.whole main_v1) S1x3x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S4x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S4x256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S4x256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S4x256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S256x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x256x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v15) S16x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v17) S256x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S16x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x1x8192x3 : Shape := ⟨4, ![16, 1, 8192, 3]⟩
abbrev S16x1x8192 : Shape := ⟨3, ![16, 1, 8192]⟩
abbrev S256x3 : Shape := ⟨2, ![256, 3]⟩
abbrev S256 : Shape := ⟨1, ![256]⟩
abbrev S4x256x256 : Shape := ⟨3, ![4, 256, 256]⟩
abbrev S4x256 : Shape := ⟨2, ![4, 256]⟩
abbrev S4x256x512 : Shape := ⟨3, ![4, 256, 512]⟩
abbrev S256x1024 : Shape := ⟨2, ![256, 1024]⟩
abbrev S1024x256 : Shape := ⟨2, ![1024, 256]⟩
abbrev S1024 : Shape := ⟨1, ![1024]⟩
abbrev S16x8192x3 : Shape := ⟨3, ![16, 8192, 3]⟩
abbrev S16x8192x256 : Shape := ⟨3, ![16, 8192, 256]⟩
abbrev S1x1x256 : Shape := ⟨3, ![1, 1, 256]⟩
abbrev S_ : Shape := ⟨0, ![]⟩
abbrev S1x256x256 : Shape := ⟨3, ![1, 256, 256]⟩
abbrev S256x256 : Shape := ⟨2, ![256, 256]⟩
abbrev S1x256 : Shape := ⟨2, ![1, 256]⟩
abbrev S16x256 : Shape := ⟨2, ![16, 256]⟩
abbrev S16x1x256 : Shape := ⟨3, ![16, 1, 256]⟩
abbrev S16x8192x1024 : Shape := ⟨3, ![16, 8192, 1024]⟩
abbrev S16x1x8192x256 : Shape := ⟨4, ![16, 1, 8192, 256]⟩
abbrev S16x1x8192x1 : Shape := ⟨4, ![16, 1, 8192, 1]⟩
abbrev S16x1x1024 : Shape := ⟨3, ![16, 1, 1024]⟩
abbrev S1x1x1024 : Shape := ⟨3, ![1, 1, 1024]⟩

abbrev nBuf : Space → Nat
  | .hbm => 161
  | .vmem => 0
  | .smem => 0
  | _ => 0

abbrev hbmTy0_0 (i : Nat) : BufTy := match i % 128 with
  | 0 => ⟨S16x1x8192x3, .f32⟩
  | 1 => ⟨S16x1x8192x3, .f32⟩
  | 2 => ⟨S16x1x8192, .i1⟩
  | 3 => ⟨S256x3, .f32⟩
  | 4 => ⟨S256, .f32⟩
  | 5 => ⟨S4x256x256, .f32⟩
  | 6 => ⟨S4x256, .f32⟩
  | 7 => ⟨S4x256x512, .f32⟩
  | 8 => ⟨S4x256, .f32⟩
  | 9 => ⟨S256x1024, .f32⟩
  | 10 => ⟨S256, .f32⟩
  | 11 => ⟨S1024x256, .f32⟩
  | 12 => ⟨S1024, .f32⟩
  | 13 => ⟨S16x8192x3, .f32⟩
  | 14 => ⟨S16x8192x256, .f32⟩
  | 15 => ⟨S1x1x256, .f32⟩
  | 16 => ⟨S16x8192x256, .f32⟩
  | 17 => ⟨S16x8192x256, .f32⟩
  | 18 => ⟨S_, .f32⟩
  | 19 => ⟨S16x8192x256, .f32⟩
  | 20 => ⟨S16x8192x256, .f32⟩
  | 21 => ⟨S1x256x256, .f32⟩
  | 22 => ⟨S256x256, .f32⟩
  | 23 => ⟨S16x8192x256, .f32⟩
  | 24 => ⟨S1x256, .f32⟩
  | 25 => ⟨S256, .f32⟩
  | 26 => ⟨S1x1x256, .f32⟩
  | 27 => ⟨S16x8192x256, .f32⟩
  | 28 => ⟨S16x8192x256, .f32⟩
  | 29 => ⟨S_, .f32⟩
  | 30 => ⟨S16x8192x256, .f32⟩
  | 31 => ⟨S16x8192x256, .f32⟩
  | 32 => ⟨S_, .f32⟩
  | 33 => ⟨S16x256, .f32⟩
  | 34 => ⟨S1x256x256, .f32⟩
  | 35 => ⟨S256x256, .f32⟩
  | 36 => ⟨S16x8192x256, .f32⟩
  | 37 => ⟨S1x256x256, .f32⟩
  | 38 => ⟨S256x256, .f32⟩
  | 39 => ⟨S16x256, .f32⟩
  | 40 => ⟨S16x1x256, .f32⟩
  | 41 => ⟨S16x8192x256, .f32⟩
  | 42 => ⟨S16x8192x256, .f32⟩
  | 43 => ⟨S1x256, .f32⟩
  | 44 => ⟨S256, .f32⟩
  | 45 => ⟨S1x1x256, .f32⟩
  | 46 => ⟨S16x8192x256, .f32⟩
  | 47 => ⟨S16x8192x256, .f32⟩
  | 48 => ⟨S_, .f32⟩
  | 49 => ⟨S16x8192x256, .f32⟩
  | 50 => ⟨S16x8192x256, .f32⟩
  | 51 => ⟨S1x256x256, .f32⟩
  | 52 => ⟨S256x256, .f32⟩
  | 53 => ⟨S16x8192x256, .f32⟩
  | 54 => ⟨S1x256, .f32⟩
  | 55 => ⟨S256, .f32⟩
  | 56 => ⟨S1x1x256, .f32⟩
  | 57 => ⟨S16x8192x256, .f32⟩
  | 58 => ⟨S16x8192x256, .f32⟩
  | 59 => ⟨S_, .f32⟩
  | 60 => ⟨S16x8192x256, .f32⟩
  | 61 => ⟨S16x8192x256, .f32⟩
  | 62 => ⟨S_, .f32⟩
  | 63 => ⟨S16x256, .f32⟩
  | 64 => ⟨S1x256x256, .f32⟩
  | 65 => ⟨S256x256, .f32⟩
  | 66 => ⟨S16x8192x256, .f32⟩
  | 67 => ⟨S1x256x256, .f32⟩
  | 68 => ⟨S256x256, .f32⟩
  | 69 => ⟨S16x256, .f32⟩
  | 70 => ⟨S16x1x256, .f32⟩
  | 71 => ⟨S16x8192x256, .f32⟩
  | 72 => ⟨S16x8192x256, .f32⟩
  | 73 => ⟨S1x256, .f32⟩
  | 74 => ⟨S256, .f32⟩
  | 75 => ⟨S1x1x256, .f32⟩
  | 76 => ⟨S16x8192x256, .f32⟩
  | 77 => ⟨S16x8192x256, .f32⟩
  | 78 => ⟨S_, .f32⟩
  | 79 => ⟨S16x8192x256, .f32⟩
  | 80 => ⟨S16x8192x256, .f32⟩
  | 81 => ⟨S1x256x256, .f32⟩
  | 82 => ⟨S256x256, .f32⟩
  | 83 => ⟨S16x8192x256, .f32⟩
  | 84 => ⟨S1x256, .f32⟩
  | 85 => ⟨S256, .f32⟩
  | 86 => ⟨S1x1x256, .f32⟩
  | 87 => ⟨S16x8192x256, .f32⟩
  | 88 => ⟨S16x8192x256, .f32⟩
  | 89 => ⟨S_, .f32⟩
  | 90 => ⟨S16x8192x256, .f32⟩
  | 91 => ⟨S16x8192x256, .f32⟩
  | 92 => ⟨S_, .f32⟩
  | 93 => ⟨S16x256, .f32⟩
  | 94 => ⟨S1x256x256, .f32⟩
  | 95 => ⟨S256x256, .f32⟩
  | 96 => ⟨S16x8192x256, .f32⟩
  | 97 => ⟨S1x256x256, .f32⟩
  | 98 => ⟨S256x256, .f32⟩
  | 99 => ⟨S16x256, .f32⟩
  | 100 => ⟨S16x1x256, .f32⟩
  | 101 => ⟨S16x8192x256, .f32⟩
  | 102 => ⟨S16x8192x256, .f32⟩
  | 103 => ⟨S1x256, .f32⟩
  | 104 => ⟨S256, .f32⟩
  | 105 => ⟨S1x1x256, .f32⟩
  | 106 => ⟨S16x8192x256, .f32⟩
  | 107 => ⟨S16x8192x256, .f32⟩
  | 108 => ⟨S_, .f32⟩
  | 109 => ⟨S16x8192x256, .f32⟩
  | 110 => ⟨S16x8192x256, .f32⟩
  | 111 => ⟨S1x256x256, .f32⟩
  | 112 => ⟨S256x256, .f32⟩
  | 113 => ⟨S16x8192x256, .f32⟩
  | 114 => ⟨S1x256, .f32⟩
  | 115 => ⟨S256, .f32⟩
  | 116 => ⟨S1x1x256, .f32⟩
  | 117 => ⟨S16x8192x256, .f32⟩
  | 118 => ⟨S16x8192x256, .f32⟩
  | 119 => ⟨S_, .f32⟩
  | 120 => ⟨S16x8192x256, .f32⟩
  | 121 => ⟨S16x8192x256, .f32⟩
  | 122 => ⟨S_, .f32⟩
  | 123 => ⟨S16x256, .f32⟩
  | 124 => ⟨S1x256x256, .f32⟩
  | 125 => ⟨S256x256, .f32⟩
  | 126 => ⟨S16x8192x256, .f32⟩
  | 127 => ⟨S1x256x256, .f32⟩
  | _ => ⟨S16x1x8192x3, .f32⟩

abbrev hbmTy0_1 (i : Nat) : BufTy := match i % 128 with
  | 0 => ⟨S256x256, .f32⟩
  | 1 => ⟨S16x256, .f32⟩
  | 2 => ⟨S16x1x256, .f32⟩
  | 3 => ⟨S16x8192x256, .f32⟩
  | 4 => ⟨S16x8192x256, .f32⟩
  | 5 => ⟨S1x256, .f32⟩
  | 6 => ⟨S256, .f32⟩
  | 7 => ⟨S1x1x256, .f32⟩
  | 8 => ⟨S16x8192x256, .f32⟩
  | 9 => ⟨S16x8192x256, .f32⟩
  | 10 => ⟨S_, .f32⟩
  | 11 => ⟨S16x8192x256, .f32⟩
  | 12 => ⟨S16x8192x256, .f32⟩
  | 13 => ⟨S16x8192x1024, .f32⟩
  | 14 => ⟨S16x8192x256, .f32⟩
  | 15 => ⟨S1x1x256, .f32⟩
  | 16 => ⟨S16x8192x256, .f32⟩
  | 17 => ⟨S16x8192x256, .f32⟩
  | 18 => ⟨S16x1x8192x256, .f32⟩
  | 19 => ⟨S16x1x8192, .i1⟩
  | 20 => ⟨S16x1x8192x1, .i1⟩
  | 21 => ⟨S16x1x8192x1, .f32⟩
  | 22 => ⟨S_, .f32⟩
  | 23 => ⟨S16x1x8192x1, .f32⟩
  | 24 => ⟨S16x1x8192x1, .f32⟩
  | 25 => ⟨S16x1x8192x256, .f32⟩
  | 26 => ⟨S16x1x8192x256, .f32⟩
  | 27 => ⟨S_, .f32⟩
  | 28 => ⟨S16x1x256, .f32⟩
  | 29 => ⟨S16x1x1024, .f32⟩
  | 30 => ⟨S1x1x1024, .f32⟩
  | 31 => ⟨S16x1x1024, .f32⟩
  | 32 => ⟨S16x1x1024, .f32⟩
  | _ => ⟨S16x1x8192x3, .f32⟩

abbrev hbmTy (i : Nat) : BufTy := match i / 128 with
  | 0 => hbmTy0_0 i
  | 1 => hbmTy0_1 i
  | _ => ⟨S16x1x8192x3, .f32⟩

abbrev bufTy : (tb : Table) → Fin (tcTables nBuf tb) → BufTy
  | .hbm, ⟨i, _⟩ => hbmTy i
  | _, _ => ⟨S16x1x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_5 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_6 : Ref sig .tc := ⟨.hbm, 89, rfl⟩
abbrev main_v69 : Ref sig .tc := ⟨.hbm, 90, rfl⟩
abbrev main_v70 : Ref sig .tc := ⟨.hbm, 91, rfl⟩
abbrev main_cst_7 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_8 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_9 : Ref sig .tc := ⟨.hbm, 119, rfl⟩
abbrev main_v96 : Ref sig .tc := ⟨.hbm, 120, rfl⟩
abbrev main_v97 : Ref sig .tc := ⟨.hbm, 121, rfl⟩
abbrev main_cst_10 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_11 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_cst_12 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_13 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩

abbrev nD : Nat := 1
abbrev τ : Topo := Topo.v7x

variable {F : FTy → Type} [FloatOps F]

class Facts₀ : Prop where
  shapeCasts_S16x1x8192x3_S16x8192x3 : S16x1x8192x3.ShapeCasts S16x8192x3
  bcast_S256_S1x1x256_2 : S256.BroadcastsInDim S1x1x256 (![2] : Fin 1 → Fin S1x1x256.rank)
  bcast_S1x1x256_S16x8192x256_0_1_2 : S1x1x256.BroadcastsInDim S16x8192x256 (![0, 1, 2] : Fin 3 → Fin S16x8192x256.rank)
  bcast_S_S16x8192x256 : S_.BroadcastsInDim S16x8192x256 (![] : Fin 0 → Fin S16x8192x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  reducesTo_S16x8192x256_S16x256_d1 : S16x8192x256.ReducesTo [1] S16x256
  h_S_ : 0 < S_.numel
  slices_S4x256x512_S1x256x256_0_0_0 : S4x256x512.Slices ![0, 0, 0] S1x256x256
  slices_S4x256x512_S1x256x256_0_0_256 : S4x256x512.Slices ![0, 0, 256] S1x256x256
  bcast_S16x256_S16x1x256_0_2 : S16x256.BroadcastsInDim S16x1x256 (![0, 2] : Fin 2 → Fin S16x1x256.rank)
  bcast_S16x1x256_S16x8192x256_0_1_2 : S16x1x256.BroadcastsInDim S16x8192x256 (![0, 1, 2] : Fin 3 → Fin S16x8192x256.rank)
  slices_S4x256x256_S1x256x256_1_0_0 : S4x256x256.Slices ![1, 0, 0] S1x256x256
  slices_S4x256_S1x256_1_0 : S4x256.Slices ![1, 0] S1x256
  slices_S4x256x512_S1x256x256_1_0_0 : S4x256x512.Slices ![1, 0, 0] S1x256x256
  slices_S4x256x512_S1x256x256_1_0_256 : S4x256x512.Slices ![1, 0, 256] S1x256x256
  slices_S4x256x256_S1x256x256_2_0_0 : S4x256x256.Slices ![2, 0, 0] S1x256x256
  slices_S4x256_S1x256_2_0 : S4x256.Slices ![2, 0] S1x256
  slices_S4x256x512_S1x256x256_2_0_0 : S4x256x512.Slices ![2, 0, 0] S1x256x256
  slices_S4x256x512_S1x256x256_2_0_256 : S4x256x512.Slices ![2, 0, 256] S1x256x256
  slices_S4x256x256_S1x256x256_3_0_0 : S4x256x256.Slices ![3, 0, 0] S1x256x256
  slices_S4x256_S1x256_3_0 : S4x256.Slices ![3, 0] S1x256
  slices_S4x256x512_S1x256x256_3_0_0 : S4x256x512.Slices ![3, 0, 0] S1x256x256
  slices_S4x256x512_S1x256x256_3_0_256 : S4x256x512.Slices ![3, 0, 256] S1x256x256
  concatenates_S16x8192x256_S16x8192x256_S16x8192x256_S16x8192x256_S16x8192x1024_d2 : Shape.Concatenates [S16x8192x256, S16x8192x256, S16x8192x256, S16x8192x256] S16x8192x1024 2
  shapeCasts_S16x8192x256_S16x1x8192x256 : S16x8192x256.ShapeCasts S16x1x8192x256
  bcast_S16x1x8192_S16x1x8192x1_0_1_2 : S16x1x8192.BroadcastsInDim S16x1x8192x1 (![0, 1, 2] : Fin 3 → Fin S16x1x8192x1.rank)
  bcast_S_S16x1x8192x1 : S_.BroadcastsInDim S16x1x8192x1 (![] : Fin 0 → Fin S16x1x8192x1.rank)
  bcast_S16x1x8192x1_S16x1x8192x256_0_1_2_3 : S16x1x8192x1.BroadcastsInDim S16x1x8192x256 (![0, 1, 2, 3] : Fin 4 → Fin S16x1x8192x256.rank)
  reducesTo_S16x1x8192x256_S16x1x256_d2 : S16x1x8192x256.ReducesTo [2] S16x1x256
  bcast_S1024_S1x1x1024_2 : S1024.BroadcastsInDim S1x1x1024 (![2] : Fin 1 → Fin S1x1x1024.rank)
  bcast_S1x1x1024_S16x1x1024_0_1_2 : S1x1x1024.BroadcastsInDim S16x1x1024 (![0, 1, 2] : Fin 3 → Fin S16x1x1024.rank)
  dot_S16x8192x3_S256x3_S16x8192x256_2_1_01_0_n_n_wf : DotDims.WF S16x8192x3 S256x3 S16x8192x256 [2] [1] [0, 1] [0] [] []
  dot_S16x8192x256_S256x256_S16x8192x256_2_1_01_0_n_n_wf : DotDims.WF S16x8192x256 S256x256 S16x8192x256 [2] [1] [0, 1] [0] [] []
  dot_S16x256_S256x256_S16x256_1_1_0_0_n_n_wf : DotDims.WF S16x256 S256x256 S16x256 [1] [1] [0] [0] [] []
  dot_S16x8192x1024_S256x1024_S16x8192x256_2_1_01_0_n_n_wf : DotDims.WF S16x8192x1024 S256x1024 S16x8192x256 [2] [1] [0, 1] [0] [] []
  dot_S16x1x256_S1024x256_S16x1x1024_2_1_01_0_n_n_wf : DotDims.WF S16x1x256 S1024x256 S16x1x1024 [2] [1] [0, 1] [0] [] []

variable [Facts₀]

def dot_S16x8192x3_S256x3_S16x8192x256_2_1_01_0_n_n : DotDims S16x8192x3 S256x3 S16x8192x256 where
  lhsContracting := [2]
  rhsContracting := [1]
  lhsNonContracting := [0, 1]
  rhsNonContracting := [0]
  lhsBatch := []
  rhsBatch := []
  wf := dot_S16x8192x3_S256x3_S16x8192x256_2_1_01_0_n_n_wf
def dot_S16x8192x256_S256x256_S16x8192x256_2_1_01_0_n_n : DotDims S16x8192x256 S256x256 S16x8192x256 where
  lhsContracting := [2]
  rhsContracting := [1]
  lhsNonContracting := [0, 1]
  rhsNonContracting := [0]
  lhsBatch := []
  rhsBatch := []
  wf := dot_S16x8192x256_S256x256_S16x8192x256_2_1_01_0_n_n_wf
def dot_S16x256_S256x256_S16x256_1_1_0_0_n_n : DotDims S16x256 S256x256 S16x256 where
  lhsContracting := [1]
  rhsContracting := [1]
  lhsNonContracting := [0]
  rhsNonContracting := [0]
  lhsBatch := []
  rhsBatch := []
  wf := dot_S16x256_S256x256_S16x256_1_1_0_0_n_n_wf
def dot_S16x8192x1024_S256x1024_S16x8192x256_2_1_01_0_n_n : DotDims S16x8192x1024 S256x1024 S16x8192x256 where
  lhsContracting := [2]
  rhsContracting := [1]
  lhsNonContracting := [0, 1]
  rhsNonContracting := [0]
  lhsBatch := []
  rhsBatch := []
  wf := dot_S16x8192x1024_S256x1024_S16x8192x256_2_1_01_0_n_n_wf
def dot_S16x1x256_S1024x256_S16x1x1024_2_1_01_0_n_n : DotDims S16x1x256 S1024x256 S16x1x1024 where
  lhsContracting := [2]
  rhsContracting := [1]
  lhsNonContracting := [0, 1]
  rhsNonContracting := [0]
  lhsBatch := []
  rhsBatch := []
  wf := dot_S16x1x256_S1024x256_S16x1x1024_2_1_01_0_n_n_wf

class Facts : Prop extends Facts₀ where

variable [Facts]
-- ==== Proof.KernelRun.lean ====
/-
  The idealized kernel's run with its RESULT kept: every weakly fair execution of @main terminates, nothing
  faulting, the result buffer holding the last boundary's contents at it (the fold of @main's five segments from the
  launch memory: host operations, the first pallas_call, host operations, the second pallas_call, the final reshape)
  and the argument arrays as launched.  The frame theorem states the same run and keeps only the arguments; here the
  final state is read at the result buffer too.
-/
import proofs.«113704_j40656160424210_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read at the last boundary's contents. -/
theorem run_named : θ_run defs (onTc (τ := τ) (main (F := F))) ⟨m, fun _ => 0, ρ⟩ (fun r => ∀ c : Dev nD,
      r.2.mem ((c.tc : Thread nD τ).loc main_v20) = W5 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v20 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelIdeal.Named

end
-- ==== Proof.Region0.lean ====
/-
  The first pallas_call (the conv block and the pooling): a grid of 16 points, one per cloud.  Point `t` reads
  block `t` of the transposed clouds [16, 3, 8192] and of the mask row [16, 1, 8192], and the eight weight and bias
  arrays whole; it writes block `t` = rows (t, ·, 0) of the output [16, 256, 1].  The sixteen blocks tile the output,
  so after the region entry (b, h, 0) of the output is entry (0, h, 0) of the body's result on cloud `b`'s blocks.
-/
import proofs.«113704_j40656160424210_1_alg».proof.Proof.Gen.KernelIdeal.Frame
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

/-- Where each window's block sits at point `t`: the two per-cloud inputs and the output at block (t, 0, 0), the
    weights and biases at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_10.index t (0 : Fin 3) = t.val ∧ win0_10.index t (1 : Fin 3) = 0 ∧ win0_10.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0
    ∧ win0_6.index t (0 : Fin 3) = 0 ∧ win0_6.index t (1 : Fin 3) = 0 ∧ win0_6.index t (2 : Fin 3) = 0
    ∧ win0_7.index t (0 : Fin 3) = 0 ∧ win0_7.index t (1 : Fin 3) = 0 ∧ win0_7.index t (2 : Fin 3) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The grid point of cloud `b`. -/
def pt (b : Fin 16) : Fin cfg0.N := ⟨b.val, by rw [show cfg0.N = 16 from N_0]; exact b.isLt⟩
/-- The cloud of grid point `t`. -/
def cloud (t : Fin cfg0.N) : Fin 16 := ⟨t.val, lt_of_lt_of_eq t.isLt N_0⟩

theorem iblk_2 (c : Dev nD) (t : Fin cfg0.N) : iblk0 V c 2 t = V c main_v6 := by
  obtain ⟨-, -, -, -, -, -, -, -, -, e0, e1, -⟩ := idx_facts t
  funext y
  show V c main_v6 (((cfg0.win 2).blk t).view.emb y) = V c main_v6 y
  refine congrArg (V c main_v6) (funext fun a => Fin.ext ?_)
  match a with
  | ⟨0, _⟩ => show win0_2.index t (0 : Fin 2) * 256 + 1 * (y 0).val = (y 0).val; omega
  | ⟨1, _⟩ => show win0_2.index t (1 : Fin 2) * 3 + 1 * (y 1).val = (y 1).val; omega

theorem iblk_3 (c : Dev nD) (t : Fin cfg0.N) : iblk0 V c 3 t = V c main_v7 := by
  obtain ⟨-, -, -, -, -, -, -, -, -, -, -, e0, e1, -⟩ := idx_facts t
  funext y
  show V c main_v7 (((cfg0.win 3).blk t).view.emb y) = V c main_v7 y
  refine congrArg (V c main_v7) (funext fun a => Fin.ext ?_)
  match a with
  | ⟨0, _⟩ => show win0_3.index t (0 : Fin 2) * 256 + 1 * (y 0).val = (y 0).val; omega
  | ⟨1, _⟩ => show win0_3.index t (1 : Fin 2) * 1 + 1 * (y 1).val = (y 1).val; omega

theorem iblk_4 (c : Dev nD) (t : Fin cfg0.N) : iblk0 V c 4 t = V c main_v8 := by
  obtain ⟨-, -, -, -, -, -, -, -, -, -, -, -, -, e0, e1, e2, -⟩ := idx_facts t
  funext y
  show V c main_v8 (((cfg0.win 4).blk t).view.emb y) = V c main_v8 y
  refine congrArg (V c main_v8) (funext fun a => Fin.ext ?_)
  match a with
  | ⟨0, _⟩ => show win0_4.index t (0 : Fin 3) * 4 + 1 * (y 0).val = (y 0).val; omega
  | ⟨1, _⟩ => show win0_4.index t (1 : Fin 3) * 256 + 1 * (y 1).val = (y 1).val; omega
  | ⟨2, _⟩ => show win0_4.index t (2 : Fin 3) * 256 + 1 * (y 2).val = (y 2).val; omega

theorem iblk_5 (c : Dev nD) (t : Fin cfg0.N) : iblk0 V c 5 t = V c main_v9 := by
  obtain ⟨-, -, -, -, -, -, -, -, -, -, -, -, -, -, -, -, e0, e1, e2, -⟩ := idx_facts t
  funext y
  show V c main_v9 (((cfg0.win 5).blk t).view.emb y) = V c main_v9 y
  refine congrArg (V c main_v9) (funext fun a => Fin.ext ?_)
  match a with
  | ⟨0, _⟩ => show win0_5.index t (0 : Fin 3) * 4 + 1 * (y 0).val = (y 0).val; omega
  | ⟨1, _⟩ => show win0_5.index t (1 : Fin 3) * 256 + 1 * (y 1).val = (y 1).val; omega
  | ⟨2, _⟩ => show win0_5.index t (2 : Fin 3) * 1 + 1 * (y 2).val = (y 2).val; omega

theorem iblk_6 (c : Dev nD) (t : Fin cfg0.N) : iblk0 V c 6 t = V c main_v10 := by
  obtain ⟨-, -, -, -, -, -, -, -, -, -, -, -, -, -, -, -, -, -, -, e0, e1, e2, -⟩ := idx_facts t
  funext y
  show V c main_v10 (((cfg0.win 6).blk t).view.emb y) = V c main_v10 y
  refine congrArg (V c main_v10) (funext fun a => Fin.ext ?_)
  match a with
  | ⟨0, _⟩ => show win0_6.index t (0 : Fin 3) * 4 + 1 * (y 0).val = (y 0).val; omega
  | ⟨1, _⟩ => show win0_6.index t (1 : Fin 3) * 256 + 1 * (y 1).val = (y 1).val; omega
  | ⟨2, _⟩ => show win0_6.index t (2 : Fin 3) * 512 + 1 * (y 2).val = (y 2).val; omega

theorem iblk_7 (c : Dev nD) (t : Fin cfg0.N) : iblk0 V c 7 t = V c main_v11 := by
  obtain ⟨-, -, -, -, -, -, -, -, -, -, -, -, -, -, -, -, -, -, -, -, -, -, e0, e1, e2, -⟩ := idx_facts t
  funext y
  show V c main_v11 (((cfg0.win 7).blk t).view.emb y) = V c main_v11 y
  refine congrArg (V c main_v11) (funext fun a => Fin.ext ?_)
  match a with
  | ⟨0, _⟩ => show win0_7.index t (0 : Fin 3) * 4 + 1 * (y 0).val = (y 0).val; omega
  | ⟨1, _⟩ => show win0_7.index t (1 : Fin 3) * 256 + 1 * (y 1).val = (y 1).val; omega
  | ⟨2, _⟩ => show win0_7.index t (2 : Fin 3) * 1 + 1 * (y 2).val = (y 2).val; omega

theorem iblk_8 (c : Dev nD) (t : Fin cfg0.N) : iblk0 V c 8 t = V c main_v12 := by
  obtain ⟨-, -, -, -, -, -, -, -, -, -, -, -, -, -, -, -, -, -, -, -, -, -, -, -, -, e0, e1, -⟩ := idx_facts t
  funext y
  show V c main_v12 (((cfg0.win 8).blk t).view.emb y) = V c main_v12 y
  refine congrArg (V c main_v12) (funext fun a => Fin.ext ?_)
  match a with
  | ⟨0, _⟩ => show win0_8.index t (0 : Fin 2) * 256 + 1 * (y 0).val = (y 0).val; omega
  | ⟨1, _⟩ => show win0_8.index t (1 : Fin 2) * 1024 + 1 * (y 1).val = (y 1).val; omega

theorem iblk_9 (c : Dev nD) (t : Fin cfg0.N) : iblk0 V c 9 t = V c main_v13 := by
  obtain ⟨-, -, -, -, -, -, -, -, -, -, -, -, -, -, -, -, -, -, -, -, -, -, -, -, -, -, -, e0, e1⟩ := idx_facts t
  funext y
  show V c main_v13 (((cfg0.win 9).blk t).view.emb y) = V c main_v13 y
  refine congrArg (V c main_v13) (funext fun a => Fin.ext ?_)
  match a with
  | ⟨0, _⟩ => show win0_9.index t (0 : Fin 2) * 256 + 1 * (y 0).val = (y 0).val; omega
  | ⟨1, _⟩ => show win0_9.index t (1 : Fin 2) * 1 + 1 * (y 1).val = (y 1).val; omega

/-- The body's result block at point `t`, from the two per-cloud blocks and the whole weight and bias arrays. -/
def blockOut (c : Dev nD) (t : Fin cfg0.N) : Vec F S1x256x1 .f32 :=
  out0_10 (iblk0 V c 0 t) (iblk0 V c 1 t) (V c main_v6) (V c main_v7) (V c main_v8) (V c main_v9) (V c main_v10)
    (V c main_v11) (V c main_v12) (V c main_v13)

/-- The output array [16, 256, 1] after the region. -/
def G0 (c : Dev nD) : S16x256x1.Idx → Elt F .f32 := fun i =>
  blockOut V c (pt (i 0)) (ix3 0 (i 1) (i 2))

/-- What point `t` writes back is block `t` of `G0`. -/
theorem flushed_eq (c : Dev nD) (t : Fin cfg0.N) :
    (dat0 V c).flushed 10 t = ((cfg0.win 10).blk t).view.read (Elt F) (G0 V c) := by
  show (cfg0.win 10).cut (grid0.coords t) ((dat0 V c).after 10 t) = _
  rw [after0_10, iblk_2, iblk_3, iblk_4, iblk_5, iblk_6, iblk_7, iblk_8, iblk_9]
  unfold G0
  have hB : out0_10 (iblk0 V c 0 t) (iblk0 V c 1 t) (V c main_v6) (V c main_v7) (V c main_v8) (V c main_v9) (V c main_v10)
      (V c main_v11) (V c main_v12) (V c main_v13) = blockOut V c t := rfl
  rw [hB]
  generalize blockOut V c = B
  obtain ⟨-, -, -, -, -, -, e0, e1, e2, -⟩ := idx_facts t
  funext y
  show B t y = B (pt ((((cfg0.win 10).blk t).view.emb y) 0)) (ix3 0 ((((cfg0.win 10).blk t).view.emb y) 1) ((((cfg0.win 10).blk t).view.emb y) 2))
  have h0 : (y 0).val < 1 := (y 0).isLt
  have ht : pt ((((cfg0.win 10).blk t).view.emb y) 0) = t := Fin.ext (by
    show win0_10.index t (0 : Fin 3) * 1 + 1 * (y 0).val = t.val; omega)
  have hy : ix3 (0 : Fin 1) ((((cfg0.win 10).blk t).view.emb y) 1) ((((cfg0.win 10).blk t).view.emb y) 2) = y := funext fun a => Fin.ext (by
    match a with
    | ⟨0, _⟩ => show 0 = (y 0).val; omega
    | ⟨1, _⟩ => show win0_10.index t (1 : Fin 3) * 256 + 1 * (y 1).val = (y 1).val; omega
    | ⟨2, _⟩ => show win0_10.index t (2 : Fin 3) * 1 + 1 * (y 2).val = (y 2).val; omega)
  rw [ht]
  exact congrArg (B t) hy.symm

/-- An index of the output array is in point `t`'s block iff each coordinate is in the block's range. -/
theorem mem_blk (t : Fin cfg0.N) (i : S16x256x1.Idx) :
    i ∈ ((cfg0.win 10).blk t).view.set ↔ ∀ a : Fin 3, win0_10.index t a * S1x256x1.size a ≤ (i a).val ∧ (i a).val < win0_10.index t a * S1x256x1.size a + S1x256x1.size a := by
  show i ∈ ((View.whole main_v14).slice (win0_10.rect t)).set ↔ _
  rw [View.set_slice_whole, Rect.mem_set_unit]
  exact Iff.rfl

/-- The output array after the region is `G0`: the blocks tile it. -/
theorem final (c : Dev nD) : (dat0 V c).arrAt 10 cfg0.N = G0 V c :=
  (dat0 V c).arrAt_eq_of_cover 10 (G0 V c) (fun t _ => flushed_eq V c t) (fun i => by
    refine ⟨pt (i 0), flush0_10 _, ?_⟩
    rw [mem_blk]
    obtain ⟨-, -, -, -, -, -, e0, e1, e2, -⟩ := idx_facts (pt (i 0))
    have hp : (pt (i 0)).val = (i 0).val := rfl
    have h1 : (i 1).val < 256 := (i 1).isLt
    have h2 : (i 2).val < 1 := (i 2).isLt
    intro a
    match a with
    | ⟨0, _⟩ => show win0_10.index (pt (i 0)) (0 : Fin 3) * 1 ≤ (i 0).val ∧ (i 0).val < win0_10.index (pt (i 0)) (0 : Fin 3) * 1 + 1; omega
    | ⟨1, _⟩ => show win0_10.index (pt (i 0)) (1 : Fin 3) * 256 ≤ (i 1).val ∧ (i 1).val < win0_10.index (pt (i 0)) (1 : Fin 3) * 256 + 256; omega
    | ⟨2, _⟩ => show win0_10.index (pt (i 0)) (2 : Fin 3) * 1 ≤ (i 2).val ∧ (i 2).val < win0_10.index (pt (i 0)) (2 : Fin 3) * 1 + 1; omega)

/-- Cloud `t`'s block of the transposed clouds, entry by entry. -/
theorem iblk_0_apply (c : Dev nD) (t : Fin cfg0.N) (y : S1x3x8192.Idx) :
    iblk0 V c 0 t y = V c main_v1 (ix3 (cloud t) (y 1) (y 2)) := by
  obtain ⟨e0, e1, e2, -⟩ := idx_facts t
  show V c main_v1 (((cfg0.win 0).blk t).view.emb y) = _
  have h0 : (y 0).val < 1 := (y 0).isLt
  refine congrArg (V c main_v1) (funext fun a => Fin.ext ?_)
  match a with
  | ⟨0, _⟩ => show win0_0.index t (0 : Fin 3) * 1 + 1 * (y 0).val = t.val; omega
  | ⟨1, _⟩ => show win0_0.index t (1 : Fin 3) * 3 + 1 * (y 1).val = (y 1).val; omega
  | ⟨2, _⟩ => show win0_0.index t (2 : Fin 3) * 8192 + 1 * (y 2).val = (y 2).val; omega

/-- Cloud `t`'s block of the mask row, entry by entry. -/
theorem iblk_1_apply (c : Dev nD) (t : Fin cfg0.N) (y : S1x1x8192.Idx) :
    iblk0 V c 1 t y = V c main_v5 (ix3 (cloud t) (y 1) (y 2)) := by
  obtain ⟨-, -, -, e0, e1, e2, -⟩ := idx_facts t
  show V c main_v5 (((cfg0.win 1).blk t).view.emb y) = _
  have h0 : (y 0).val < 1 := (y 0).isLt
  refine congrArg (V c main_v5) (funext fun a => Fin.ext ?_)
  match a with
  | ⟨0, _⟩ => show win0_1.index t (0 : Fin 3) * 1 + 1 * (y 0).val = t.val; omega
  | ⟨1, _⟩ => show win0_1.index t (1 : Fin 3) * 1 + 1 * (y 1).val = (y 1).val; omega
  | ⟨2, _⟩ => show win0_1.index t (2 : Fin 3) * 8192 + 1 * (y 2).val = (y 2).val; omega

end Cert.KernelIdeal.Region0

end
-- ==== Proof.Region1.lean ====
/-
  The second pallas_call (the last projection): one grid point, every window's block is its whole array.  So the
  output array [16, 1024] after the region is the body's result block on the three input arrays as the region
  finds them: what the one point writes back covers the whole array.
-/
import proofs.«113704_j40656160424210_1_alg».proof.Proof.Gen.KernelIdeal.Frame
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- Every window of this region sits at block (0, 0) at its one point. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The output array after the region, as a function of the three input arrays at entry. -/
def G1 (c : Dev nD) : S16x1024.Idx → Elt F .f32 :=
  out1_3 (V c main_v15) (V c main_v17) (V c main_v18)

/-- The first input window's block at the point is the whole [16, 256] array. -/
theorem iblk_0 (c : Dev nD) (t : Fin cfg1.N) : iblk1 V c 0 t = V c main_v15 := by
  obtain ⟨e0, e1, -⟩ := idx_facts t
  funext y
  show V c main_v15 (((cfg1.win 0).blk t).view.emb y) = V c main_v15 y
  refine congrArg (V c main_v15) (funext fun a => Fin.ext ?_)
  match a with
  | ⟨0, _⟩ => show win1_0.index t (0 : Fin 2) * 16 + 1 * (y 0).val = (y 0).val; omega
  | ⟨1, _⟩ => show win1_0.index t (1 : Fin 2) * 256 + 1 * (y 1).val = (y 1).val; omega

theorem iblk_1 (c : Dev nD) (t : Fin cfg1.N) : iblk1 V c 1 t = V c main_v17 := by
  obtain ⟨-, -, e0, e1, -⟩ := idx_facts t
  funext y
  show V c main_v17 (((cfg1.win 1).blk t).view.emb y) = V c main_v17 y
  refine congrArg (V c main_v17) (funext fun a => Fin.ext ?_)
  match a with
  | ⟨0, _⟩ => show win1_1.index t (0 : Fin 2) * 256 + 1 * (y 0).val = (y 0).val; omega
  | ⟨1, _⟩ => show win1_1.index t (1 : Fin 2) * 1024 + 1 * (y 1).val = (y 1).val; omega

theorem iblk_2 (c : Dev nD) (t : Fin cfg1.N) : iblk1 V c 2 t = V c main_v18 := by
  obtain ⟨-, -, -, -, e0, e1, -⟩ := idx_facts t
  funext y
  show V c main_v18 (((cfg1.win 2).blk t).view.emb y) = V c main_v18 y
  refine congrArg (V c main_v18) (funext fun a => Fin.ext ?_)
  match a with
  | ⟨0, _⟩ => show win1_2.index t (0 : Fin 2) * 1 + 1 * (y 0).val = (y 0).val; omega
  | ⟨1, _⟩ => show win1_2.index t (1 : Fin 2) * 1024 + 1 * (y 1).val = (y 1).val; omega

/-- What the point writes back is the whole of `G1`. -/
theorem flushed_eq (c : Dev nD) (t : Fin cfg1.N) :
    (dat1 V c).flushed 3 t = ((cfg1.win 3).blk t).view.read (Elt F) (G1 V c) := by
  show (cfg1.win 3).cut (grid1.coords t) ((dat1 V c).after 3 t) = _
  rw [after1_3, iblk_0, iblk_1, iblk_2]
  unfold G1
  generalize out1_3 (V c main_v15) (V c main_v17) (V c main_v18) = X
  obtain ⟨-, -, -, -, -, -, e0, e1⟩ := idx_facts t
  funext y
  show X y = X (((cfg1.win 3).blk t).view.emb y)
  refine congrArg X (funext fun a => Fin.ext ?_)
  match a with
  | ⟨0, _⟩ => show (y 0).val = win1_3.index t (0 : Fin 2) * 16 + 1 * (y 0).val; omega
  | ⟨1, _⟩ => show (y 1).val = win1_3.index t (1 : Fin 2) * 1024 + 1 * (y 1).val; omega

/-- An index of the output array is in the point's block iff each coordinate is in the block's range. -/
theorem mem_blk (t : Fin cfg1.N) (i : S16x1024.Idx) :
    i ∈ ((cfg1.win 3).blk t).view.set ↔ ∀ a : Fin 2, win1_3.index t a * S16x1024.size a ≤ (i a).val ∧ (i a).val < win1_3.index t a * S16x1024.size a + S16x1024.size a := by
  show i ∈ ((View.whole main_v19).slice (win1_3.rect t)).set ↔ _
  rw [View.set_slice_whole, Rect.mem_set_unit]
  exact Iff.rfl

/-- The output array after the region is `G1`. -/
theorem final (c : Dev nD) : (dat1 V c).arrAt 3 cfg1.N = G1 V c :=
  (dat1 V c).arrAt_eq_of_cover 3 (G1 V c) (fun t _ => flushed_eq V c t) (fun i => by
    refine ⟨t1_0, flush1_3 t1_0, ?_⟩
    rw [mem_blk]
    obtain ⟨-, -, -, -, -, -, e0, e1⟩ := idx_facts t1_0
    intro a
    match a with
    | ⟨0, _⟩ => show win1_3.index t1_0 (0 : Fin 2) * 16 ≤ (i 0).val ∧ (i 0).val < win1_3.index t1_0 (0 : Fin 2) * 16 + 16; have h0 : (i 0).val < 16 := (i 0).isLt; omega
    | ⟨1, _⟩ => show win1_3.index t1_0 (1 : Fin 2) * 1024 ≤ (i 1).val ∧ (i 1).val < win1_3.index t1_0 (1 : Fin 2) * 1024 + 1024; have h1 : (i 1).val < 1024 := (i 1).isLt; omega)

end Cert.KernelIdeal.Region1

end
-- ==== Proof.HostReads.lean ====
/-
  What the host operations around the two pallas_calls leave in the buffers the regions read, as plain terms of
  the argument arrays: before the first call the clouds are regrouped and transposed to [16, 3, 8192], the mask is
  negated, turned into floats and scaled by the word of -100000, the weights pass through a change of float format
  and the biases get a unit axis; between the calls the pooled [16, 256, 1] loses its unit axis, the last weight is
  transposed and the last bias gets a unit axis; after the second call its [16, 1024] gets a unit axis.  Then each
  of these read at an index, at the extended reals (a change of float format is the identity there).
-/
import proofs.«113704_j40656160424210_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo Idealize.ShloMosaic.ValueIdx

section Arrays
variable {F : FTy → Type} [FloatOps F]
variable (m : (ℓ : Loc nD τ sig) → Buf (Elt F) ℓ) (ρ : Dev nD → PrngReg)

/-! ## Before the first call -/

theorem v1_eq (c : Dev nD) : (V1 m ρ c main_v1 : S16x3x8192.Idx → Elt F .f32)
    = transpose S16x3x8192 [0, 2, 1] (shapeCast S16x8192x3 (m ((c : Thread nD τ).loc main_arg1)) shapeCasts_S16x1x8192x3_S16x8192x3) transposes_S16x8192x3_S16x3x8192_0_2_1 := by
  show StableHlo.after hostOps0 (W0 m ρ c) (Proc.devRef .tc main_v1) = _
  after_results <;> rfl

theorem v5_eq (c : Dev nD) : (V1 m ρ c main_v5 : S16x1x8192.Idx → Elt F .f32)
    = mulf (broadcastInDim S16x1x8192 ![] bcast_S_S16x1x8192 (constant (F := F) S_ .f32 0xC7C35000#32))
        (uitofp .f32 (noti (m ((c : Thread nD τ).loc main_arg2)))) := by
  show StableHlo.after hostOps0 (W0 m ρ c) (Proc.devRef .tc main_v5) = _
  after_results <;> rfl

theorem v6_eq (c : Dev nD) : (V1 m ρ c main_v6 : S256x3.Idx → Elt F .bf16)
    = truncf .bf16 (m ((c : Thread nD τ).loc main_arg3)) bitsLt_bf16_f32 := by
  show StableHlo.after hostOps0 (W0 m ρ c) (Proc.devRef .tc main_v6) = _
  after_results <;> rfl

theorem v7_eq (c : Dev nD) : (V1 m ρ c main_v7 : S256x1.Idx → Elt F .f32)
    = shapeCast S256x1 (m ((c : Thread nD τ).loc main_arg4)) shapeCasts_S256_S256x1 := by
  show StableHlo.after hostOps0 (W0 m ρ c) (Proc.devRef .tc main_v7) = _
  after_results <;> rfl

theorem v8_eq (c : Dev nD) : (V1 m ρ c main_v8 : S4x256x256.Idx → Elt F .bf16)
    = truncf .bf16 (m ((c : Thread nD τ).loc main_arg5)) bitsLt_bf16_f32 := by
  show StableHlo.after hostOps0 (W0 m ρ c) (Proc.devRef .tc main_v8) = _
  after_results <;> rfl

theorem v9_eq (c : Dev nD) : (V1 m ρ c main_v9 : S4x256x1.Idx → Elt F .f32)
    = shapeCast S4x256x1 (m ((c : Thread nD τ).loc main_arg6)) shapeCasts_S4x256_S4x256x1 := by
  show StableHlo.after hostOps0 (W0 m ρ c) (Proc.devRef .tc main_v9) = _
  after_results <;> rfl

theorem v10_eq (c : Dev nD) : (V1 m ρ c main_v10 : S4x256x512.Idx → Elt F .bf16)
    = truncf .bf16 (m ((c : Thread nD τ).loc main_arg7)) bitsLt_bf16_f32 := by
  show StableHlo.after hostOps0 (W0 m ρ c) (Proc.devRef .tc main_v10) = _
  after_results <;> rfl

theorem v11_eq (c : Dev nD) : (V1 m ρ c main_v11 : S4x256x1.Idx → Elt F .f32)
    = shapeCast S4x256x1 (m ((c : Thread nD τ).loc main_arg8)) shapeCasts_S4x256_S4x256x1 := by
  show StableHlo.after hostOps0 (W0 m ρ c) (Proc.devRef .tc main_v11) = _
  after_results <;> rfl

theorem v12_eq (c : Dev nD) : (V1 m ρ c main_v12 : S256x1024.Idx → Elt F .bf16)
    = truncf .bf16 (m ((c : Thread nD τ).loc main_arg9)) bitsLt_bf16_f32 := by
  show StableHlo.after hostOps0 (W0 m ρ c) (Proc.devRef .tc main_v12) = _
  after_results <;> rfl

theorem v13_eq (c : Dev nD) : (V1 m ρ c main_v13 : S256x1.Idx → Elt F .f32)
    = shapeCast S256x1 (m ((c : Thread nD τ).loc main_arg10)) shapeCasts_S256_S256x1 := by
  show StableHlo.after hostOps0 (W0 m ρ c) (Proc.devRef .tc main_v13) = _
  after_results <;> rfl

/-! ## Between the calls -/

/-- The second call's first input: the first call's output array with its unit axis dropped. -/
theorem v15_eq (c : Dev nD) : (V3 m ρ c main_v15 : S16x256.Idx → Elt F .f32)
    = shapeCast S16x256 ((dat0 (V1 m ρ) c).arrAt 10 cfg0.N) shapeCasts_S16x256x1_S16x256 := by
  show StableHlo.after hostOps1 (W2 m ρ c) (Proc.devRef .tc main_v15) = _
  after_results
  rw [show W2 m ρ c (Proc.devRef .tc main_v14) = (dat0 (V1 m ρ) c).arrAt 10 cfg0.N from W2_arr m ρ c 10]
  rfl

/-- The last weight is untouched by the first two segments. -/
theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- So is the last bias. -/
theorem W2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem v17_eq (c : Dev nD) : (V3 m ρ c main_v17 : S256x1024.Idx → Elt F .bf16)
    = truncf .bf16 (transpose S256x1024 [1, 0] (m ((c : Thread nD τ).loc main_arg11)) transposes_S1024x256_S256x1024_1_0) bitsLt_bf16_f32 := by
  show StableHlo.after hostOps1 (W2 m ρ c) (Proc.devRef .tc main_v17) = _
  after_results
  rw [W2_arg11]

theorem v18_eq (c : Dev nD) : (V3 m ρ c main_v18 : S1x1024.Idx → Elt F .f32)
    = shapeCast S1x1024 (m ((c : Thread nD τ).loc main_arg12)) shapeCasts_S1024_S1x1024 := by
  show StableHlo.after hostOps1 (W2 m ρ c) (Proc.devRef .tc main_v18) = _
  after_results
  rw [W2_arg12]
  rfl

/-! ## After the second call -/

/-- The result buffer: the second call's output array with a unit axis put in. -/
theorem v20_eq (c : Dev nD) : (W5 m ρ c (Proc.devRef .tc main_v20) : S16x1x1024.Idx → Elt F .f32)
    = shapeCast S16x1x1024 ((dat1 (V3 m ρ) c).arrAt 3 cfg1.N) shapeCasts_S16x1024_S16x1x1024 := by
  show StableHlo.after hostOps2 (W4 m ρ c) (Proc.devRef .tc main_v20) = _
  after_results
  rw [show W4 m ρ c (Proc.devRef .tc main_v19) = (dat1 (V3 m ρ) c).arrAt 3 cfg1.N from W4_arr m ρ c 3]
  rfl

end Arrays

end Cert.KernelIdeal.HostReads

end
-- ==== Proof.HostReadsAt.lean ====
/-
  The buffers the regions read, entry by entry, at the extended reals: the transposed clouds at (b, d, n) are the
  clouds at (b, 0, n, d); the mask row at (b, 0, n) is the word of -100000 times the negated mask as a float; a
  weight after its change of float format is the weight; a bias with a unit axis at (h, 0) is the bias at h; the
  pooled array without its unit axis; the last weight transposed; the result with a unit axis put in.
-/
import proofs.«113704_j40656160424210_1_alg».proof.Proof.HostReads

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

theorem v1_at (c : Dev nD) (b : Fin 16) (d : Fin 3) (n : Fin 8192) :
    (V1 m ρ c main_v1 : S16x3x8192.Idx → EReal) (ix3 b d n) = (m ((c : Thread nD τ).loc main_arg1) : S16x1x8192x3.Idx → EReal) (ix4 b 0 n d) := by
  rw [v1_eq]
  refine (transpose_apply [0, 2, 1] _ transposes_S16x8192x3_S16x3x8192_0_2_1 (ix3 b d n) (ix3 b n d) (fun a => by
    match a with
    | ⟨0, _⟩ => rfl
    | ⟨1, _⟩ => rfl
    | ⟨2, _⟩ => rfl)).trans ?_
  exact shapeCast_apply _ shapeCasts_S16x1x8192x3_S16x8192x3 (ix3 b n d) (ix4 b 0 n d) (by
    rw [Shape.rowMajor_val_four, Shape.rowMajor_val_three]
    show ((b.val * 1 + 0) * 8192 + n.val) * 3 + d.val = (b.val * 8192 + n.val) * 3 + d.val
    omega)

theorem v5_at (c : Dev nD) (b : Fin 16) (n : Fin 8192) :
    (V1 m ρ c main_v5 : S16x1x8192.Idx → EReal) (ix3 b 0 n)
      = Ideal.ofBits .f32 0xC7C35000#32 * (uitofp .f32 (noti (m ((c : Thread nD τ).loc main_arg2))) : FVec Ideal S16x1x8192 .f32) (ix3 b 0 n) := by
  rw [v5_eq]; rfl

theorem v6_at (c : Dev nD) (i : S256x3.Idx) :
    (V1 m ρ c main_v6 : S256x3.Idx → EReal) i = (m ((c : Thread nD τ).loc main_arg3) : S256x3.Idx → EReal) i := by
  rw [v6_eq]; rfl

theorem v7_at (c : Dev nD) (h : Fin 256) :
    (V1 m ρ c main_v7 : S256x1.Idx → EReal) (ix2 h 0) = (m ((c : Thread nD τ).loc main_arg4) : S256.Idx → EReal) (ix1 h) := by
  rw [v7_eq]
  exact shapeCast_apply _ shapeCasts_S256_S256x1 (ix2 h 0) (ix1 h) (by
    rw [Shape.rowMajor_val_one, Shape.rowMajor_val_two]; show h.val = h.val * 1 + 0; omega)

theorem v8_at (c : Dev nD) (i : S4x256x256.Idx) :
    (V1 m ρ c main_v8 : S4x256x256.Idx → EReal) i = (m ((c : Thread nD τ).loc main_arg5) : S4x256x256.Idx → EReal) i := by
  rw [v8_eq]; rfl

theorem v9_at (c : Dev nD) (l : Fin 4) (o : Fin 256) :
    (V1 m ρ c main_v9 : S4x256x1.Idx → EReal) (ix3 l o 0) = (m ((c : Thread nD τ).loc main_arg6) : S4x256.Idx → EReal) (ix2 l o) := by
  rw [v9_eq]
  exact shapeCast_apply _ shapeCasts_S4x256_S4x256x1 (ix3 l o 0) (ix2 l o) (by
    rw [Shape.rowMajor_val_two, Shape.rowMajor_val_three]; show l.val * 256 + o.val = (l.val * 256 + o.val) * 1 + 0; omega)

theorem v10_at (c : Dev nD) (i : S4x256x512.Idx) :
    (V1 m ρ c main_v10 : S4x256x512.Idx → EReal) i = (m ((c : Thread nD τ).loc main_arg7) : S4x256x512.Idx → EReal) i := by
  rw [v10_eq]; rfl

theorem v11_at (c : Dev nD) (l : Fin 4) (o : Fin 256) :
    (V1 m ρ c main_v11 : S4x256x1.Idx → EReal) (ix3 l o 0) = (m ((c : Thread nD τ).loc main_arg8) : S4x256.Idx → EReal) (ix2 l o) := by
  rw [v11_eq]
  exact shapeCast_apply _ shapeCasts_S4x256_S4x256x1 (ix3 l o 0) (ix2 l o) (by
    rw [Shape.rowMajor_val_two, Shape.rowMajor_val_three]; show l.val * 256 + o.val = (l.val * 256 + o.val) * 1 + 0; omega)

theorem v12_at (c : Dev nD) (i : S256x1024.Idx) :
    (V1 m ρ c main_v12 : S256x1024.Idx → EReal) i = (m ((c : Thread nD τ).loc main_arg9) : S256x1024.Idx → EReal) i := by
  rw [v12_eq]; rfl

theorem v13_at (c : Dev nD) (h : Fin 256) :
    (V1 m ρ c main_v13 : S256x1.Idx → EReal) (ix2 h 0) = (m ((c : Thread nD τ).loc main_arg10) : S256.Idx → EReal) (ix1 h) := by
  rw [v13_eq]
  exact shapeCast_apply _ shapeCasts_S256_S256x1 (ix2 h 0) (ix1 h) (by
    rw [Shape.rowMajor_val_one, Shape.rowMajor_val_two]; show h.val = h.val * 1 + 0; omega)

theorem v15_at (c : Dev nD) (b : Fin 16) (h : Fin 256) :
    (V3 m ρ c main_v15 : S16x256.Idx → EReal) (ix2 b h) = ((dat0 (V1 m ρ) c).arrAt 10 cfg0.N : S16x256x1.Idx → EReal) (ix3 b h 0) := by
  rw [v15_eq]
  exact shapeCast_apply _ shapeCasts_S16x256x1_S16x256 (ix2 b h) (ix3 b h 0) (by
    rw [Shape.rowMajor_val_three, Shape.rowMajor_val_two]; show (b.val * 256 + h.val) * 1 + 0 = b.val * 256 + h.val; omega)

theorem v17_at (c : Dev nD) (h : Fin 256) (j : Fin 1024) :
    (V3 m ρ c main_v17 : S256x1024.Idx → EReal) (ix2 h j) = (m ((c : Thread nD τ).loc main_arg11) : S1024x256.Idx → EReal) (ix2 j h) := by
  rw [v17_eq]
  show transpose S256x1024 [1, 0] (m ((c : Thread nD τ).loc main_arg11)) transposes_S1024x256_S256x1024_1_0 (ix2 h j) = _
  exact transpose_apply [1, 0] _ transposes_S1024x256_S256x1024_1_0 (ix2 h j) (ix2 j h) (fun a => by
    match a with
    | ⟨0, _⟩ => rfl
    | ⟨1, _⟩ => rfl)

theorem v18_at (c : Dev nD) (j : Fin 1024) :
    (V3 m ρ c main_v18 : S1x1024.Idx → EReal) (ix2 0 j) = (m ((c : Thread nD τ).loc main_arg12) : S1024.Idx → EReal) (ix1 j) := by
  rw [v18_eq]
  exact shapeCast_apply _ shapeCasts_S1024_S1x1024 (ix2 0 j) (ix1 j) (by
    rw [Shape.rowMajor_val_one, Shape.rowMajor_val_two]; show j.val = 0 * 1024 + j.val; omega)

theorem v20_at (c : Dev nD) (b : Fin 16) (j : Fin 1024) :
    (W5 m ρ c (Proc.devRef .tc main_v20) : S16x1x1024.Idx → EReal) (ix3 b 0 j) = ((dat1 (V3 m ρ) c).arrAt 3 cfg1.N : S16x1024.Idx → EReal) (ix2 b j) := by
  rw [v20_eq]
  exact shapeCast_apply _ shapeCasts_S16x1024_S16x1x1024 (ix3 b 0 j) (ix2 b j) (by
    rw [Shape.rowMajor_val_two, Shape.rowMajor_val_three]; show b.val * 1024 + j.val = (b.val * 1 + 0) * 1024 + j.val; omega)

end Cert.KernelIdeal.HostReads

end
-- ==== Proof.Block1.lean ====
/-
  The second pallas_call's body at an index: entry (b, j) of its result block is the product of the [16, 256]
  input's row b with the [256, 1024] input's column j, plus the [1, 1024] bias at column j.  (The changes of float
  format and the casts between equal shapes are identities; the product into a zero accumulator is the plain sum.)
-/
import proofs.«113704_j40656160424210_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Block1

open Cert.KernelIdeal Cert.KernelIdeal.Gen
open Idealize.ShloMosaic Idealize.ShloMosaic.TcCoe Idealize.SL.Sem Idealize.ShloMosaic.ValueIdx

theorem hz2 : (![0, 0] : Fin 2 → Nat) = fun _ => 0 := funext fun a => by fin_cases a <;> rfl

/-- The matrix product [16, 256] · [256, 1024] into zeros, read at (b, j). -/
theorem matmul_at (l : FVec Ideal S16x256 .bf16) (r : FVec Ideal S256x1024 .bf16) (b : Fin 16) (j : Fin 1024) :
    matmul dot_S16x256_S256x1024_S16x1024_1_0_0_1_n_n none l r (constant S16x1024 .f32 0x00000000#32) (ix2 b j)
      = ∑ h : Fin 256, l (ix2 b h) * r (ix2 h j) := by
  simp only [matmul]
  rw [Ideal.matmul_constant_zero_apply, ← Equiv.sum_comp (ValueIdx.contrEquiv1 dot_S16x256_S256x1024_S16x1024_1_0_0_1_n_n 256 rfl rfl).symm]
  refine Finset.sum_congr rfl fun k _ => ?_
  have hk := ValueIdx.contrEquiv1_symm_val dot_S16x256_S256x1024_S16x1024_1_0_0_1_n_n 256 rfl rfl k
  have el : dot_S16x256_S256x1024_S16x1024_1_0_0_1_n_n.lhsIdx (ix2 b j) ((ValueIdx.contrEquiv1 dot_S16x256_S256x1024_S16x1024_1_0_0_1_n_n 256 rfl rfl).symm k) = ix2 b k := funext fun a => Fin.ext (by
    match a with
    | ⟨0, _⟩ =>
      show (dot_S16x256_S256x1024_S16x1024_1_0_0_1_n_n.lhsIdx (ix2 b j) _ 0).val = b.val
      unfold DotDims.lhsIdx
      rw [dif_neg (show ¬(0 : Fin S16x256.rank) ∈ dot_S16x256_S256x1024_S16x1024_1_0_0_1_n_n.lhsBatch by decide), dif_pos (show (0 : Fin S16x256.rank) ∈ dot_S16x256_S256x1024_S16x1024_1_0_0_1_n_n.lhsNonContracting by decide)]
      rfl
    | ⟨1, _⟩ => exact (dot_S16x256_S256x1024_S16x1024_1_0_0_1_n_n.lhsIdx_val_of_single rfl (ix2 b j) _).trans hk)
  have er : dot_S16x256_S256x1024_S16x1024_1_0_0_1_n_n.rhsIdx (ix2 b j) ((ValueIdx.contrEquiv1 dot_S16x256_S256x1024_S16x1024_1_0_0_1_n_n 256 rfl rfl).symm k) = ix2 k j := funext fun a => Fin.ext (by
    match a with
    | ⟨0, _⟩ => exact (dot_S16x256_S256x1024_S16x1024_1_0_0_1_n_n.rhsIdx_val_of_single rfl (ix2 b j) _).trans hk
    | ⟨1, _⟩ =>
      show (dot_S16x256_S256x1024_S16x1024_1_0_0_1_n_n.rhsIdx (ix2 b j) _ 1).val = j.val
      unfold DotDims.rhsIdx
      rw [dif_neg (show ¬(1 : Fin S256x1024.rank) ∈ dot_S16x256_S256x1024_S16x1024_1_0_0_1_n_n.rhsBatch by decide), dif_pos (show (1 : Fin S256x1024.rank) ∈ dot_S16x256_S256x1024_S16x1024_1_0_0_1_n_n.rhsNonContracting by decide)]
      rfl)
  rw [el, er]

/-- The body's result block at (b, j). -/
theorem block1_value (x0 : Vec Ideal S16x256 .f32) (x1 : Vec Ideal S256x1024 .bf16) (x2 : Vec Ideal S1x1024 .f32) (b : Fin 16) (j : Fin 1024) :
    out1_3 (F := Ideal) x0 x1 x2 (ix2 b j) = ∑ h : Fin 256, x0 (ix2 b h) * x1 (ix2 h j) + x2 (ix2 0 j) := by
  unfold out1_3
  rw [View.canon_unit_zero hz2]
  simp only [View.ld_unit_zero (S := S16x256) hz2, View.ld_unit_zero (S := S256x1024) hz2, View.ld_unit_zero (S := S1x1024) hz2]
  unfold k1_pay1
  simp only [shapeCast_self]
  refine (addf_apply _ _ _).trans ?_
  refine congrArg₂ (· + ·) ((matmul_at _ _ b j).trans (Finset.sum_congr rfl fun h _ => rfl)) ?_
  exact broadcastTo_apply x2 broadcasts_S1x1024_S16x1024 (ix2 b j) (ix2 0 j) (fun a => by
    match a with
    | ⟨0, _⟩ => show 0 = if (1 : Nat) = 1 then 0 else _; rw [if_pos rfl]
    | ⟨1, _⟩ => show j.val = if (1024 : Nat) = 1 then 0 else j.val; rw [if_neg (by decide)])

end Cert.KernelIdeal.Block1

end
-- ==== Proof.Consts.lean ====
/-
  The two float words of the mask's penalty as the extended reals they denote: 0x47C35000 is 100000 and
  0xC7C35000 is -100000, so the second is the negative of the first.  (Stated once, in one module, so that the
  unfolding of the word decoder happens in one place.)
-/
import Idealize.ShloMosaic.PureOps.Ideal

noncomputable section

namespace Cert.Consts

open Idealize.ShloMosaic

theorem ofBits_pos : Ideal.ofBits .f32 0x47C35000#32 = ((100000 : ℝ) : EReal) := by
  simp [Ideal.ofBits, Ideal.ieee, -EReal.coe_mul]; norm_num

theorem ofBits_neg : Ideal.ofBits .f32 0xC7C35000#32 = ((-100000 : ℝ) : EReal) := by
  simp [Ideal.ofBits, Ideal.ieee, -EReal.coe_mul]; norm_num

/-- The negative word is the negative of the positive word. -/
theorem neg_word : Ideal.ofBits .f32 0xC7C35000#32 = -(Ideal.ofBits .f32 0x47C35000#32) := by
  rw [ofBits_pos, ofBits_neg, ← EReal.coe_neg]

/-- Adding the negative word's multiple is taking the positive word's multiple away's opposite:
    `-(w₋ · u) = w₊ · u` for every extended real `u`. -/
theorem neg_mul_word (u : EReal) : -(Ideal.ofBits .f32 0xC7C35000#32 * u) = Ideal.ofBits .f32 0x47C35000#32 * u := by
  rw [neg_word, neg_mul, neg_neg]

end Cert.Consts

end
-- ==== Proof.Spec.lean ====
/-
  The function both programs compute, for ONE point cloud (one batch entry), over the extended reals.

  A cloud is `p n d` (8192 points, 3 coordinates).  With `relu x = max x 0`:
    * the input layer        `y₀ n h = relu (Σ_d p n d · W_in h d + b_in h)`;
    * four layers, each from the previous layer's output `y`:
        `a n o = relu (Σ_k y n k · Wl o k + bl o)`                       (a pointwise convolution),
        `g o   = max_n a n o`                                           (the maximum over the points, from -∞),
        `z n o = relu ((Σ_k a n k · Wg o k + Σ_k g k · Wg o (256+k)) + bg o)`;
    * the four layer outputs laid side by side (`1024 = 4 · 256` channels: channel `c` is channel `c % 256` of
      layer `c / 256`), projected: `out n o = Σ_c cat n c · Wo o c + bo o`;
    * a per-point term `s n` taken away (the mask's penalty), and the maximum over the points:
        `pooled o = max_n (out n o - s n)`;
    * the last projection `res j = Σ_h pooled h · Wf j h + bf j`.
  Every product is written activation · weight, every sum in this grouping; a program that multiplies in the
  other order, or accumulates the 1024 channels as four blocks of 256, computes the same extended reals
  (`mul_comm`; a sum over 1024 = 4 · 256 indices is the sum of its four blocks), with no appeal to finiteness: only commutativity and associativity of + and ·
  are used, and these hold at the infinities too.
-/
import Idealize.ShloMosaic.PureOps.Ideal
import Idealize.ShloMosaic.PureOps.Ideal.Laws

noncomputable section

namespace Cert.Spec

open Idealize.ShloMosaic

/-- The f32 word of `+0.0` as an extended real (it is `0`: `zeroW_eq`). -/
abbrev zeroW : EReal := Ideal.ofBits .f32 0x00000000#32
/-- The f32 word of `-∞` as an extended real: where every maximum over the points starts. -/
abbrev negInfW : EReal := Ideal.ofBits .f32 0xFF800000#32

theorem zeroW_eq : zeroW = 0 := Ideal.ofBits_zero_f32

/-- `relu`: the larger of a value and zero. -/
def relu (x : EReal) : EReal := max x zeroW

/-- The maximum of a quantity over the 8192 points, from `-∞`. -/
def ptMax (f : Fin 8192 → EReal) : EReal := (Finset.univ : Finset (Fin 8192)).fold max negInfW f

/-- The input layer: three coordinates to 256 channels, bias, relu. -/
def inLayer (Win : Fin 256 → Fin 3 → EReal) (bin : Fin 256 → EReal) (p : Fin 8192 → Fin 3 → EReal)
    (n : Fin 8192) (h : Fin 256) : EReal :=
  relu (∑ d : Fin 3, p n d * Win h d + bin h)

/-- A pointwise convolution 256 → 256 with bias and relu. -/
def conv (W : Fin 256 → Fin 256 → EReal) (b : Fin 256 → EReal) (y : Fin 8192 → Fin 256 → EReal)
    (n : Fin 8192) (o : Fin 256) : EReal :=
  relu (∑ k : Fin 256, y n k * W o k + b o)

/-- Column `k` of the first half of a 512-column weight. -/
def lo (k : Fin 256) : Fin 512 := ⟨k.val, by have := k.isLt; omega⟩
/-- Column `k` of the second half. -/
def hi (k : Fin 256) : Fin 512 := ⟨256 + k.val, by have := k.isLt; omega⟩

/-- The second half of a layer: the activations and their maxima over the points, through the two halves of `Wg`. -/
def glob (Wg : Fin 256 → Fin 512 → EReal) (bg : Fin 256 → EReal) (a : Fin 8192 → Fin 256 → EReal)
    (n : Fin 8192) (o : Fin 256) : EReal :=
  relu (((∑ k : Fin 256, a n k * Wg o (lo k)) + (∑ k : Fin 256, ptMax (fun n' => a n' k) * Wg o (hi k))) + bg o)

/-- One layer. -/
def layer (Wl : Fin 256 → Fin 256 → EReal) (bl : Fin 256 → EReal) (Wg : Fin 256 → Fin 512 → EReal) (bg : Fin 256 → EReal)
    (y : Fin 8192 → Fin 256 → EReal) : Fin 8192 → Fin 256 → EReal :=
  glob Wg bg (conv Wl bl y)

section Net
variable (p : Fin 8192 → Fin 3 → EReal) (s : Fin 8192 → EReal)
  (Win : Fin 256 → Fin 3 → EReal) (bin : Fin 256 → EReal)
  (Wl : Fin 4 → Fin 256 → Fin 256 → EReal) (bl : Fin 4 → Fin 256 → EReal)
  (Wg : Fin 4 → Fin 256 → Fin 512 → EReal) (bg : Fin 4 → Fin 256 → EReal)
  (Wo : Fin 256 → Fin 1024 → EReal) (bo : Fin 256 → EReal)
  (Wf : Fin 1024 → Fin 256 → EReal) (bf : Fin 1024 → EReal)

/-- The outputs of the four layers. -/
def feat1 : Fin 8192 → Fin 256 → EReal := layer (Wl 0) (bl 0) (Wg 0) (bg 0) (inLayer Win bin p)
def feat2 : Fin 8192 → Fin 256 → EReal := layer (Wl 1) (bl 1) (Wg 1) (bg 1) (feat1 p Win bin Wl bl Wg bg)
def feat3 : Fin 8192 → Fin 256 → EReal := layer (Wl 2) (bl 2) (Wg 2) (bg 2) (feat2 p Win bin Wl bl Wg bg)
def feat4 : Fin 8192 → Fin 256 → EReal := layer (Wl 3) (bl 3) (Wg 3) (bg 3) (feat3 p Win bin Wl bl Wg bg)

/-- The four outputs by number. -/
def feats (l : Fin 4) : Fin 8192 → Fin 256 → EReal :=
  match l with
  | 0 => feat1 p Win bin Wl bl Wg bg
  | 1 => feat2 p Win bin Wl bl Wg bg
  | 2 => feat3 p Win bin Wl bl Wg bg
  | 3 => feat4 p Win bin Wl bl Wg bg

/-- The four outputs side by side: 1024 channels, channel `c` from layer `c / 256`. -/
def cat (n : Fin 8192) (c : Fin 1024) : EReal :=
  feats p Win bin Wl bl Wg bg ⟨c.val / 256, by have := c.isLt; omega⟩ n ⟨c.val % 256, Nat.mod_lt _ (by decide)⟩

/-- The output projection 1024 → 256 with bias. -/
def out (n : Fin 8192) (o : Fin 256) : EReal :=
  ∑ c : Fin 1024, cat p Win bin Wl bl Wg bg n c * Wo o c + bo o

/-- The per-point term taken away, then the maximum over the points. -/
def pooled (o : Fin 256) : EReal :=
  ptMax fun n => out p Win bin Wl bl Wg bg Wo bo n o - s n

/-- The last projection 256 → 1024 with bias. -/
def res (j : Fin 1024) : EReal :=
  ∑ h : Fin 256, pooled p s Win bin Wl bl Wg bg Wo bo h * Wf j h + bf j

end Net

end Cert.Spec

end
-- ==== Proof.Goal.lean ====
/-
  The result array [16, 1, 1024] as ONE function of the argument arrays: entry (b, 0, j) is the specification's
  `res` for cloud `b` (the second argument array's slice `pc[b, 0]`), the per-point term being the mask's
  penalty `100000 · float(¬ mask[b, 0, n])`.  The first argument array (xyz) is not read.
-/
import proofs.«113704_j40656160424210_1_alg».proof.Proof.Spec
import Idealize.ShloMosaic.Lib.ValueIdx

noncomputable section

namespace Cert.Goal

open Idealize.ShloMosaic Idealize.ShloMosaic.ValueIdx

/-- The f32 word of `100000.0`. -/
abbrev penaltyW : EReal := Ideal.ofBits .f32 0x47C35000#32

/-- What is taken away at point `n` of cloud `b`: the penalty times the negated mask as a float. -/
def penalty (mask : (⟨3, ![16, 1, 8192]⟩ : Shape).Idx → BitVec 1) (b : Fin 16) (n : Fin 8192) : EReal :=
  penaltyW * (uitofp .f32 (noti mask) : FVec Ideal ⟨3, ![16, 1, 8192]⟩ .f32) (ix3 b 0 n)

/-- The result array as a function of the argument arrays. -/
def G (pc : (⟨4, ![16, 1, 8192, 3]⟩ : Shape).Idx → EReal) (mask : (⟨3, ![16, 1, 8192]⟩ : Shape).Idx → BitVec 1)
    (W_in : (⟨2, ![256, 3]⟩ : Shape).Idx → EReal) (b_in : (⟨1, ![256]⟩ : Shape).Idx → EReal)
    (Wl : (⟨3, ![4, 256, 256]⟩ : Shape).Idx → EReal) (bl : (⟨2, ![4, 256]⟩ : Shape).Idx → EReal)
    (Wg : (⟨3, ![4, 256, 512]⟩ : Shape).Idx → EReal) (bg : (⟨2, ![4, 256]⟩ : Shape).Idx → EReal)
    (Wo : (⟨2, ![256, 1024]⟩ : Shape).Idx → EReal) (bo : (⟨1, ![256]⟩ : Shape).Idx → EReal)
    (Wf : (⟨2, ![1024, 256]⟩ : Shape).Idx → EReal) (bf : (⟨1, ![1024]⟩ : Shape).Idx → EReal) :
    (⟨3, ![16, 1, 1024]⟩ : Shape).Idx → EReal := fun i =>
  Cert.Spec.res (fun n d => pc (ix4 (i 0) 0 n d)) (penalty mask (i 0))
    (fun h d => W_in (ix2 h d)) (fun h => b_in (ix1 h))
    (fun l o k => Wl (ix3 l o k)) (fun l o => bl (ix2 l o))
    (fun l o c => Wg (ix3 l o c)) (fun l o => bg (ix2 l o))
    (fun o c => Wo (ix2 o c)) (fun o => bo (ix1 o))
    (fun j h => Wf (ix2 j h)) (fun j => bf (ix1 j)) (i 2)

end Cert.Goal

end
-- ==== Proof.LibKeepdims.lean ====
/-
  Column layouts read at an index given by coordinates.
  A row-wise reduction that keeps its reduced axis (a sum over the columns of an [a, b] array, kept as an [a, 1]
  column) meets three layout steps on the way: the vector of row results is cast to a column, the column may be cast
  to a row, and the column is broadcast back over the b columns. Each is a reindexing; at an index written by its
  coordinates the result is the operand at the evident index: row i of the column is entry i of the vector, and entry
  (p, c) of the broadcast is row p of the column, whatever c. The same three steps written as host operations
  (a broadcast that places a vector along axis 0 of a column, a broadcast of a column over columns) read the same way,
  and so do a vector laid as a row, a row repeated over the rows, and a scalar spread over a whole shape.
-/
import Idealize.ShloMosaic.Lib.ValueLayout

namespace Cert.Lib.Keepdims

open Idealize.ShloMosaic Idealize.ShloMosaic.ValueIdx

variable {α : Type}

/-! ## A vector and its column -/

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column cast to a `[1, a]` row reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-! ## A column broadcast over the columns -/

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## The same steps as host broadcasts -/

/-- A host broadcast that lays an `[a]` vector along axis 0 of an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A host broadcast of an `[a, 1]` column over `[a, b]` (axes kept in place) reads, at `(p, c)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## A row as host broadcasts -/

/-- A host broadcast that lays a `[b]` vector along axis 1 of a `[1, b]` row reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A host broadcast of a `[1, b]` row over `[a, b]` (axes kept in place) reads, at `(p, c)`, the row at `(0, c)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- A host broadcast of a scalar to any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.Lib.Keepdims
-- ==== Proof.Block0Ops.lean ====
/-
  The vector operations of the first region's body, read at one index, over the literal shapes the body uses.
  Every activation of the body is a matrix [256 channels, 8192 points]; weights are [256, 256] (or [256, 3],
  [256, 512]) matrices taken out of their stacks, biases are [256, 1] columns.

  * A matrix product into the zero accumulator is the plain sum over the contracted coordinate:
    (A · B)(h, n) = Σ_k A(h, k) · B(k, n), for the three pairs of extents that occur
    ([256,3]·[3,8192], [256,256]·[256,8192], [256,256]·[256,1]).
  * The maximum along the points of row h, started from the word of -∞, is the fold of max over the 8192 points.
  * The two halves of a [256, 512] matrix are its columns k and 256 + k.
  * A slab of a stack (a load through the rectangle that starts at slab l, or at column block c of a matrix)
    reads the stack at (l, ·, ·), resp. the matrix at (·, c + ·).
-/
import proofs.«113704_j40656160424210_1_alg».proof.Proof.Gen.KernelIdeal
import proofs.«113704_j40656160424210_1_alg».proof.Proof.LibKeepdims
import proofs.«113704_j40656160424210_1_alg».proof.Proof.Spec
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.Ideal.Laws

noncomputable section

namespace Cert.KernelIdeal.Block0

open Idealize.ShloMosaic Idealize.ShloMosaic.ValueIdx Cert.KernelIdeal Cert.KernelIdeal.Gen

/-! ## The three matrix products -/

/-- The dimension numbers of [256,256]·[256,8192]. -/
abbrev DA := dot_S256x256_S256x8192_S256x8192_1_0_0_1_n_n
/-- The dimension numbers of [256,3]·[3,8192]. -/
abbrev DI := dot_S256x3_S3x8192_S256x8192_1_0_0_1_n_n
/-- The dimension numbers of [256,256]·[256,1]. -/
abbrev DG := dot_S256x256_S256x1_S256x1_1_0_0_1_n_n

theorem DA_lhs0 (i : S256x8192.Idx) (q : DA.contr.Idx) : (DA.lhsIdx i q 0).val = (i 0).val := by
  unfold DotDims.lhsIdx
  rw [dif_neg (show ¬(0 : Fin S256x256.rank) ∈ DA.lhsBatch by decide), dif_pos (show (0 : Fin S256x256.rank) ∈ DA.lhsNonContracting by decide)]
  rfl
theorem DA_rhs1 (i : S256x8192.Idx) (q : DA.contr.Idx) : (DA.rhsIdx i q 1).val = (i 1).val := by
  unfold DotDims.rhsIdx
  rw [dif_neg (show ¬(1 : Fin S256x8192.rank) ∈ DA.rhsBatch by decide), dif_pos (show (1 : Fin S256x8192.rank) ∈ DA.rhsNonContracting by decide)]
  rfl

/-- (A · B)(h, n) = Σ_k A(h, k) · B(k, n) for a [256,256] weight and a [256,8192] activation. -/
theorem mmA_apply (A : FVec Ideal S256x256 .bf16) (B : FVec Ideal S256x8192 .bf16) (h : Fin 256) (n : Fin 8192) :
    matmul DA none A B (constant (F := Ideal) S256x8192 .f32 0x00000000#32) (ix2 h n)
      = ∑ k : Fin 256, A (ix2 h k) * B (ix2 k n) := by
  simp only [matmul]
  rw [Ideal.matmul_constant_zero_apply, ← Equiv.sum_comp (contrEquiv1 DA 256 rfl rfl).symm]
  refine Finset.sum_congr rfl fun k _ => ?_
  have hk := contrEquiv1_symm_val DA 256 rfl rfl k
  have el : DA.lhsIdx (ix2 h n) ((contrEquiv1 DA 256 rfl rfl).symm k) = ix2 h k := funext fun a => Fin.ext (by
    match a with
    | ⟨0, _⟩ => exact DA_lhs0 _ _
    | ⟨1, _⟩ => exact (DA.lhsIdx_val_of_single rfl _ _).trans hk)
  have er : DA.rhsIdx (ix2 h n) ((contrEquiv1 DA 256 rfl rfl).symm k) = ix2 k n := funext fun a => Fin.ext (by
    match a with
    | ⟨0, _⟩ => exact (DA.rhsIdx_val_of_single rfl _ _).trans hk
    | ⟨1, _⟩ => exact DA_rhs1 _ _)
  rw [el, er]

theorem DI_lhs0 (i : S256x8192.Idx) (q : DI.contr.Idx) : (DI.lhsIdx i q 0).val = (i 0).val := by
  unfold DotDims.lhsIdx
  rw [dif_neg (show ¬(0 : Fin S256x3.rank) ∈ DI.lhsBatch by decide), dif_pos (show (0 : Fin S256x3.rank) ∈ DI.lhsNonContracting by decide)]
  rfl
theorem DI_rhs1 (i : S256x8192.Idx) (q : DI.contr.Idx) : (DI.rhsIdx i q 1).val = (i 1).val := by
  unfold DotDims.rhsIdx
  rw [dif_neg (show ¬(1 : Fin S3x8192.rank) ∈ DI.rhsBatch by decide), dif_pos (show (1 : Fin S3x8192.rank) ∈ DI.rhsNonContracting by decide)]
  rfl

/-- (A · B)(h, n) = Σ_d A(h, d) · B(d, n) for the [256,3] input weight and the [3,8192] cloud. -/
theorem mmI_apply (A : FVec Ideal S256x3 .bf16) (B : FVec Ideal S3x8192 .bf16) (h : Fin 256) (n : Fin 8192) :
    matmul DI none A B (constant (F := Ideal) S256x8192 .f32 0x00000000#32) (ix2 h n)
      = ∑ d : Fin 3, A (ix2 h d) * B (ix2 d n) := by
  simp only [matmul]
  rw [Ideal.matmul_constant_zero_apply, ← Equiv.sum_comp (contrEquiv1 DI 3 rfl rfl).symm]
  refine Finset.sum_congr rfl fun k _ => ?_
  have hk := contrEquiv1_symm_val DI 3 rfl rfl k
  have el : DI.lhsIdx (ix2 h n) ((contrEquiv1 DI 3 rfl rfl).symm k) = ix2 h k := funext fun a => Fin.ext (by
    match a with
    | ⟨0, _⟩ => exact DI_lhs0 _ _
    | ⟨1, _⟩ => exact (DI.lhsIdx_val_of_single rfl _ _).trans hk)
  have er : DI.rhsIdx (ix2 h n) ((contrEquiv1 DI 3 rfl rfl).symm k) = ix2 k n := funext fun a => Fin.ext (by
    match a with
    | ⟨0, _⟩ => exact (DI.rhsIdx_val_of_single rfl _ _).trans hk
    | ⟨1, _⟩ => exact DI_rhs1 _ _)
  rw [el, er]

theorem DG_lhs0 (i : S256x1.Idx) (q : DG.contr.Idx) : (DG.lhsIdx i q 0).val = (i 0).val := by
  unfold DotDims.lhsIdx
  rw [dif_neg (show ¬(0 : Fin S256x256.rank) ∈ DG.lhsBatch by decide), dif_pos (show (0 : Fin S256x256.rank) ∈ DG.lhsNonContracting by decide)]
  rfl
theorem DG_rhs1 (i : S256x1.Idx) (q : DG.contr.Idx) : (DG.rhsIdx i q 1).val = (i 1).val := by
  unfold DotDims.rhsIdx
  rw [dif_neg (show ¬(1 : Fin S256x1.rank) ∈ DG.rhsBatch by decide), dif_pos (show (1 : Fin S256x1.rank) ∈ DG.rhsNonContracting by decide)]
  rfl

/-- (A · g)(h, u) = Σ_k A(h, k) · g(k, u) for a [256,256] weight and a [256,1] column. -/
theorem mmG_apply (A : FVec Ideal S256x256 .bf16) (B : FVec Ideal S256x1 .bf16) (h : Fin 256) (u : Fin 1) :
    matmul DG none A B (constant (F := Ideal) S256x1 .f32 0x00000000#32) (ix2 h u)
      = ∑ k : Fin 256, A (ix2 h k) * B (ix2 k u) := by
  simp only [matmul]
  rw [Ideal.matmul_constant_zero_apply, ← Equiv.sum_comp (contrEquiv1 DG 256 rfl rfl).symm]
  refine Finset.sum_congr rfl fun k _ => ?_
  have hk := contrEquiv1_symm_val DG 256 rfl rfl k
  have el : DG.lhsIdx (ix2 h u) ((contrEquiv1 DG 256 rfl rfl).symm k) = ix2 h k := funext fun a => Fin.ext (by
    match a with
    | ⟨0, _⟩ => exact DG_lhs0 _ _
    | ⟨1, _⟩ => exact (DG.lhsIdx_val_of_single rfl _ _).trans hk)
  have er : DG.rhsIdx (ix2 h u) ((contrEquiv1 DG 256 rfl rfl).symm k) = ix2 k u := funext fun a => Fin.ext (by
    match a with
    | ⟨0, _⟩ => exact (DG.rhsIdx_val_of_single rfl _ _).trans hk
    | ⟨1, _⟩ => exact DG_rhs1 _ _)
  rw [el, er]

/-! ## The maximum along the points -/

/-- The maximum of row h over its 8192 points, from the word of -∞. -/
theorem rowMax_apply (v : FVec Ideal S256x8192 .f32) (hr : S256x8192.Reduces [1] S256) (hφ : FKind.Formats .f32)
    (hacc : (0xFF800000#32 : BitVec 32) = FKind.maximumf.neutral .f32 hφ) (h : Fin 256) :
    multiReduction (F := Ideal) .maximumf [1] S256 v 0xFF800000#32 hr hφ hacc (ix1 h)
      = Cert.Spec.ptMax (fun n => v (ix2 h n)) := by
  refine (Ideal.multiReduction_maximumf_single v _ hr hφ hacc (ix1 h)).trans ?_
  have e : (v ∘ hr.lift (ix1 h)) = fun n : Fin 8192 => v (ix2 h n) :=
    funext fun n => congrArg v (funext fun a => Fin.ext (by
      match a with
      | ⟨0, _⟩ => rfl
      | ⟨1, _⟩ => rfl))
  exact congrArg (fun f => Finset.fold max (Ideal.ofBits .f32 0xFF800000#32) f (Finset.univ : Finset (Fin 8192))) e

/-! ## The two halves of a [256, 512] weight -/

variable {α : Type}

/-- The first half: column k. -/
theorem sliceLo_apply (W : S256x512.Idx → α) (hs : S256x512.Slices ![0, 0] S256x256) (o k : Fin 256) :
    extractStridedSlice S256x256 ![0, 0] W hs (ix2 o k) = W (ix2 o (Cert.Spec.lo k)) :=
  slice2_axis1_apply 0 W hs o k (Cert.Spec.lo k) (Nat.zero_add _).symm

/-- The second half: column 256 + k. -/
theorem sliceHi_apply (W : S256x512.Idx → α) (hs : S256x512.Slices ![0, 256] S256x256) (o k : Fin 256) :
    extractStridedSlice S256x256 ![0, 256] W hs (ix2 o k) = W (ix2 o (Cert.Spec.hi k)) :=
  slice2_axis1_apply 256 W hs o k (Cert.Spec.hi k) rfl

/-! ## A column over the points, a row over the channels -/

/-- A [256,1] column spread over the 8192 points reads, at (h, n), the column at h. -/
theorem col_apply (b : S256x1.Idx → α) (hb : S256x1.Broadcasts S256x8192) (h : Fin 256) (n : Fin 8192) :
    broadcastTo S256x8192 b hb (ix2 h n) = b (ix2 h (0 : Fin 1)) :=
  Cert.Lib.Keepdims.broadcastTo_a1_ab_apply b hb h n

/-- A [1,8192] row spread over the 256 channels reads, at (h, n), the row at n. -/
theorem row_apply (r : S1x8192.Idx → α) (hb : S1x8192.Broadcasts S256x8192) (h : Fin 256) (n : Fin 8192) :
    broadcastTo S256x8192 r hb (ix2 h n) = r (ix2 (0 : Fin 1) n) :=
  broadcastTo_1b_ab_apply r hb h n

/-- A [256] vector as a [256,1] column reads, at (h, u), the vector at h. -/
theorem vecCol_apply (x : S256.Idx → α) (hc : S256.ShapeCasts S256x1) (h : Fin 256) (u : Fin 1) :
    shapeCast S256x1 x hc (ix2 h u) = x (ix1 h) :=
  Cert.Lib.Keepdims.shapeCast_a_a1_apply x hc h u

/-! ## Slabs of the stacks, column blocks of the output weight -/

section Slabs
variable {Val : EltTy → Type} {e : EltTy}

/-- Slab l of a [4,256,256] stack. -/
theorem slabW_apply (X : S4x256x256.Idx → Val e) (l : Fin 4) (inb : ∀ a, (![l.val, 0, 0] : Fin 3 → Nat) a + S1x256x256.size a ≤ S4x256x256.size a)
    (u : Fin 1) (o k : Fin 256) :
    (View.ld (Val := Val) X (Rect.unit (s := S4x256x256) ![l.val, 0, 0] S1x256x256.size inb) : S1x256x256.Idx → Val e) (ix3 u o k) = X (ix3 l o k) :=
  congrArg X (funext fun a => Fin.ext (by
    match a with
    | ⟨0, _⟩ => show l.val + 1 * u.val = l.val; omega
    | ⟨1, _⟩ => show 0 + 1 * o.val = o.val; omega
    | ⟨2, _⟩ => show 0 + 1 * k.val = k.val; omega))

/-- Slab l of a [4,256,1] stack. -/
theorem slabB_apply (X : S4x256x1.Idx → Val e) (l : Fin 4) (inb : ∀ a, (![l.val, 0, 0] : Fin 3 → Nat) a + S1x256x1.size a ≤ S4x256x1.size a)
    (u : Fin 1) (o : Fin 256) (w : Fin 1) :
    (View.ld (Val := Val) X (Rect.unit (s := S4x256x1) ![l.val, 0, 0] S1x256x1.size inb) : S1x256x1.Idx → Val e) (ix3 u o w) = X (ix3 l o w) :=
  congrArg X (funext fun a => Fin.ext (by
    match a with
    | ⟨0, _⟩ => show l.val + 1 * u.val = l.val; omega
    | ⟨1, _⟩ => show 0 + 1 * o.val = o.val; omega
    | ⟨2, _⟩ => show 0 + 1 * w.val = w.val; omega))

/-- Slab l of a [4,256,512] stack. -/
theorem slabG_apply (X : S4x256x512.Idx → Val e) (l : Fin 4) (inb : ∀ a, (![l.val, 0, 0] : Fin 3 → Nat) a + S1x256x512.size a ≤ S4x256x512.size a)
    (u : Fin 1) (o : Fin 256) (c : Fin 512) :
    (View.ld (Val := Val) X (Rect.unit (s := S4x256x512) ![l.val, 0, 0] S1x256x512.size inb) : S1x256x512.Idx → Val e) (ix3 u o c) = X (ix3 l o c) :=
  congrArg X (funext fun a => Fin.ext (by
    match a with
    | ⟨0, _⟩ => show l.val + 1 * u.val = l.val; omega
    | ⟨1, _⟩ => show 0 + 1 * o.val = o.val; omega
    | ⟨2, _⟩ => show 0 + 1 * c.val = c.val; omega))

/-- The column block of the [256,1024] output weight that starts at column c0. -/
theorem blockO_apply (X : S256x1024.Idx → Val e) (c0 : Nat) (inb : ∀ a, (![0, c0] : Fin 2 → Nat) a + S256x256.size a ≤ S256x1024.size a)
    (o k : Fin 256) (c : Fin 1024) (hc : c.val = c0 + k.val) :
    (View.ld (Val := Val) X (Rect.unit (s := S256x1024) ![0, c0] S256x256.size inb) : S256x256.Idx → Val e) (ix2 o k) = X (ix2 o c) :=
  congrArg X (funext fun a => Fin.ext (by
    match a with
    | ⟨0, _⟩ => show 0 + 1 * o.val = o.val; omega
    | ⟨1, _⟩ => show c0 + 1 * k.val = c.val; omega))

end Slabs

end Cert.KernelIdeal.Block0

end
-- ==== Proof.Block0Core.lean ====
/-
  One layer of the body in the kernel's layout [256 channels, 8192 points], as a function of the previous
  activation y (a [256, 8192] matrix) and of the layer's three slabs.

    convAct y W b  (k, n) = relu (Σ_j W(k, j) · y(j, n) + b(k))                   -- the pointwise convolution
    core y W b G   (o, n) = Σ_k G(o, k) · a(k, n)  +  Σ_k G(o, 256 + k) · max_n' a(k, n')     with a = convAct y W b

  Read at (o, n), with every product turned round (mul_comm under each sum), these are the specification's
  `conv` and the part of its `glob` before the bias, at (n, o): the kernel's matrices are the transposes of the
  specification's.
-/
import proofs.«113704_j40656160424210_1_alg».proof.Proof.Block0Ops

noncomputable section

namespace Cert.KernelIdeal.Block0

open Idealize.ShloMosaic Idealize.ShloMosaic.ValueIdx Cert.KernelIdeal Cert.KernelIdeal.Gen

/-- The part of the specification's `glob` before the bias and the relu. -/
def globPre (Wg : Fin 256 → Fin 512 → EReal) (a : Fin 8192 → Fin 256 → EReal) (n : Fin 8192) (o : Fin 256) : EReal :=
  (∑ k : Fin 256, a n k * Wg o (Cert.Spec.lo k)) + (∑ k : Fin 256, Cert.Spec.ptMax (fun n' => a n' k) * Wg o (Cert.Spec.hi k))

theorem glob_eq (Wg : Fin 256 → Fin 512 → EReal) (bg : Fin 256 → EReal) (a : Fin 8192 → Fin 256 → EReal) (n : Fin 8192) (o : Fin 256) :
    Cert.Spec.glob Wg bg a n o = Cert.Spec.relu (globPre Wg a n o + bg o) := rfl

/-- relu (W · y + b) in the kernel's layout. -/
def convAct (y : FVec Ideal S256x8192 .bf16) (vW : Vec Ideal S1x256x256 .bf16) (vb : Vec Ideal S1x256x1 .f32) : FVec Ideal S256x8192 .f32 :=
  maximumf
    (addf (matmul dot_S256x256_S256x8192_S256x8192_1_0_0_1_n_n none (shapeCast S256x256 vW shapeCasts_S1x256x256_S256x256 : FVec Ideal S256x256 .bf16) y (constant S256x8192 .f32 0x00000000#32))
      (broadcastTo S256x8192 (shapeCast S256x1 vb shapeCasts_S1x256x1_S256x1 : FVec Ideal S256x1 .f32) broadcasts_S256x1_S256x8192))
    (broadcast S256x8192 (Scalar.ofBits .f32 0x00000000#32))

/-- At (k, n) it is the specification's convolution at (n, k), of the transposed activation. -/
theorem convAct_apply (y : FVec Ideal S256x8192 .bf16) (vW : Vec Ideal S1x256x256 .bf16) (vb : Vec Ideal S1x256x1 .f32)
    (k : Fin 256) (n : Fin 8192) :
    convAct y vW vb (ix2 k n)
      = Cert.Spec.conv (fun o j => vW (ix3 0 o j)) (fun o => vb (ix3 0 o 0)) (fun n j => y (ix2 j n)) n k := by
  unfold convAct Cert.Spec.conv Cert.Spec.relu
  rw [maximumf_apply, addf_apply, broadcast_apply, mmA_apply, col_apply, shapeCast_1ab_ab_apply]
  refine congrArg (fun s => max (s + vb (ix3 0 k 0)) Cert.Spec.zeroW) (Finset.sum_congr rfl fun j _ => ?_)
  rw [shapeCast_1ab_ab_apply, mul_comm]

/-- The layer up to its second bias, in the kernel's layout. -/
def core (y : FVec Ideal S256x8192 .bf16) (vW : Vec Ideal S1x256x256 .bf16) (vb : Vec Ideal S1x256x1 .f32)
    (vG : Vec Ideal S1x256x512 .bf16) : FVec Ideal S256x8192 .f32 :=
  addf
    (matmul dot_S256x256_S256x8192_S256x8192_1_0_0_1_n_n none
      (extractStridedSlice S256x256 ![0, 0] (shapeCast S256x512 vG shapeCasts_S1x256x512_S256x512 : FVec Ideal S256x512 .bf16) slices_S256x512_o0_0_S256x256)
      (truncf .bf16 (convAct y vW vb) bitsLt_bf16_f32) (constant S256x8192 .f32 0x00000000#32))
    (broadcastTo S256x8192
      (matmul dot_S256x256_S256x1_S256x1_1_0_0_1_n_n none
        (extractStridedSlice S256x256 ![0, 256] (shapeCast S256x512 vG shapeCasts_S1x256x512_S256x512 : FVec Ideal S256x512 .bf16) slices_S256x512_o0_256_S256x256)
        (truncf .bf16 (shapeCast S256x1 (multiReduction .maximumf [1] S256 (convAct y vW vb) 0xFF800000#32 reduces_S256x8192_S256 (.inl rfl) rfl) shapeCasts_S256_S256x1) bitsLt_bf16_f32)
        (constant S256x1 .f32 0x00000000#32))
      broadcasts_S256x1_S256x8192)

/-- At (o, n) it is the specification's `glob` before the bias at (n, o), over the specification's convolution. -/
theorem core_apply (y : FVec Ideal S256x8192 .bf16) (vW : Vec Ideal S1x256x256 .bf16) (vb : Vec Ideal S1x256x1 .f32)
    (vG : Vec Ideal S1x256x512 .bf16) (o : Fin 256) (n : Fin 8192) :
    core y vW vb vG (ix2 o n)
      = globPre (fun o c => vG (ix3 0 o c))
          (Cert.Spec.conv (fun o j => vW (ix3 0 o j)) (fun o => vb (ix3 0 o 0)) (fun n j => y (ix2 j n))) n o := by
  unfold core globPre
  rw [addf_apply, mmA_apply, col_apply, mmG_apply]
  refine congrArg₂ (· + ·) (Finset.sum_congr rfl fun k _ => ?_) (Finset.sum_congr rfl fun k _ => ?_)
  · rw [sliceLo_apply, shapeCast_1ab_ab_apply, truncf_apply, convAct_apply, mul_comm]
  · rw [sliceHi_apply, shapeCast_1ab_ab_apply, truncf_apply, vecCol_apply, mul_comm]
    refine congrArg (· * vG (ix3 0 o (Cert.Spec.hi k))) ?_
    refine (rowMax_apply (convAct y vW vb) reduces_S256x8192_S256 (Or.inl rfl) rfl k).trans ?_
    exact congrArg Cert.Spec.ptMax (funext fun n' => convAct_apply y vW vb k n')

end Cert.KernelIdeal.Block0

end
-- ==== Proof.Block0Pay.lean ====
/-
  The ten payloads of the first region's body, each read at one index.

  The body's arithmetic is a composition of a few repeated pieces: the input layer (`inAct`), the layer core
  (`core`, Block0Core), "add the column bias, relu" (payload 4, which recurs inside payloads 9 and 10), and one
  step of the output projection's accumulation (`accStep`: acc + Wo_block · z).  Each payload IS such a
  composition, by unfolding; read at (o, n) the compositions are the specification's functions at (n, o):
  a layer output z in the kernel's layout is the specification's layer at the transposed index.
-/
import proofs.«113704_j40656160424210_1_alg».proof.Proof.Gen.KernelIdeal.Skeleton
import proofs.«113704_j40656160424210_1_alg».proof.Proof.Block0Core

noncomputable section

namespace Cert.KernelIdeal.Block0

open Idealize.ShloMosaic Idealize.ShloMosaic.ValueIdx Cert.KernelIdeal Cert.KernelIdeal.Gen

/-! ## The input layer -/

/-- relu (W_in · x + b_in) in the kernel's layout. -/
def inAct (v0 : Vec Ideal S1x3x8192 .f32) (v3 : Vec Ideal S256x3 .bf16) (v6 : Vec Ideal S256x1 .f32) : FVec Ideal S256x8192 .bf16 :=
  truncf .bf16
    (maximumf
      (addf (matmul dot_S256x3_S3x8192_S256x8192_1_0_0_1_n_n none (shapeCast S256x3 v3 shapeCasts_S256x3_S256x3 : FVec Ideal S256x3 .bf16)
              (truncf .bf16 (shapeCast S3x8192 v0 shapeCasts_S1x3x8192_S3x8192 : FVec Ideal S3x8192 .f32) bitsLt_bf16_f32)
              (constant S256x8192 .f32 0x00000000#32))
        (broadcastTo S256x8192 (shapeCast S256x1 v6 shapeCasts_S256x1_S256x1 : FVec Ideal S256x1 .f32) broadcasts_S256x1_S256x8192))
      (broadcast S256x8192 (Scalar.ofBits .f32 0x00000000#32)))
    bitsLt_bf16_f32

/-- At (h, n) it is the specification's input layer at (n, h). -/
theorem inAct_apply (v0 : Vec Ideal S1x3x8192 .f32) (v3 : Vec Ideal S256x3 .bf16) (v6 : Vec Ideal S256x1 .f32)
    (h : Fin 256) (n : Fin 8192) :
    inAct v0 v3 v6 (ix2 h n)
      = Cert.Spec.inLayer (fun h d => v3 (ix2 h d)) (fun h => v6 (ix2 h 0)) (fun n d => v0 (ix3 0 d n)) n h := by
  unfold inAct Cert.Spec.inLayer Cert.Spec.relu
  rw [truncf_apply, maximumf_apply, addf_apply, broadcast_apply, mmI_apply, col_apply,
    shapeCast_self (s := S256x1), shapeCast_self (s := S256x3)]
  refine congrArg (fun s => max (s + v6 (ix2 h 0)) Cert.Spec.zeroW) (Finset.sum_congr rfl fun d _ => ?_)
  rw [truncf_apply, shapeCast_1ab_ab_apply, mul_comm]

/-! ## Bias and relu (payload 4), relu alone (payload 7) -/

theorem pay4_eq (v34 : FVec Ideal S256x8192 .f32) (v35 : Vec Ideal S1x256x1 .f32) :
    k0_pay4 (F := Ideal) v34 v35
      = truncf .bf16
          (maximumf (addf v34 (broadcastTo S256x8192 (shapeCast S256x1 v35 shapeCasts_S1x256x1_S256x1 : FVec Ideal S256x1 .f32) broadcasts_S256x1_S256x8192))
            (broadcast S256x8192 (Scalar.ofBits .f32 0x00000000#32)))
          bitsLt_bf16_f32 := rfl

/-- relu (v + b) at (o, n). -/
theorem pay4_apply (v34 : FVec Ideal S256x8192 .f32) (v35 : Vec Ideal S1x256x1 .f32) (o : Fin 256) (n : Fin 8192) :
    k0_pay4 (F := Ideal) v34 v35 (ix2 o n) = Cert.Spec.relu (v34 (ix2 o n) + v35 (ix3 0 o 0)) := by
  rw [pay4_eq, truncf_apply, maximumf_apply, addf_apply, broadcast_apply, col_apply, shapeCast_1ab_ab_apply]
  rfl

/-- relu v at (o, n). -/
theorem pay7_apply (v70 : FVec Ideal S256x8192 .f32) (o : Fin 256) (n : Fin 8192) :
    k0_pay7 (F := Ideal) v70 (ix2 o n) = Cert.Spec.relu (v70 (ix2 o n)) := rfl

/-! ## One step of the output projection -/

/-- acc + Wo_block · z in the kernel's layout. -/
def accStep (acc : FVec Ideal S256x8192 .f32) (vO : Vec Ideal S256x256 .bf16) (z : FVec Ideal S256x8192 .bf16) : FVec Ideal S256x8192 .f32 :=
  addf acc (matmul dot_S256x256_S256x8192_S256x8192_1_0_0_1_n_n none (shapeCast S256x256 vO shapeCasts_S256x256_S256x256 : FVec Ideal S256x256 .bf16) z
    (constant S256x8192 .f32 0x00000000#32))

theorem accStep_apply (acc : FVec Ideal S256x8192 .f32) (vO : Vec Ideal S256x256 .bf16) (z : FVec Ideal S256x8192 .bf16)
    (o : Fin 256) (n : Fin 8192) :
    accStep acc vO z (ix2 o n) = acc (ix2 o n) + ∑ k : Fin 256, vO (ix2 o k) * z (ix2 k n) := by
  unfold accStep
  rw [addf_apply, mmA_apply, shapeCast_self (s := S256x256)]

/-! ## The payloads as compositions -/

theorem pay2_eq : k0_pay2 (F := Ideal) = broadcast S256x8192 (Scalar.ofBits .f32 0x00000000#32) := rfl

theorem pay3_eq (v0 : Vec Ideal S1x3x8192 .f32) (v3 : Vec Ideal S256x3 .bf16) (v6 : Vec Ideal S256x1 .f32)
    (v14 : Vec Ideal S1x256x256 .bf16) (v17 : Vec Ideal S1x256x1 .f32) (v27 : Vec Ideal S1x256x512 .bf16) :
    k0_pay3 (F := Ideal) v0 v3 v6 v14 v17 v27 = core (inAct v0 v3 v6) v14 v17 v27 := rfl

theorem pay5_eq (v13 v34 : FVec Ideal S256x8192 .f32) (v35 : Vec Ideal S1x256x1 .f32) (v42 : Vec Ideal S256x256 .bf16) :
    k0_pay5 (F := Ideal) v13 v34 v35 v42 = accStep v13 v42 (k0_pay4 v34 v35) := rfl

theorem pay6_eq (v34 : FVec Ideal S256x8192 .f32) (v35 : Vec Ideal S1x256x1 .f32) (v46 : Vec Ideal S1x256x256 .bf16)
    (v49 : Vec Ideal S1x256x1 .f32) (v59 : Vec Ideal S1x256x512 .bf16) (v67 : Vec Ideal S1x256x1 .f32) :
    k0_pay6 (F := Ideal) v34 v35 v46 v49 v59 v67
      = addf (core (k0_pay4 v34 v35) v46 v49 v59)
          (broadcastTo S256x8192 (shapeCast S256x1 v67 shapeCasts_S1x256x1_S256x1 : FVec Ideal S256x1 .f32) broadcasts_S256x1_S256x8192) := rfl

theorem pay8_eq (v45 v70 : FVec Ideal S256x8192 .f32) (v74 : Vec Ideal S256x256 .bf16) :
    k0_pay8 (F := Ideal) v45 v70 v74 = accStep v45 v74 (k0_pay7 v70) := rfl

theorem pay9_eq (v70 : FVec Ideal S256x8192 .f32) (v78 : Vec Ideal S1x256x256 .bf16) (v81 : Vec Ideal S1x256x1 .f32)
    (v91 : Vec Ideal S1x256x512 .bf16) (v99 : Vec Ideal S1x256x1 .f32) :
    k0_pay9 (F := Ideal) v70 v78 v81 v91 v99 = k0_pay4 (core (k0_pay7 v70) v78 v81 v91) v99 := rfl

theorem pay10_eq (v77 : FVec Ideal S256x8192 .f32) (v105 : FVec Ideal S256x8192 .bf16) (v106 : Vec Ideal S256x256 .bf16)
    (v110 : Vec Ideal S1x256x256 .bf16) (v113 : Vec Ideal S1x256x1 .f32) (v123 : Vec Ideal S1x256x512 .bf16)
    (v131 : Vec Ideal S1x256x1 .f32) (v138 : Vec Ideal S256x256 .bf16) :
    k0_pay10 (F := Ideal) v77 v105 v106 v110 v113 v123 v131 v138
      = accStep (accStep v77 v106 v105) v138 (k0_pay4 (core v105 v110 v113 v123) v131) := rfl

theorem pay1_eq (v141 : FVec Ideal S256x8192 .f32) (v142 : Vec Ideal S256x1 .f32) (v146 : Vec Ideal S1x1x8192 .f32) :
    k0_pay1 (F := Ideal) v141 v142 v146
      = shapeCast S1x256x1
          (shapeCast S256x1
            (multiReduction .maximumf [1] S256
              (addf (addf v141 (broadcastTo S256x8192 (shapeCast S256x1 v142 shapeCasts_S256x1_S256x1 : FVec Ideal S256x1 .f32) broadcasts_S256x1_S256x8192))
                (broadcastTo S256x8192 (shapeCast S1x8192 v146 shapeCasts_S1x1x8192_S1x8192 : FVec Ideal S1x8192 .f32) broadcasts_S1x8192_S256x8192))
              0xFF800000#32 reduces_S256x8192_S256 (.inl rfl) rfl : FVec Ideal S256 .f32)
            shapeCasts_S256_S256x1 : FVec Ideal S256x1 .f32)
          shapeCasts_S256x1_S1x256x1 := rfl

/-! ## The payloads at an index -/

/-- The zero matrix the accumulation starts from. -/
theorem pay2_apply (o : Fin 256) (n : Fin 8192) : k0_pay2 (F := Ideal) (ix2 o n) = 0 :=
  Ideal.ofBits_zero_f32

/-- The last payload: the output bias and the per-point row added, then the maximum over the points. -/
theorem pay1_apply (v141 : FVec Ideal S256x8192 .f32) (v142 : Vec Ideal S256x1 .f32) (v146 : Vec Ideal S1x1x8192 .f32)
    (u : Fin 1) (o : Fin 256) (w : Fin 1) :
    k0_pay1 (F := Ideal) v141 v142 v146 (ix3 u o w)
      = Cert.Spec.ptMax (fun n => (v141 (ix2 o n) + v142 (ix2 o 0)) + v146 (ix3 0 0 n)) := by
  rw [pay1_eq, shapeCast_ab_1ab_apply, vecCol_apply]
  refine (rowMax_apply _ reduces_S256x8192_S256 (Or.inl rfl) rfl o).trans ?_
  refine congrArg Cert.Spec.ptMax (funext fun n => ?_)
  rw [addf_apply, addf_apply, col_apply, row_apply, shapeCast_self (s := S256x1), shapeCast_1ab_ab_apply]

/-! ## A whole layer at an index -/

section Layer
variable (vW : Vec Ideal S1x256x256 .bf16) (vb : Vec Ideal S1x256x1 .f32) (vG : Vec Ideal S1x256x512 .bf16) (vB : Vec Ideal S1x256x1 .f32)
  (Wl : Fin 256 → Fin 256 → EReal) (bl : Fin 256 → EReal) (Wg : Fin 256 → Fin 512 → EReal) (bg : Fin 256 → EReal)
  (yT : Fin 8192 → Fin 256 → EReal)
  (hW : ∀ o j, vW (ix3 0 o j) = Wl o j) (hb : ∀ o, vb (ix3 0 o 0) = bl o) (hG : ∀ o c, vG (ix3 0 o c) = Wg o c)
  (hB : ∀ o, vB (ix3 0 o 0) = bg o)
include hW hb hG hB

/-- The layer core, the second bias and the relu: the specification's layer at the transposed index, whatever the
    previous activation y is, once it is known to be the transpose of `yT`. -/
theorem layer_apply (y : FVec Ideal S256x8192 .bf16) (hy : ∀ j n, y (ix2 j n) = yT n j) (o : Fin 256) (n : Fin 8192) :
    k0_pay4 (F := Ideal) (core y vW vb vG) vB (ix2 o n) = Cert.Spec.layer Wl bl Wg bg yT n o := by
  rw [pay4_apply, core_apply, hB]
  have e1 : (fun o j => vW (ix3 0 o j)) = Wl := funext fun o => funext fun j => hW o j
  have e2 : (fun o => vb (ix3 0 o 0)) = bl := funext hb
  have e3 : (fun o c => vG (ix3 0 o c)) = Wg := funext fun o => funext fun c => hG o c
  have e4 : (fun n j => y (ix2 j n)) = yT := funext fun n => funext fun j => hy j n
  rw [e1, e2, e3, e4]
  rfl

/-- The second layer: payload 6 (core and second bias) under payload 7 (relu). -/
theorem layer2_apply (v34 : FVec Ideal S256x8192 .f32) (v35 : Vec Ideal S1x256x1 .f32)
    (hy : ∀ j n, k0_pay4 (F := Ideal) v34 v35 (ix2 j n) = yT n j) (o : Fin 256) (n : Fin 8192) :
    k0_pay7 (F := Ideal) (k0_pay6 v34 v35 vW vb vG vB) (ix2 o n) = Cert.Spec.layer Wl bl Wg bg yT n o := by
  rw [pay7_apply, pay6_eq, addf_apply, col_apply, shapeCast_1ab_ab_apply, ← pay4_apply]
  exact layer_apply vW vb vG vB Wl bl Wg bg yT hW hb hG hB _ hy o n

/-- The third layer: payload 9. -/
theorem layer3_apply (v70 : FVec Ideal S256x8192 .f32)
    (hy : ∀ j n, k0_pay7 (F := Ideal) v70 (ix2 j n) = yT n j) (o : Fin 256) (n : Fin 8192) :
    k0_pay9 (F := Ideal) v70 vW vb vG vB (ix2 o n) = Cert.Spec.layer Wl bl Wg bg yT n o := by
  rw [pay9_eq]
  exact layer_apply vW vb vG vB Wl bl Wg bg yT hW hb hG hB _ hy o n

end Layer

end Cert.KernelIdeal.Block0

end
-- ==== Proof.Block0.lean ====
/-
  The first region's result for one cloud: entry (0, h, 0) of the block the body leaves is the specification's
  `pooled` at channel h.

  The body accumulates the output projection over the four layer outputs, 256 channels at a time:
      acc(h, n) = (((0 + Σ_k Wo(h, k) · z₁(k, n)) + Σ_k Wo(h, 256 + k) · z₂(k, n)) + Σ_k Wo(h, 512 + k) · z₃(k, n))
                    + Σ_k Wo(h, 768 + k) · z₄(k, n),
  while the specification sums its 1024 concatenated channels at once.  The two agree because a sum over
  Fin 1024 is the sum of its four blocks of 256 (`sum_four_blocks`: a reindexing along
  Fin 4 × Fin 256 ≃ Fin 1024, c = 256 · l + k), channel 256 · l + k of the concatenation is channel k of layer l
  (`cat_b0` … `cat_b3`), and z_l(k, n) is the specification's l-th layer at (n, k) (`z1_apply` … `z4_apply`).
  Then the bias is added, the per-point row is added — the specification subtracts its negation:
  a + y = a - (-y) — and the maximum over the points is taken on both sides.
-/
import proofs.«113704_j40656160424210_1_alg».proof.Proof.Gen.KernelIdeal.Frame
import proofs.«113704_j40656160424210_1_alg».proof.Proof.Block0Pay

noncomputable section

namespace Cert.KernelIdeal.Block0

open Idealize.ShloMosaic Idealize.ShloMosaic.ValueIdx Cert.KernelIdeal Cert.KernelIdeal.Gen

/-! ## A sum over 1024 channels as four blocks of 256 -/

/-- Channel k of block 0, 1, 2, 3. -/
def b0 (k : Fin 256) : Fin 1024 := ⟨k.val, by have := k.isLt; omega⟩
def b1 (k : Fin 256) : Fin 1024 := ⟨256 + k.val, by have := k.isLt; omega⟩
def b2 (k : Fin 256) : Fin 1024 := ⟨512 + k.val, by have := k.isLt; omega⟩
def b3 (k : Fin 256) : Fin 1024 := ⟨768 + k.val, by have := k.isLt; omega⟩

/-- Fin 4 × Fin 256 ≃ Fin 1024, (l, k) ↦ 256 · l + k. -/
def blocks : Fin 4 × Fin 256 ≃ Fin 1024 where
  toFun p := ⟨p.1.val * 256 + p.2.val, by have := p.1.isLt; have := p.2.isLt; omega⟩
  invFun c := (⟨c.val / 256, by have := c.isLt; omega⟩, ⟨c.val % 256, by omega⟩)
  left_inv p := by
    have h1 := p.1.isLt; have h2 := p.2.isLt
    exact Prod.ext (Fin.ext (by show (p.1.val * 256 + p.2.val) / 256 = p.1.val; omega))
      (Fin.ext (by show (p.1.val * 256 + p.2.val) % 256 = p.2.val; omega))
  right_inv c := Fin.ext (by show c.val / 256 * 256 + c.val % 256 = c.val; omega)

theorem sum_four_blocks {M : Type*} [AddCommMonoid M] (f : Fin 1024 → M) :
    ∑ c : Fin 1024, f c = ((∑ k : Fin 256, f (b0 k) + ∑ k : Fin 256, f (b1 k)) + ∑ k : Fin 256, f (b2 k)) + ∑ k : Fin 256, f (b3 k) := by
  rw [← Equiv.sum_comp blocks f, Fintype.sum_prod_type, Fin.sum_univ_four]
  refine congrArg₂ (· + ·) (congrArg₂ (· + ·) (congrArg₂ (· + ·) ?_ ?_) ?_) ?_ <;>
    refine Finset.sum_congr rfl fun k _ => congrArg f (Fin.ext ?_)
  · show 0 * 256 + k.val = k.val; omega
  · show 1 * 256 + k.val = 256 + k.val; omega
  · show 2 * 256 + k.val = 512 + k.val; omega
  · show 3 * 256 + k.val = 768 + k.val; omega

section Value
variable (x0 : Vec Ideal S1x3x8192 .f32) (x1 : Vec Ideal S1x1x8192 .f32) (x2 : Vec Ideal S256x3 .bf16) (x3 : Vec Ideal S256x1 .f32)
  (x4 : Vec Ideal S4x256x256 .bf16) (x5 : Vec Ideal S4x256x1 .f32) (x6 : Vec Ideal S4x256x512 .bf16) (x7 : Vec Ideal S4x256x1 .f32)
  (x8 : Vec Ideal S256x1024 .bf16) (x9 : Vec Ideal S256x1 .f32)

/-! ## The specification's arguments, read off the blocks -/

abbrev sp : Fin 8192 → Fin 3 → EReal := fun n d => x0 (ix3 0 d n)
abbrev sWin : Fin 256 → Fin 3 → EReal := fun h d => x2 (ix2 h d)
abbrev sbin : Fin 256 → EReal := fun h => x3 (ix2 h 0)
abbrev sWl : Fin 4 → Fin 256 → Fin 256 → EReal := fun l o k => x4 (ix3 l o k)
abbrev sbl : Fin 4 → Fin 256 → EReal := fun l o => x5 (ix3 l o 0)
abbrev sWg : Fin 4 → Fin 256 → Fin 512 → EReal := fun l o c => x6 (ix3 l o c)
abbrev sbg : Fin 4 → Fin 256 → EReal := fun l o => x7 (ix3 l o 0)

/-! ## The four layer outputs in the kernel's layout -/

/-- Layer 1 before its second bias. -/
def P3 : FVec Ideal S256x8192 .f32 :=
  k0_pay3 (F := Ideal) (View.ld x0 r0_0) (View.ld x2 r0_1) (View.ld x3 r0_2) (View.ld x4 r0_3) (View.ld x5 r0_4) (View.ld x6 r0_5)
/-- Layer 1's output. -/
def Z1 : FVec Ideal S256x8192 .bf16 := k0_pay4 (F := Ideal) (P3 x0 x2 x3 x4 x5 x6) (View.ld x7 r0_4)
/-- Layer 2 before its relu. -/
def P6 : FVec Ideal S256x8192 .f32 :=
  k0_pay6 (F := Ideal) (P3 x0 x2 x3 x4 x5 x6) (View.ld x7 r0_4) (View.ld x4 r0_7) (View.ld x5 r0_8) (View.ld x6 r0_9) (View.ld x7 r0_8)
/-- Layer 2's output. -/
def Z2 : FVec Ideal S256x8192 .bf16 := k0_pay7 (F := Ideal) (P6 x0 x2 x3 x4 x5 x6 x7)
/-- Layer 3's output. -/
def Z3 : FVec Ideal S256x8192 .bf16 :=
  k0_pay9 (F := Ideal) (P6 x0 x2 x3 x4 x5 x6 x7) (View.ld x4 r0_11) (View.ld x5 r0_12) (View.ld x6 r0_13) (View.ld x7 r0_12)
/-- Layer 4's output. -/
def Z4 : FVec Ideal S256x8192 .bf16 :=
  k0_pay4 (F := Ideal) (core (Z3 x0 x2 x3 x4 x5 x6 x7) (View.ld x4 r0_15) (View.ld x5 r0_16) (View.ld x6 r0_17)) (View.ld x7 r0_16)

theorem hz3 : (![0, 0, 0] : Fin 3 → Nat) = fun _ => 0 := by
  funext a; match a with | ⟨0, _⟩ => rfl | ⟨1, _⟩ => rfl | ⟨2, _⟩ => rfl
theorem hz2 : (![0, 0] : Fin 2 → Nat) = fun _ => 0 := by
  funext a; match a with | ⟨0, _⟩ => rfl | ⟨1, _⟩ => rfl

/-- The slabs of layer l, read at an index. -/
theorem hW0 (o j : Fin 256) : (View.ld x4 r0_3 : Vec Ideal S1x256x256 .bf16) (ix3 0 o j) = sWl x4 0 o j := slabW_apply x4 0 _ 0 o j
theorem hW1 (o j : Fin 256) : (View.ld x4 r0_7 : Vec Ideal S1x256x256 .bf16) (ix3 0 o j) = sWl x4 1 o j := slabW_apply x4 1 _ 0 o j
theorem hW2 (o j : Fin 256) : (View.ld x4 r0_11 : Vec Ideal S1x256x256 .bf16) (ix3 0 o j) = sWl x4 2 o j := slabW_apply x4 2 _ 0 o j
theorem hW3 (o j : Fin 256) : (View.ld x4 r0_15 : Vec Ideal S1x256x256 .bf16) (ix3 0 o j) = sWl x4 3 o j := slabW_apply x4 3 _ 0 o j
theorem hb0 (o : Fin 256) : (View.ld x5 r0_4 : Vec Ideal S1x256x1 .f32) (ix3 0 o 0) = sbl x5 0 o := slabB_apply x5 0 _ 0 o 0
theorem hb1 (o : Fin 256) : (View.ld x5 r0_8 : Vec Ideal S1x256x1 .f32) (ix3 0 o 0) = sbl x5 1 o := slabB_apply x5 1 _ 0 o 0
theorem hb2 (o : Fin 256) : (View.ld x5 r0_12 : Vec Ideal S1x256x1 .f32) (ix3 0 o 0) = sbl x5 2 o := slabB_apply x5 2 _ 0 o 0
theorem hb3 (o : Fin 256) : (View.ld x5 r0_16 : Vec Ideal S1x256x1 .f32) (ix3 0 o 0) = sbl x5 3 o := slabB_apply x5 3 _ 0 o 0
theorem hG0 (o : Fin 256) (c : Fin 512) : (View.ld x6 r0_5 : Vec Ideal S1x256x512 .bf16) (ix3 0 o c) = sWg x6 0 o c := slabG_apply x6 0 _ 0 o c
theorem hG1 (o : Fin 256) (c : Fin 512) : (View.ld x6 r0_9 : Vec Ideal S1x256x512 .bf16) (ix3 0 o c) = sWg x6 1 o c := slabG_apply x6 1 _ 0 o c
theorem hG2 (o : Fin 256) (c : Fin 512) : (View.ld x6 r0_13 : Vec Ideal S1x256x512 .bf16) (ix3 0 o c) = sWg x6 2 o c := slabG_apply x6 2 _ 0 o c
theorem hG3 (o : Fin 256) (c : Fin 512) : (View.ld x6 r0_17 : Vec Ideal S1x256x512 .bf16) (ix3 0 o c) = sWg x6 3 o c := slabG_apply x6 3 _ 0 o c
theorem hB0 (o : Fin 256) : (View.ld x7 r0_4 : Vec Ideal S1x256x1 .f32) (ix3 0 o 0) = sbg x7 0 o := slabB_apply x7 0 _ 0 o 0
theorem hB1 (o : Fin 256) : (View.ld x7 r0_8 : Vec Ideal S1x256x1 .f32) (ix3 0 o 0) = sbg x7 1 o := slabB_apply x7 1 _ 0 o 0
theorem hB2 (o : Fin 256) : (View.ld x7 r0_12 : Vec Ideal S1x256x1 .f32) (ix3 0 o 0) = sbg x7 2 o := slabB_apply x7 2 _ 0 o 0
theorem hB3 (o : Fin 256) : (View.ld x7 r0_16 : Vec Ideal S1x256x1 .f32) (ix3 0 o 0) = sbg x7 3 o := slabB_apply x7 3 _ 0 o 0

/-- The input layer under the whole-block loads. -/
theorem in_apply (j : Fin 256) (n : Fin 8192) :
    inAct (View.ld x0 r0_0) (View.ld x2 r0_1) (View.ld x3 r0_2) (ix2 j n) = Cert.Spec.inLayer (sWin x2) (sbin x3) (sp x0) n j := by
  rw [inAct_apply, View.ld_unit_zero (S := S1x3x8192) hz3, View.ld_unit_zero (S := S256x3) hz2, View.ld_unit_zero (S := S256x1) hz2]

theorem z1_apply (k : Fin 256) (n : Fin 8192) :
    Z1 x0 x2 x3 x4 x5 x6 x7 (ix2 k n) = Cert.Spec.feat1 (sp x0) (sWin x2) (sbin x3) (sWl x4) (sbl x5) (sWg x6) (sbg x7) n k := by
  unfold Z1 P3 Cert.Spec.feat1
  rw [pay3_eq]
  exact layer_apply (View.ld x4 r0_3) (View.ld x5 r0_4) (View.ld x6 r0_5) (View.ld x7 r0_4) (sWl x4 0) (sbl x5 0) (sWg x6 0) (sbg x7 0) _
    (hW0 x4) (hb0 x5) (hG0 x6) (hB0 x7) _ (in_apply x0 x2 x3) k n

theorem z2_apply (k : Fin 256) (n : Fin 8192) :
    Z2 x0 x2 x3 x4 x5 x6 x7 (ix2 k n) = Cert.Spec.feat2 (sp x0) (sWin x2) (sbin x3) (sWl x4) (sbl x5) (sWg x6) (sbg x7) n k := by
  unfold Z2 P6 Cert.Spec.feat2
  exact layer2_apply (View.ld x4 r0_7) (View.ld x5 r0_8) (View.ld x6 r0_9) (View.ld x7 r0_8) (sWl x4 1) (sbl x5 1) (sWg x6 1) (sbg x7 1) _
    (hW1 x4) (hb1 x5) (hG1 x6) (hB1 x7) _ _ (z1_apply x0 x2 x3 x4 x5 x6 x7) k n

theorem z3_apply (k : Fin 256) (n : Fin 8192) :
    Z3 x0 x2 x3 x4 x5 x6 x7 (ix2 k n) = Cert.Spec.feat3 (sp x0) (sWin x2) (sbin x3) (sWl x4) (sbl x5) (sWg x6) (sbg x7) n k := by
  unfold Z3 Cert.Spec.feat3
  exact layer3_apply (View.ld x4 r0_11) (View.ld x5 r0_12) (View.ld x6 r0_13) (View.ld x7 r0_12) (sWl x4 2) (sbl x5 2) (sWg x6 2) (sbg x7 2) _
    (hW2 x4) (hb2 x5) (hG2 x6) (hB2 x7) _ (z2_apply x0 x2 x3 x4 x5 x6 x7) k n

theorem z4_apply (k : Fin 256) (n : Fin 8192) :
    Z4 x0 x2 x3 x4 x5 x6 x7 (ix2 k n) = Cert.Spec.feat4 (sp x0) (sWin x2) (sbin x3) (sWl x4) (sbl x5) (sWg x6) (sbg x7) n k := by
  unfold Z4 Cert.Spec.feat4
  exact layer_apply (View.ld x4 r0_15) (View.ld x5 r0_16) (View.ld x6 r0_17) (View.ld x7 r0_16) (sWl x4 3) (sbl x5 3) (sWg x6 3) (sbg x7 3) _
    (hW3 x4) (hb3 x5) (hG3 x6) (hB3 x7) _ (z3_apply x0 x2 x3 x4 x5 x6 x7) k n

/-! ## The concatenation, block by block -/

section Cat
variable (p : Fin 8192 → Fin 3 → EReal) (Win : Fin 256 → Fin 3 → EReal) (bin : Fin 256 → EReal)
  (Wl : Fin 4 → Fin 256 → Fin 256 → EReal) (bl : Fin 4 → Fin 256 → EReal)
  (Wg : Fin 4 → Fin 256 → Fin 512 → EReal) (bg : Fin 4 → Fin 256 → EReal)

theorem cat_b0 (n : Fin 8192) (k : Fin 256) : Cert.Spec.cat p Win bin Wl bl Wg bg n (b0 k) = Cert.Spec.feat1 p Win bin Wl bl Wg bg n k := by
  have h2 := k.isLt
  unfold Cert.Spec.cat
  exact congrArg₂ (fun a b => Cert.Spec.feats p Win bin Wl bl Wg bg a n b) (x' := (0 : Fin 4)) (y' := k)
    (Fin.ext (by show k.val / 256 = 0; omega)) (Fin.ext (by show k.val % 256 = k.val; omega))
theorem cat_b1 (n : Fin 8192) (k : Fin 256) : Cert.Spec.cat p Win bin Wl bl Wg bg n (b1 k) = Cert.Spec.feat2 p Win bin Wl bl Wg bg n k := by
  have h2 := k.isLt
  unfold Cert.Spec.cat
  exact congrArg₂ (fun a b => Cert.Spec.feats p Win bin Wl bl Wg bg a n b) (x' := (1 : Fin 4)) (y' := k)
    (Fin.ext (by show (256 + k.val) / 256 = 1; omega)) (Fin.ext (by show (256 + k.val) % 256 = k.val; omega))
theorem cat_b2 (n : Fin 8192) (k : Fin 256) : Cert.Spec.cat p Win bin Wl bl Wg bg n (b2 k) = Cert.Spec.feat3 p Win bin Wl bl Wg bg n k := by
  have h2 := k.isLt
  unfold Cert.Spec.cat
  exact congrArg₂ (fun a b => Cert.Spec.feats p Win bin Wl bl Wg bg a n b) (x' := (2 : Fin 4)) (y' := k)
    (Fin.ext (by show (512 + k.val) / 256 = 2; omega)) (Fin.ext (by show (512 + k.val) % 256 = k.val; omega))
theorem cat_b3 (n : Fin 8192) (k : Fin 256) : Cert.Spec.cat p Win bin Wl bl Wg bg n (b3 k) = Cert.Spec.feat4 p Win bin Wl bl Wg bg n k := by
  have h2 := k.isLt
  unfold Cert.Spec.cat
  exact congrArg₂ (fun a b => Cert.Spec.feats p Win bin Wl bl Wg bg a n b) (x' := (3 : Fin 4)) (y' := k)
    (Fin.ext (by show (768 + k.val) / 256 = 3; omega)) (Fin.ext (by show (768 + k.val) % 256 = k.val; omega))

end Cat

/-! ## The column blocks of the output weight -/

theorem hO0 (o k : Fin 256) : (View.ld x8 r0_6 : Vec Ideal S256x256 .bf16) (ix2 o k) = x8 (ix2 o (b0 k)) :=
  blockO_apply x8 0 _ o k (b0 k) (Nat.zero_add _).symm
theorem hO1 (o k : Fin 256) : (View.ld x8 r0_10 : Vec Ideal S256x256 .bf16) (ix2 o k) = x8 (ix2 o (b1 k)) :=
  blockO_apply x8 256 _ o k (b1 k) rfl
theorem hO2 (o k : Fin 256) : (View.ld x8 r0_14 : Vec Ideal S256x256 .bf16) (ix2 o k) = x8 (ix2 o (b2 k)) :=
  blockO_apply x8 512 _ o k (b2 k) rfl
theorem hO3 (o k : Fin 256) : (View.ld x8 r0_18 : Vec Ideal S256x256 .bf16) (ix2 o k) = x8 (ix2 o (b3 k)) :=
  blockO_apply x8 768 _ o k (b3 k) rfl

/-! ## The accumulated projection -/

/-- The body's accumulator after its four steps. -/
def ACC : FVec Ideal S256x8192 .f32 :=
  k0_pay10 (F := Ideal)
    (k0_pay8 (k0_pay5 (k0_pay2 (F := Ideal)) (P3 x0 x2 x3 x4 x5 x6) (View.ld x7 r0_4) (View.ld x8 r0_6)) (P6 x0 x2 x3 x4 x5 x6 x7) (View.ld x8 r0_10))
    (Z3 x0 x2 x3 x4 x5 x6 x7) (View.ld x8 r0_14) (View.ld x4 r0_15) (View.ld x5 r0_16) (View.ld x6 r0_17) (View.ld x7 r0_16) (View.ld x8 r0_18)

/-- At (h, n) it is the specification's projection of the 1024 concatenated channels (without the bias). -/
theorem acc_apply (h : Fin 256) (n : Fin 8192) :
    ACC x0 x2 x3 x4 x5 x6 x7 x8 (ix2 h n)
      = ∑ c : Fin 1024, Cert.Spec.cat (sp x0) (sWin x2) (sbin x3) (sWl x4) (sbl x5) (sWg x6) (sbg x7) n c * x8 (ix2 h c) := by
  unfold ACC
  rw [pay10_eq, accStep_apply, accStep_apply, pay8_eq, accStep_apply, pay5_eq, accStep_apply, pay2_apply, zero_add, sum_four_blocks]
  refine congrArg₂ (· + ·) (congrArg₂ (· + ·) (congrArg₂ (· + ·) ?_ ?_) ?_) ?_ <;>
    refine Finset.sum_congr rfl fun k _ => ?_
  · rw [hO0, cat_b0, ← z1_apply, mul_comm]; rfl
  · rw [hO1, cat_b1, ← z2_apply, mul_comm]; rfl
  · rw [hO2, cat_b2, ← z3_apply, mul_comm]
  · rw [hO3, cat_b3, ← z4_apply, mul_comm]; rfl

/-! ## The block the body leaves -/

theorem out_eq :
    Cert.KernelIdeal.Gen.out0_10 (F := Ideal) x0 x1 x2 x3 x4 x5 x6 x7 x8 x9
      = View.canon [⟨r0_20, k0_pay1 (F := Ideal) (ACC x0 x2 x3 x4 x5 x6 x7 x8) (View.ld x9 r0_2) (View.ld x1 r0_19)⟩] := rfl

theorem block0_value (h : Fin 256) :
    Cert.KernelIdeal.Gen.out0_10 (F := Ideal) x0 x1 x2 x3 x4 x5 x6 x7 x8 x9 (ix3 0 h 0)
      = Cert.Spec.pooled (fun n d => x0 (ix3 0 d n)) (fun n => -(x1 (ix3 0 0 n)))
          (fun h d => x2 (ix2 h d)) (fun h => x3 (ix2 h 0))
          (fun l o k => x4 (ix3 l o k)) (fun l o => x5 (ix3 l o 0))
          (fun l o c => x6 (ix3 l o c)) (fun l o => x7 (ix3 l o 0))
          (fun o c => x8 (ix2 o c)) (fun o => x9 (ix2 o 0)) h := by
  rw [out_eq, View.canon_unit_zero hz3, pay1_apply, View.ld_unit_zero (S := S256x1) hz2, View.ld_unit_zero (S := S1x1x8192) hz3]
  unfold Cert.Spec.pooled
  refine congrArg Cert.Spec.ptMax (funext fun n => ?_)
  rw [sub_eq_add_neg, neg_neg, acc_apply]
  rfl

end Value

end Cert.KernelIdeal.Block0

end
-- ==== Proof.KernelValue.lean ====
/-
  THE KERNEL'S RESULT.  The result buffer after the idealized kernel's run is the goal function of the argument
  arrays: entry (b, 0, j) is the second call's output at (b, j), the product of the pooled vector of cloud b with row j
  of the last weight plus the last bias at j (the second call's body, the host transposition between the calls);
  the pooled vector of cloud b at h is the first call's output at (b, h, 0), the body's result on cloud b's blocks,
  which is the specification's pooled value; the body reads the mask row as the word of -100000 times the negated
  mask and ADDS it, the specification takes the word of 100000 times the negated mask AWAY: the same extended real.
-/
import proofs.«113704_j40656160424210_1_alg».proof.Proof.Region0
import proofs.«113704_j40656160424210_1_alg».proof.Proof.Region1
import proofs.«113704_j40656160424210_1_alg».proof.Proof.HostReadsAt
import proofs.«113704_j40656160424210_1_alg».proof.Proof.Block1
import proofs.«113704_j40656160424210_1_alg».proof.Proof.Consts
import proofs.«113704_j40656160424210_1_alg».proof.Proof.Goal
import proofs.«113704_j40656160424210_1_alg».proof.Proof.Block0

set_option maxRecDepth 16384

noncomputable section

namespace Cert.KernelIdeal.Whole

open Cert.KernelIdeal Cert.KernelIdeal.Gen Cert.KernelIdeal.HostReads
open Idealize.ShloMosaic Idealize.ShloMosaic.TcCoe Idealize.SL.Sem Idealize.ShloMosaic.ValueIdx

/-- `Spec.pooled` of pointwise equal arguments. -/
theorem pooled_congr {p p' : Fin 8192 → Fin 3 → EReal} {s s' : Fin 8192 → EReal}
    {Win Win' : Fin 256 → Fin 3 → EReal} {bin bin' : Fin 256 → EReal}
    {Wl Wl' : Fin 4 → Fin 256 → Fin 256 → EReal} {bl bl' : Fin 4 → Fin 256 → EReal}
    {Wg Wg' : Fin 4 → Fin 256 → Fin 512 → EReal} {bg bg' : Fin 4 → Fin 256 → EReal}
    {Wo Wo' : Fin 256 → Fin 1024 → EReal} {bo bo' : Fin 256 → EReal} (h : Fin 256)
    (hp : ∀ n d, p n d = p' n d) (hs : ∀ n, s n = s' n) (hWin : ∀ a d, Win a d = Win' a d) (hbin : ∀ a, bin a = bin' a)
    (hWl : ∀ l o k, Wl l o k = Wl' l o k) (hbl : ∀ l o, bl l o = bl' l o)
    (hWg : ∀ l o k, Wg l o k = Wg' l o k) (hbg : ∀ l o, bg l o = bg' l o)
    (hWo : ∀ o k, Wo o k = Wo' o k) (hbo : ∀ o, bo o = bo' o) :
    Cert.Spec.pooled p s Win bin Wl bl Wg bg Wo bo h = Cert.Spec.pooled p' s' Win' bin' Wl' bl' Wg' bg' Wo' bo' h := by
  obtain rfl : p = p' := funext fun n => funext fun d => hp n d
  obtain rfl : s = s' := funext hs
  obtain rfl : Win = Win' := funext fun a => funext fun d => hWin a d
  obtain rfl : bin = bin' := funext hbin
  obtain rfl : Wl = Wl' := funext fun l => funext fun o => funext fun k => hWl l o k
  obtain rfl : bl = bl' := funext fun l => funext fun o => hbl l o
  obtain rfl : Wg = Wg' := funext fun l => funext fun o => funext fun k => hWg l o k
  obtain rfl : bg = bg' := funext fun l => funext fun o => hbg l o
  obtain rfl : Wo = Wo' := funext fun o => funext fun k => hWo o k
  obtain rfl : bo = bo' := funext hbo
  rfl

variable (m : (ℓ : Loc nD τ sig) → Buf (Elt Ideal) ℓ) (ρ : Dev nD → PrngReg)

/-- The pooled array after the first call, entry (b, h, 0): the specification's pooled value for cloud `b`. -/
theorem pooled_at (c : Dev nD) (b : Fin 16) (h : Fin 256) :
    ((dat0 (V1 m ρ) c).arrAt 10 cfg0.N : S16x256x1.Idx → EReal) (ix3 b h 0)
      = Cert.Spec.pooled (fun n d => ((m ((c : Thread nD τ).loc main_arg1)) : S16x1x8192x3.Idx → EReal) (ix4 b 0 n d)) (Cert.Goal.penalty (m ((c : Thread nD τ).loc main_arg2)) b)
          (fun a d => ((m ((c : Thread nD τ).loc main_arg3)) : S256x3.Idx → EReal) (ix2 a d)) (fun a => ((m ((c : Thread nD τ).loc main_arg4)) : S256.Idx → EReal) (ix1 a))
          (fun l o k => ((m ((c : Thread nD τ).loc main_arg5)) : S4x256x256.Idx → EReal) (ix3 l o k)) (fun l o => ((m ((c : Thread nD τ).loc main_arg6)) : S4x256.Idx → EReal) (ix2 l o))
          (fun l o k => ((m ((c : Thread nD τ).loc main_arg7)) : S4x256x512.Idx → EReal) (ix3 l o k)) (fun l o => ((m ((c : Thread nD τ).loc main_arg8)) : S4x256.Idx → EReal) (ix2 l o))
          (fun o k => ((m ((c : Thread nD τ).loc main_arg9)) : S256x1024.Idx → EReal) (ix2 o k)) (fun o => ((m ((c : Thread nD τ).loc main_arg10)) : S256.Idx → EReal) (ix1 o)) h := by
  rw [Region0.final (V1 m ρ) c]
  show Region0.blockOut (V1 m ρ) c (Region0.pt b) (ix3 0 h 0) = _
  unfold Region0.blockOut
  rw [Block0.block0_value]
  refine pooled_congr h (fun n d => ?_) (fun n => ?_) (fun a d => v6_at m ρ c _) (fun a => v7_at m ρ c a)
    (fun l o k => v8_at m ρ c _) (fun l o => v9_at m ρ c l o) (fun l o k => v10_at m ρ c _) (fun l o => v11_at m ρ c l o)
    (fun o k => v12_at m ρ c _) (fun o => v13_at m ρ c o)
  · rw [Region0.iblk_0_apply]
    exact v1_at m ρ c b d n
  · rw [Region0.iblk_1_apply]
    exact (congrArg (fun x : EReal => -x) (v5_at m ρ c b n)).trans ((Cert.Consts.neg_mul_word _).trans rfl)

/-- THE RESULT BUFFER at the last boundary is the goal function of the argument arrays. -/
theorem kernel_value (c : Dev nD) :
    (W5 m ρ c (Proc.devRef .tc main_v20) : S16x1x1024.Idx → EReal)
      = Cert.Goal.G (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine funext fun (i : S16x1x1024.Idx) => ?_
  obtain ⟨b, j, rfl⟩ : ∃ (b : Fin 16) (j : Fin 1024), i = ix3 b 0 j :=
    ⟨i 0, i 2, funext fun a => by
      match a with
      | ⟨0, _⟩ => rfl
      | ⟨1, _⟩ => exact Fin.ext (by have h : (i 1).val < 1 := (i 1).isLt; show (i 1).val = 0; omega)
      | ⟨2, _⟩ => rfl⟩
  rw [v20_at, Region1.final (V3 m ρ) c]
  show out1_3 (V3 m ρ c main_v15) (V3 m ρ c main_v17) (V3 m ρ c main_v18) (ix2 b j) = _
  rw [Block1.block1_value]
  show _ = Cert.Spec.res _ _ _ _ _ _ _ _ _ _ _ _ j
  unfold Cert.Spec.res
  refine congrArg₂ (· + ·) (Finset.sum_congr rfl fun h _ => ?_) (v18_at m ρ c j)
  rw [v15_at, v17_at, pooled_at]

end Cert.KernelIdeal.Whole

end
-- ==== Proof.RefCommon.lean ====
/-
  The reference's five maxima over the points, read at an index.

  A `stablehlo.reduce` with a maximum body over ONE axis is, at a result index, the fold of `max` over that axis's
  coordinates from the initial value's element (`max` commutes and associates on the extended reals).  Over the points
  axis of a [16, 8192, 256] array from the word of -∞ this is the specification's `ptMax` of the column
  `n ↦ y (b, n, o)`; over axis 2 of a [16, 1, 8192, 256] array likewise with `n ↦ y (b, 0, n, o)`.
-/
import proofs.«113704_j40656160424210_1_alg».proof.Proof.RefRead
import proofs.«113704_j40656160424210_1_alg».proof.Proof.Spec
import Idealize.ShloMosaic.Lib.ValueIdx
import Idealize.ShloMosaic.PureOps.Ideal.Laws

noncomputable section

namespace Cert.RefValue

open Idealize.ShloMosaic Idealize.ShloMosaic.ValueIdx Cert.ReferenceIdeal

/-- The result index (b, o) of the reduction over the points, with point `n` put back, is (b, n, o). -/
theorem lift_pts3 (h : S16x8192x256.Reduces [1] S16x256) (b : Fin 16) (o : Fin 256) (n : Fin (S16x8192x256.size 1)) :
    h.lift (ix2 b o) n = ix3 b (⟨n.val, n.isLt⟩ : Fin 8192) o := by
  funext c; apply Fin.ext
  match c with
  | ⟨0, _⟩ => rfl
  | ⟨1, _⟩ => rfl
  | ⟨2, _⟩ => rfl

/-- The maximum over the points axis of a [16, 8192, 256] array from -∞, at (b, o). -/
theorem reduce_pts3 (y : S16x8192x256.Idx → EReal) (h' : S16x8192x256.ReducesTo [1] S16x256) (hu : 0 < S_.numel)
    (b : Fin 16) (o : Fin 256) :
    Host.reduce (FloatOps.maximumf (F := Ideal) (φ := .f32)) y (constant (F := Ideal) S_ .f32 0xFF800000#32) h' hu (ix2 b o)
      = Cert.Spec.ptMax (fun n => y (ix3 b n o)) := by
  have h : S16x8192x256.Reduces [1] S16x256 := by decide
  rw [Host.reduce_eq_fold_single (FloatOps.maximumf (F := Ideal) (φ := .f32)) y _ h' h hu]
  have hf : (y ∘ h.lift (ix2 b o)) = fun n : Fin 8192 => y (ix3 b n o) :=
    funext fun n => congrArg y (lift_pts3 h b o n)
  unfold Cert.Spec.ptMax
  exact congrArg (fun f => Finset.fold max (Ideal.ofBits .f32 0xFF800000#32) f (Finset.univ : Finset (Fin 8192))) hf

/-- The result index (b, 0, o) of the reduction over axis 2 of [16, 1, 8192, 256], with point `n` put back, is (b, 0, n, o). -/
theorem lift_pts4 (h : S16x1x8192x256.Reduces [2] S16x1x256) (b : Fin 16) (o : Fin 256) (n : Fin (S16x1x8192x256.size 2)) :
    h.lift (ix3 b (0 : Fin 1) o) n = ix4 b (0 : Fin 1) (⟨n.val, n.isLt⟩ : Fin 8192) o := by
  funext c; apply Fin.ext
  match c with
  | ⟨0, _⟩ => rfl
  | ⟨1, _⟩ => rfl
  | ⟨2, _⟩ => rfl
  | ⟨3, _⟩ => rfl

/-- The maximum over axis 2 of a [16, 1, 8192, 256] array from -∞, at (b, 0, o). -/
theorem reduce_pts4 (y : S16x1x8192x256.Idx → EReal) (h' : S16x1x8192x256.ReducesTo [2] S16x1x256) (hu : 0 < S_.numel)
    (b : Fin 16) (o : Fin 256) :
    Host.reduce (FloatOps.maximumf (F := Ideal) (φ := .f32)) y (constant (F := Ideal) S_ .f32 0xFF800000#32) h' hu (ix3 b (0 : Fin 1) o)
      = Cert.Spec.ptMax (fun n => y (ix4 b (0 : Fin 1) n o)) := by
  have h : S16x1x8192x256.Reduces [2] S16x1x256 := by decide
  rw [Host.reduce_eq_fold_single (FloatOps.maximumf (F := Ideal) (φ := .f32)) y _ h' h hu]
  have hf : (y ∘ h.lift (ix3 b (0 : Fin 1) o)) = fun n : Fin 8192 => y (ix4 b (0 : Fin 1) n o) :=
    funext fun n => congrArg y (lift_pts4 h b o n)
  unfold Cert.Spec.ptMax
  exact congrArg (fun f => Finset.fold max (Ideal.ofBits .f32 0xFF800000#32) f (Finset.univ : Finset (Fin 8192))) hf

end Cert.RefValue

end
-- ==== Proof.RefIn.lean ====
/-
  The reference's input layer read at an index.

  The point cloud [16, 1, 8192, 3] is reshaped to [16, 8192, 3] (row-major: entry (b, n, d) is entry (b, 0, n, d)),
  contracted with W_in over the three coordinates, the bias broadcast over clouds and points added, and the maximum
  with the zero word taken: at (b, n, h) this is the specification's `inLayer` for cloud `b`.
-/
import proofs.«113704_j40656160424210_1_alg».proof.Proof.RefCommon

noncomputable section

namespace Cert.RefValue

open Idealize.ShloMosaic Idealize.ShloMosaic.ValueIdx Cert.ReferenceIdeal Cert.ReferenceIdeal.Read

section
variable (x1 : (⟨S16x1x8192x3, .f32⟩ : BufTy).Contents (Elt Ideal)) (x3 : (⟨S256x3, .f32⟩ : BufTy).Contents (Elt Ideal)) (x4 : (⟨S256, .f32⟩ : BufTy).Contents (Elt Ideal))

/-- Entry (b, n, k) of the reshaped cloud array is entry (b, 0, n, k) of the argument. -/
theorem in_idx (b : Fin 16) (n : Fin 8192) (h : Fin 256) (k : Fin 3) :
    idx_main_v0 (lidx_main_v1 (ix3 b n h) k) = ix4 b (0 : Fin 1) n k := by
  funext a; apply Fin.ext
  have hb := b.isLt; have hn := n.isLt; have hk := k.isLt
  match a with
  | ⟨0, _⟩ => show ((b.val * 8192 + n.val) * 3 + k.val) / 24576 = b.val; omega
  | ⟨1, _⟩ => rfl
  | ⟨2, _⟩ => show ((b.val * 8192 + n.val) * 3 + k.val) / 3 % 8192 = n.val; omega
  | ⟨3, _⟩ => show ((b.val * 8192 + n.val) * 3 + k.val) % 3 = k.val; omega

/-- The broadcast input bias at (b, n, h) is b_in[h]. -/
theorem bin_at (b : Fin 16) (n : Fin 8192) (h : Fin 256) : val_main_v3 (F := Ideal) x4 (ix3 b n h) = x4 (ix1 h) := by
  rw [val_main_v3_apply, val_main_v2_apply]
  exact congrArg x4 (funext fun a => by match a with | ⟨0, _⟩ => rfl)

/-- The broadcast zero. -/
theorem zero_in_at (i : S16x8192x256.Idx) : val_main_v5 (F := Ideal) i = Cert.Spec.zeroW := by
  rw [val_main_v5_apply]; rfl

/-- The input layer's output at (b, n, h) is the specification's `inLayer` for cloud `b`. -/
theorem inLayer_at (b : Fin 16) (n : Fin 8192) (h : Fin 256) :
    val_main_v6 (F := Ideal) x1 x3 x4 (ix3 b n h)
      = Cert.Spec.inLayer (fun h d => x3 (ix2 h d)) (fun h => x4 (ix1 h)) (fun n d => x1 (ix4 b (0 : Fin 1) n d)) n h := by
  rw [val_main_v6_apply, val_main_v4_apply, val_main_v1_apply, zero_in_at, bin_at]
  unfold Cert.Spec.inLayer Cert.Spec.relu
  simp only [Ideal.maximumf_def, Ideal.addf_def]
  refine congrArg (fun s => max (s + x4 (ix1 h)) Cert.Spec.zeroW) (Finset.sum_congr rfl fun k _ => ?_)
  have er : ridx_main_v1 (ix3 b n h) k = ix2 h k :=
    funext fun a => by match a with | ⟨0, _⟩ => rfl | ⟨1, _⟩ => rfl
  rw [val_main_v0_apply, in_idx, er]

end

end Cert.RefValue

end
-- ==== Proof.RefLayer1.lean ====
/-
  The reference's first layer read at an index, for cloud `b`, from the input layer's output `y n k` at (b, n, k).

  The layer's weights are slice 0 of the stacked arrays, reshaped: a [1, 256, 256] slice read at (o, k) is entry
  (0, o, k), and the second half of the 512-column weight starts at column 256.  The convolution is a contraction
  over the 256 channels plus a broadcast bias, then the maximum with the zero word; its maximum over the points is
  contracted with the second half and broadcast back over the points; the first half is contracted with the
  activations; the two are added, then the bias, then the maximum with zero: the specification's `layer`.
-/
import proofs.«113704_j40656160424210_1_alg».proof.Proof.RefCommon

noncomputable section

namespace Cert.RefValue

open Idealize.ShloMosaic Idealize.ShloMosaic.ValueIdx Cert.ReferenceIdeal Cert.ReferenceIdeal.Read

section
variable (x1 : (⟨S16x1x8192x3, .f32⟩ : BufTy).Contents (Elt Ideal)) (x3 : (⟨S256x3, .f32⟩ : BufTy).Contents (Elt Ideal)) (x4 : (⟨S256, .f32⟩ : BufTy).Contents (Elt Ideal)) (x5 : (⟨S4x256x256, .f32⟩ : BufTy).Contents (Elt Ideal)) (x6 : (⟨S4x256, .f32⟩ : BufTy).Contents (Elt Ideal)) (x7 : (⟨S4x256x512, .f32⟩ : BufTy).Contents (Elt Ideal)) (x8 : (⟨S4x256, .f32⟩ : BufTy).Contents (Elt Ideal))

/-- The convolution's weight at (o, k) is Wl[0, o, k]. -/
theorem wl1_at (o k : Fin 256) : val_main_v8 (F := Ideal) x5 (ix2 o k) = x5 (ix3 (0 : Fin 4) o k) := by
  rw [val_main_v8_apply, val_main_v7_apply]
  refine congrArg x5 (funext fun a => Fin.ext ?_)
  have ho := o.isLt; have hk := k.isLt
  match a with
  | ⟨0, _⟩ => rfl
  | ⟨1, _⟩ => show (o.val * 256 + k.val) / 256 % 256 = o.val; omega
  | ⟨2, _⟩ => show (o.val * 256 + k.val) % 256 = k.val; omega

/-- The convolution's broadcast bias at (b, n, o) is bl[0, o]. -/
theorem bl1_at (b : Fin 16) (n : Fin 8192) (o : Fin 256) : val_main_v13 (F := Ideal) x6 (ix3 b n o) = x6 (ix2 (0 : Fin 4) o) := by
  rw [val_main_v13_apply, val_main_v12_apply, val_main_v11_apply, val_main_v10_apply]
  refine congrArg x6 (funext fun a => Fin.ext ?_)
  have ho := o.isLt
  match a with
  | ⟨0, _⟩ => rfl
  | ⟨1, _⟩ => show o.val % 256 = o.val; omega

/-- The broadcast zero of the convolution's relu. -/
theorem zeroA1_at (i : S16x8192x256.Idx) : val_main_v15 (F := Ideal) i = Cert.Spec.zeroW := by
  rw [val_main_v15_apply]; rfl

/-- The convolution's output at (b, n, o) is the specification's `conv` of the previous output. -/
theorem conv1_at (b : Fin 16) (n : Fin 8192) (o : Fin 256) :
    val_main_v16 (F := Ideal) x1 x3 x4 x5 x6 (ix3 b n o) = Cert.Spec.conv (fun o k => x5 (ix3 (0 : Fin 4) o k)) (fun o => x6 (ix2 (0 : Fin 4) o)) (fun n k => val_main_v6 (F := Ideal) x1 x3 x4 (ix3 b n k)) n o := by
  rw [val_main_v16_apply, val_main_v14_apply, val_main_v9_apply, zeroA1_at, bl1_at]
  unfold Cert.Spec.conv Cert.Spec.relu
  simp only [Ideal.maximumf_def, Ideal.addf_def]
  refine congrArg (fun s => max (s + x6 (ix2 (0 : Fin 4) o)) Cert.Spec.zeroW) (Finset.sum_congr rfl fun k _ => ?_)
  have el : lidx_main_v9 (ix3 b n o) k = ix3 b n k :=
    funext fun a => by match a with | ⟨0, _⟩ => rfl | ⟨1, _⟩ => rfl | ⟨2, _⟩ => rfl
  have er : ridx_main_v9 (ix3 b n o) k = ix2 o k :=
    funext fun a => by match a with | ⟨0, _⟩ => rfl | ⟨1, _⟩ => rfl
  rw [el, er, wl1_at]

/-- The maximum of the convolution's output over the points, at (b, o). -/
theorem gmax1_at (b : Fin 16) (o : Fin 256) :
    val_main_v17 (F := Ideal) x1 x3 x4 x5 x6 (ix2 b o) = Cert.Spec.ptMax (fun n => val_main_v16 (F := Ideal) x1 x3 x4 x5 x6 (ix3 b n o)) := by
  unfold val_main_v17
  exact reduce_pts3 (val_main_v16 (F := Ideal) x1 x3 x4 x5 x6) _ _ b o

/-- The first half of the second weight at (o, k) is Wg[0, o, k]. -/
theorem wlo1_at (o k : Fin 256) : val_main_v19 (F := Ideal) x7 (ix2 o k) = x7 (ix3 (0 : Fin 4) o (Cert.Spec.lo k)) := by
  rw [val_main_v19_apply, val_main_v18_apply]
  refine congrArg x7 (funext fun a => Fin.ext ?_)
  have ho := o.isLt; have hk := k.isLt
  match a with
  | ⟨0, _⟩ => rfl
  | ⟨1, _⟩ => show (o.val * 256 + k.val) / 256 % 256 = o.val; omega
  | ⟨2, _⟩ => show (o.val * 256 + k.val) % 256 = k.val; omega

/-- The second half of the second weight at (o, k) is Wg[0, o, 256 + k]. -/
theorem whi1_at (o k : Fin 256) : val_main_v22 (F := Ideal) x7 (ix2 o k) = x7 (ix3 (0 : Fin 4) o (Cert.Spec.hi k)) := by
  rw [val_main_v22_apply, val_main_v21_apply]
  refine congrArg x7 (funext fun a => Fin.ext ?_)
  have ho := o.isLt; have hk := k.isLt
  match a with
  | ⟨0, _⟩ => rfl
  | ⟨1, _⟩ => show (o.val * 256 + k.val) / 256 % 256 = o.val; omega
  | ⟨2, _⟩ => show 256 + (o.val * 256 + k.val) % 256 = 256 + k.val; omega

/-- The second bias, broadcast, at (b, n, o) is bg[0, o]. -/
theorem bg1_at (b : Fin 16) (n : Fin 8192) (o : Fin 256) : val_main_v30 (F := Ideal) x8 (ix3 b n o) = x8 (ix2 (0 : Fin 4) o) := by
  rw [val_main_v30_apply, val_main_v29_apply, val_main_v28_apply, val_main_v27_apply]
  refine congrArg x8 (funext fun a => Fin.ext ?_)
  have ho := o.isLt
  match a with
  | ⟨0, _⟩ => rfl
  | ⟨1, _⟩ => show o.val % 256 = o.val; omega

/-- The broadcast zero of the layer's last relu. -/
theorem zeroZ1_at (i : S16x8192x256.Idx) : val_main_v32 (F := Ideal) i = Cert.Spec.zeroW := by
  rw [val_main_v32_apply]; rfl

/-- The maxima over the points through the second half of the weight, broadcast back over the points. -/
theorem gproj1_at (b : Fin 16) (n : Fin 8192) (o : Fin 256) :
    val_main_v25 (F := Ideal) x1 x3 x4 x5 x6 x7 (ix3 b n o)
      = ∑ k : Fin 256, val_main_v17 (F := Ideal) x1 x3 x4 x5 x6 (ix2 b k) * x7 (ix3 (0 : Fin 4) o (Cert.Spec.hi k)) := by
  rw [val_main_v25_apply, val_main_v24_apply, val_main_v23_apply]
  refine Finset.sum_congr rfl fun k _ => ?_
  have el : lidx_main_v23 (idx_main_v24 (idx_main_v25 (ix3 b n o))) k = ix2 b k :=
    funext fun a => by match a with | ⟨0, _⟩ => rfl | ⟨1, _⟩ => rfl
  have er : ridx_main_v23 (idx_main_v24 (idx_main_v25 (ix3 b n o))) k = ix2 o k :=
    funext fun a => by match a with | ⟨0, _⟩ => rfl | ⟨1, _⟩ => rfl
  rw [el, er, whi1_at]

/-- The layer's output at (b, n, o) is the specification's `layer` of the previous output. -/
theorem layer1_at (b : Fin 16) (n : Fin 8192) (o : Fin 256) :
    val_main_v33 (F := Ideal) x1 x3 x4 x5 x6 x7 x8 (ix3 b n o)
      = Cert.Spec.layer (fun o k => x5 (ix3 (0 : Fin 4) o k)) (fun o => x6 (ix2 (0 : Fin 4) o)) (fun o c => x7 (ix3 (0 : Fin 4) o c)) (fun o => x8 (ix2 (0 : Fin 4) o)) (fun n k => val_main_v6 (F := Ideal) x1 x3 x4 (ix3 b n k)) n o := by
  rw [val_main_v33_apply, val_main_v31_apply, val_main_v26_apply, val_main_v20_apply, gproj1_at, zeroZ1_at, bg1_at]
  unfold Cert.Spec.layer Cert.Spec.glob Cert.Spec.relu
  simp only [Ideal.maximumf_def, Ideal.addf_def]
  have e1 : (∑ k : Fin 256, val_main_v16 (F := Ideal) x1 x3 x4 x5 x6 (lidx_main_v20 (ix3 b n o) k) * val_main_v19 (F := Ideal) x7 (ridx_main_v20 (ix3 b n o) k))
      = ∑ k : Fin 256, Cert.Spec.conv (fun o k => x5 (ix3 (0 : Fin 4) o k)) (fun o => x6 (ix2 (0 : Fin 4) o)) (fun n k => val_main_v6 (F := Ideal) x1 x3 x4 (ix3 b n k)) n k * x7 (ix3 (0 : Fin 4) o (Cert.Spec.lo k)) :=
    Finset.sum_congr rfl fun k _ => by
      have el : lidx_main_v20 (ix3 b n o) k = ix3 b n k :=
        funext fun a => by match a with | ⟨0, _⟩ => rfl | ⟨1, _⟩ => rfl | ⟨2, _⟩ => rfl
      have er : ridx_main_v20 (ix3 b n o) k = ix2 o k :=
        funext fun a => by match a with | ⟨0, _⟩ => rfl | ⟨1, _⟩ => rfl
      rw [el, er, wlo1_at, conv1_at]
  have e2 : (∑ k : Fin 256, val_main_v17 (F := Ideal) x1 x3 x4 x5 x6 (ix2 b k) * x7 (ix3 (0 : Fin 4) o (Cert.Spec.hi k)))
      = ∑ k : Fin 256, Cert.Spec.ptMax (fun n' => Cert.Spec.conv (fun o k => x5 (ix3 (0 : Fin 4) o k)) (fun o => x6 (ix2 (0 : Fin 4) o)) (fun n k => val_main_v6 (F := Ideal) x1 x3 x4 (ix3 b n k)) n' k) * x7 (ix3 (0 : Fin 4) o (Cert.Spec.hi k)) :=
    Finset.sum_congr rfl fun k _ => by
      rw [gmax1_at]
      exact congrArg (fun f => Cert.Spec.ptMax f * x7 (ix3 (0 : Fin 4) o (Cert.Spec.hi k))) (funext fun n' => conv1_at x1 x3 x4 x5 x6 b n' k)
  rw [e1, e2]

end

end Cert.RefValue

end
-- ==== Proof.RefLayer2.lean ====
/-
  The reference's second layer read at an index, for cloud `b`, from layer 1's output `y n k` at (b, n, k).

  The layer's weights are slice 1 of the stacked arrays, reshaped: a [1, 256, 256] slice read at (o, k) is entry
  (1, o, k), and the second half of the 512-column weight starts at column 256.  The convolution is a contraction
  over the 256 channels plus a broadcast bias, then the maximum with the zero word; its maximum over the points is
  contracted with the second half and broadcast back over the points; the first half is contracted with the
  activations; the two are added, then the bias, then the maximum with zero: the specification's `layer`.
-/
import proofs.«113704_j40656160424210_1_alg».proof.Proof.RefCommon

noncomputable section

namespace Cert.RefValue

open Idealize.ShloMosaic Idealize.ShloMosaic.ValueIdx Cert.ReferenceIdeal Cert.ReferenceIdeal.Read

section
variable (x1 : (⟨S16x1x8192x3, .f32⟩ : BufTy).Contents (Elt Ideal)) (x3 : (⟨S256x3, .f32⟩ : BufTy).Contents (Elt Ideal)) (x4 : (⟨S256, .f32⟩ : BufTy).Contents (Elt Ideal)) (x5 : (⟨S4x256x256, .f32⟩ : BufTy).Contents (Elt Ideal)) (x6 : (⟨S4x256, .f32⟩ : BufTy).Contents (Elt Ideal)) (x7 : (⟨S4x256x512, .f32⟩ : BufTy).Contents (Elt Ideal)) (x8 : (⟨S4x256, .f32⟩ : BufTy).Contents (Elt Ideal))

/-- The convolution's weight at (o, k) is Wl[1, o, k]. -/
theorem wl2_at (o k : Fin 256) : val_main_v35 (F := Ideal) x5 (ix2 o k) = x5 (ix3 (1 : Fin 4) o k) := by
  rw [val_main_v35_apply, val_main_v34_apply]
  refine congrArg x5 (funext fun a => Fin.ext ?_)
  have ho := o.isLt; have hk := k.isLt
  match a with
  | ⟨0, _⟩ => rfl
  | ⟨1, _⟩ => show (o.val * 256 + k.val) / 256 % 256 = o.val; omega
  | ⟨2, _⟩ => show (o.val * 256 + k.val) % 256 = k.val; omega

/-- The convolution's broadcast bias at (b, n, o) is bl[1, o]. -/
theorem bl2_at (b : Fin 16) (n : Fin 8192) (o : Fin 256) : val_main_v40 (F := Ideal) x6 (ix3 b n o) = x6 (ix2 (1 : Fin 4) o) := by
  rw [val_main_v40_apply, val_main_v39_apply, val_main_v38_apply, val_main_v37_apply]
  refine congrArg x6 (funext fun a => Fin.ext ?_)
  have ho := o.isLt
  match a with
  | ⟨0, _⟩ => rfl
  | ⟨1, _⟩ => show o.val % 256 = o.val; omega

/-- The broadcast zero of the convolution's relu. -/
theorem zeroA2_at (i : S16x8192x256.Idx) : val_main_v42 (F := Ideal) i = Cert.Spec.zeroW := by
  rw [val_main_v42_apply]; rfl

/-- The convolution's output at (b, n, o) is the specification's `conv` of the previous output. -/
theorem conv2_at (b : Fin 16) (n : Fin 8192) (o : Fin 256) :
    val_main_v43 (F := Ideal) x1 x3 x4 x5 x6 x7 x8 (ix3 b n o) = Cert.Spec.conv (fun o k => x5 (ix3 (1 : Fin 4) o k)) (fun o => x6 (ix2 (1 : Fin 4) o)) (fun n k => val_main_v33 (F := Ideal) x1 x3 x4 x5 x6 x7 x8 (ix3 b n k)) n o := by
  rw [val_main_v43_apply, val_main_v41_apply, val_main_v36_apply, zeroA2_at, bl2_at]
  unfold Cert.Spec.conv Cert.Spec.relu
  simp only [Ideal.maximumf_def, Ideal.addf_def]
  refine congrArg (fun s => max (s + x6 (ix2 (1 : Fin 4) o)) Cert.Spec.zeroW) (Finset.sum_congr rfl fun k _ => ?_)
  have el : lidx_main_v36 (ix3 b n o) k = ix3 b n k :=
    funext fun a => by match a with | ⟨0, _⟩ => rfl | ⟨1, _⟩ => rfl | ⟨2, _⟩ => rfl
  have er : ridx_main_v36 (ix3 b n o) k = ix2 o k :=
    funext fun a => by match a with | ⟨0, _⟩ => rfl | ⟨1, _⟩ => rfl
  rw [el, er, wl2_at]

/-- The maximum of the convolution's output over the points, at (b, o). -/
theorem gmax2_at (b : Fin 16) (o : Fin 256) :
    val_main_v44 (F := Ideal) x1 x3 x4 x5 x6 x7 x8 (ix2 b o) = Cert.Spec.ptMax (fun n => val_main_v43 (F := Ideal) x1 x3 x4 x5 x6 x7 x8 (ix3 b n o)) := by
  unfold val_main_v44
  exact reduce_pts3 (val_main_v43 (F := Ideal) x1 x3 x4 x5 x6 x7 x8) _ _ b o

/-- The first half of the second weight at (o, k) is Wg[1, o, k]. -/
theorem wlo2_at (o k : Fin 256) : val_main_v46 (F := Ideal) x7 (ix2 o k) = x7 (ix3 (1 : Fin 4) o (Cert.Spec.lo k)) := by
  rw [val_main_v46_apply, val_main_v45_apply]
  refine congrArg x7 (funext fun a => Fin.ext ?_)
  have ho := o.isLt; have hk := k.isLt
  match a with
  | ⟨0, _⟩ => rfl
  | ⟨1, _⟩ => show (o.val * 256 + k.val) / 256 % 256 = o.val; omega
  | ⟨2, _⟩ => show (o.val * 256 + k.val) % 256 = k.val; omega

/-- The second half of the second weight at (o, k) is Wg[1, o, 256 + k]. -/
theorem whi2_at (o k : Fin 256) : val_main_v49 (F := Ideal) x7 (ix2 o k) = x7 (ix3 (1 : Fin 4) o (Cert.Spec.hi k)) := by
  rw [val_main_v49_apply, val_main_v48_apply]
  refine congrArg x7 (funext fun a => Fin.ext ?_)
  have ho := o.isLt; have hk := k.isLt
  match a with
  | ⟨0, _⟩ => rfl
  | ⟨1, _⟩ => show (o.val * 256 + k.val) / 256 % 256 = o.val; omega
  | ⟨2, _⟩ => show 256 + (o.val * 256 + k.val) % 256 = 256 + k.val; omega

/-- The second bias, broadcast, at (b, n, o) is bg[1, o]. -/
theorem bg2_at (b : Fin 16) (n : Fin 8192) (o : Fin 256) : val_main_v57 (F := Ideal) x8 (ix3 b n o) = x8 (ix2 (1 : Fin 4) o) := by
  rw [val_main_v57_apply, val_main_v56_apply, val_main_v55_apply, val_main_v54_apply]
  refine congrArg x8 (funext fun a => Fin.ext ?_)
  have ho := o.isLt
  match a with
  | ⟨0, _⟩ => rfl
  | ⟨1, _⟩ => show o.val % 256 = o.val; omega

/-- The broadcast zero of the layer's last relu. -/
theorem zeroZ2_at (i : S16x8192x256.Idx) : val_main_v59 (F := Ideal) i = Cert.Spec.zeroW := by
  rw [val_main_v59_apply]; rfl

/-- The maxima over the points through the second half of the weight, broadcast back over the points. -/
theorem gproj2_at (b : Fin 16) (n : Fin 8192) (o : Fin 256) :
    val_main_v52 (F := Ideal) x1 x3 x4 x5 x6 x7 x8 (ix3 b n o)
      = ∑ k : Fin 256, val_main_v44 (F := Ideal) x1 x3 x4 x5 x6 x7 x8 (ix2 b k) * x7 (ix3 (1 : Fin 4) o (Cert.Spec.hi k)) := by
  rw [val_main_v52_apply, val_main_v51_apply, val_main_v50_apply]
  refine Finset.sum_congr rfl fun k _ => ?_
  have el : lidx_main_v50 (idx_main_v51 (idx_main_v52 (ix3 b n o))) k = ix2 b k :=
    funext fun a => by match a with | ⟨0, _⟩ => rfl | ⟨1, _⟩ => rfl
  have er : ridx_main_v50 (idx_main_v51 (idx_main_v52 (ix3 b n o))) k = ix2 o k :=
    funext fun a => by match a with | ⟨0, _⟩ => rfl | ⟨1, _⟩ => rfl
  rw [el, er, whi2_at]

/-- The layer's output at (b, n, o) is the specification's `layer` of the previous output. -/
theorem layer2_at (b : Fin 16) (n : Fin 8192) (o : Fin 256) :
    val_main_v60 (F := Ideal) x1 x3 x4 x5 x6 x7 x8 (ix3 b n o)
      = Cert.Spec.layer (fun o k => x5 (ix3 (1 : Fin 4) o k)) (fun o => x6 (ix2 (1 : Fin 4) o)) (fun o c => x7 (ix3 (1 : Fin 4) o c)) (fun o => x8 (ix2 (1 : Fin 4) o)) (fun n k => val_main_v33 (F := Ideal) x1 x3 x4 x5 x6 x7 x8 (ix3 b n k)) n o := by
  rw [val_main_v60_apply, val_main_v58_apply, val_main_v53_apply, val_main_v47_apply, gproj2_at, zeroZ2_at, bg2_at]
  unfold Cert.Spec.layer Cert.Spec.glob Cert.Spec.relu
  simp only [Ideal.maximumf_def, Ideal.addf_def]
  have e1 : (∑ k : Fin 256, val_main_v43 (F := Ideal) x1 x3 x4 x5 x6 x7 x8 (lidx_main_v47 (ix3 b n o) k) * val_main_v46 (F := Ideal) x7 (ridx_main_v47 (ix3 b n o) k))
      = ∑ k : Fin 256, Cert.Spec.conv (fun o k => x5 (ix3 (1 : Fin 4) o k)) (fun o => x6 (ix2 (1 : Fin 4) o)) (fun n k => val_main_v33 (F := Ideal) x1 x3 x4 x5 x6 x7 x8 (ix3 b n k)) n k * x7 (ix3 (1 : Fin 4) o (Cert.Spec.lo k)) :=
    Finset.sum_congr rfl fun k _ => by
      have el : lidx_main_v47 (ix3 b n o) k = ix3 b n k :=
        funext fun a => by match a with | ⟨0, _⟩ => rfl | ⟨1, _⟩ => rfl | ⟨2, _⟩ => rfl
      have er : ridx_main_v47 (ix3 b n o) k = ix2 o k :=
        funext fun a => by match a with | ⟨0, _⟩ => rfl | ⟨1, _⟩ => rfl
      rw [el, er, wlo2_at, conv2_at]
  have e2 : (∑ k : Fin 256, val_main_v44 (F := Ideal) x1 x3 x4 x5 x6 x7 x8 (ix2 b k) * x7 (ix3 (1 : Fin 4) o (Cert.Spec.hi k)))
      = ∑ k : Fin 256, Cert.Spec.ptMax (fun n' => Cert.Spec.conv (fun o k => x5 (ix3 (1 : Fin 4) o k)) (fun o => x6 (ix2 (1 : Fin 4) o)) (fun n k => val_main_v33 (F := Ideal) x1 x3 x4 x5 x6 x7 x8 (ix3 b n k)) n' k) * x7 (ix3 (1 : Fin 4) o (Cert.Spec.hi k)) :=
    Finset.sum_congr rfl fun k _ => by
      rw [gmax2_at]
      exact congrArg (fun f => Cert.Spec.ptMax f * x7 (ix3 (1 : Fin 4) o (Cert.Spec.hi k))) (funext fun n' => conv2_at x1 x3 x4 x5 x6 x7 x8 b n' k)
  rw [e1, e2]

end

end Cert.RefValue

end
-- ==== Proof.RefLayer3.lean ====
/-
  The reference's third layer read at an index, for cloud `b`, from layer 2's output `y n k` at (b, n, k).

  The layer's weights are slice 2 of the stacked arrays, reshaped: a [1, 256, 256] slice read at (o, k) is entry
  (2, o, k), and the second half of the 512-column weight starts at column 256.  The convolution is a contraction
  over the 256 channels plus a broadcast bias, then the maximum with the zero word; its maximum over the points is
  contracted with the second half and broadcast back over the points; the first half is contracted with the
  activations; the two are added, then the bias, then the maximum with zero: the specification's `layer`.
-/
import proofs.«113704_j40656160424210_1_alg».proof.Proof.RefCommon

noncomputable section

namespace Cert.RefValue

open Idealize.ShloMosaic Idealize.ShloMosaic.ValueIdx Cert.ReferenceIdeal Cert.ReferenceIdeal.Read

section
variable (x1 : (⟨S16x1x8192x3, .f32⟩ : BufTy).Contents (Elt Ideal)) (x3 : (⟨S256x3, .f32⟩ : BufTy).Contents (Elt Ideal)) (x4 : (⟨S256, .f32⟩ : BufTy).Contents (Elt Ideal)) (x5 : (⟨S4x256x256, .f32⟩ : BufTy).Contents (Elt Ideal)) (x6 : (⟨S4x256, .f32⟩ : BufTy).Contents (Elt Ideal)) (x7 : (⟨S4x256x512, .f32⟩ : BufTy).Contents (Elt Ideal)) (x8 : (⟨S4x256, .f32⟩ : BufTy).Contents (Elt Ideal))

/-- The convolution's weight at (o, k) is Wl[2, o, k]. -/
theorem wl3_at (o k : Fin 256) : val_main_v62 (F := Ideal) x5 (ix2 o k) = x5 (ix3 (2 : Fin 4) o k) := by
  rw [val_main_v62_apply, val_main_v61_apply]
  refine congrArg x5 (funext fun a => Fin.ext ?_)
  have ho := o.isLt; have hk := k.isLt
  match a with
  | ⟨0, _⟩ => rfl
  | ⟨1, _⟩ => show (o.val * 256 + k.val) / 256 % 256 = o.val; omega
  | ⟨2, _⟩ => show (o.val * 256 + k.val) % 256 = k.val; omega

/-- The convolution's broadcast bias at (b, n, o) is bl[2, o]. -/
theorem bl3_at (b : Fin 16) (n : Fin 8192) (o : Fin 256) : val_main_v67 (F := Ideal) x6 (ix3 b n o) = x6 (ix2 (2 : Fin 4) o) := by
  rw [val_main_v67_apply, val_main_v66_apply, val_main_v65_apply, val_main_v64_apply]
  refine congrArg x6 (funext fun a => Fin.ext ?_)
  have ho := o.isLt
  match a with
  | ⟨0, _⟩ => rfl
  | ⟨1, _⟩ => show o.val % 256 = o.val; omega

/-- The broadcast zero of the convolution's relu. -/
theorem zeroA3_at (i : S16x8192x256.Idx) : val_main_v69 (F := Ideal) i = Cert.Spec.zeroW := by
  rw [val_main_v69_apply]; rfl

/-- The convolution's output at (b, n, o) is the specification's `conv` of the previous output. -/
theorem conv3_at (b : Fin 16) (n : Fin 8192) (o : Fin 256) :
    val_main_v70 (F := Ideal) x1 x3 x4 x5 x6 x7 x8 (ix3 b n o) = Cert.Spec.conv (fun o k => x5 (ix3 (2 : Fin 4) o k)) (fun o => x6 (ix2 (2 : Fin 4) o)) (fun n k => val_main_v60 (F := Ideal) x1 x3 x4 x5 x6 x7 x8 (ix3 b n k)) n o := by
  rw [val_main_v70_apply, val_main_v68_apply, val_main_v63_apply, zeroA3_at, bl3_at]
  unfold Cert.Spec.conv Cert.Spec.relu
  simp only [Ideal.maximumf_def, Ideal.addf_def]
  refine congrArg (fun s => max (s + x6 (ix2 (2 : Fin 4) o)) Cert.Spec.zeroW) (Finset.sum_congr rfl fun k _ => ?_)
  have el : lidx_main_v63 (ix3 b n o) k = ix3 b n k :=
    funext fun a => by match a with | ⟨0, _⟩ => rfl | ⟨1, _⟩ => rfl | ⟨2, _⟩ => rfl
  have er : ridx_main_v63 (ix3 b n o) k = ix2 o k :=
    funext fun a => by match a with | ⟨0, _⟩ => rfl | ⟨1, _⟩ => rfl
  rw [el, er, wl3_at]

/-- The maximum of the convolution's output over the points, at (b, o). -/
theorem gmax3_at (b : Fin 16) (o : Fin 256) :
    val_main_v71 (F := Ideal) x1 x3 x4 x5 x6 x7 x8 (ix2 b o) = Cert.Spec.ptMax (fun n => val_main_v70 (F := Ideal) x1 x3 x4 x5 x6 x7 x8 (ix3 b n o)) := by
  unfold val_main_v71
  exact reduce_pts3 (val_main_v70 (F := Ideal) x1 x3 x4 x5 x6 x7 x8) _ _ b o

/-- The first half of the second weight at (o, k) is Wg[2, o, k]. -/
theorem wlo3_at (o k : Fin 256) : val_main_v73 (F := Ideal) x7 (ix2 o k) = x7 (ix3 (2 : Fin 4) o (Cert.Spec.lo k)) := by
  rw [val_main_v73_apply, val_main_v72_apply]
  refine congrArg x7 (funext fun a => Fin.ext ?_)
  have ho := o.isLt; have hk := k.isLt
  match a with
  | ⟨0, _⟩ => rfl
  | ⟨1, _⟩ => show (o.val * 256 + k.val) / 256 % 256 = o.val; omega
  | ⟨2, _⟩ => show (o.val * 256 + k.val) % 256 = k.val; omega

/-- The second half of the second weight at (o, k) is Wg[2, o, 256 + k]. -/
theorem whi3_at (o k : Fin 256) : val_main_v76 (F := Ideal) x7 (ix2 o k) = x7 (ix3 (2 : Fin 4) o (Cert.Spec.hi k)) := by
  rw [val_main_v76_apply, val_main_v75_apply]
  refine congrArg x7 (funext fun a => Fin.ext ?_)
  have ho := o.isLt; have hk := k.isLt
  match a with
  | ⟨0, _⟩ => rfl
  | ⟨1, _⟩ => show (o.val * 256 + k.val) / 256 % 256 = o.val; omega
  | ⟨2, _⟩ => show 256 + (o.val * 256 + k.val) % 256 = 256 + k.val; omega

/-- The second bias, broadcast, at (b, n, o) is bg[2, o]. -/
theorem bg3_at (b : Fin 16) (n : Fin 8192) (o : Fin 256) : val_main_v84 (F := Ideal) x8 (ix3 b n o) = x8 (ix2 (2 : Fin 4) o) := by
  rw [val_main_v84_apply, val_main_v83_apply, val_main_v82_apply, val_main_v81_apply]
  refine congrArg x8 (funext fun a => Fin.ext ?_)
  have ho := o.isLt
  match a with
  | ⟨0, _⟩ => rfl
  | ⟨1, _⟩ => show o.val % 256 = o.val; omega

/-- The broadcast zero of the layer's last relu. -/
theorem zeroZ3_at (i : S16x8192x256.Idx) : val_main_v86 (F := Ideal) i = Cert.Spec.zeroW := by
  rw [val_main_v86_apply]; rfl

/-- The maxima over the points through the second half of the weight, broadcast back over the points. -/
theorem gproj3_at (b : Fin 16) (n : Fin 8192) (o : Fin 256) :
    val_main_v79 (F := Ideal) x1 x3 x4 x5 x6 x7 x8 (ix3 b n o)
      = ∑ k : Fin 256, val_main_v71 (F := Ideal) x1 x3 x4 x5 x6 x7 x8 (ix2 b k) * x7 (ix3 (2 : Fin 4) o (Cert.Spec.hi k)) := by
  rw [val_main_v79_apply, val_main_v78_apply, val_main_v77_apply]
  refine Finset.sum_congr rfl fun k _ => ?_
  have el : lidx_main_v77 (idx_main_v78 (idx_main_v79 (ix3 b n o))) k = ix2 b k :=
    funext fun a => by match a with | ⟨0, _⟩ => rfl | ⟨1, _⟩ => rfl
  have er : ridx_main_v77 (idx_main_v78 (idx_main_v79 (ix3 b n o))) k = ix2 o k :=
    funext fun a => by match a with | ⟨0, _⟩ => rfl | ⟨1, _⟩ => rfl
  rw [el, er, whi3_at]

/-- The layer's output at (b, n, o) is the specification's `layer` of the previous output. -/
theorem layer3_at (b : Fin 16) (n : Fin 8192) (o : Fin 256) :
    val_main_v87 (F := Ideal) x1 x3 x4 x5 x6 x7 x8 (ix3 b n o)
      = Cert.Spec.layer (fun o k => x5 (ix3 (2 : Fin 4) o k)) (fun o => x6 (ix2 (2 : Fin 4) o)) (fun o c => x7 (ix3 (2 : Fin 4) o c)) (fun o => x8 (ix2 (2 : Fin 4) o)) (fun n k => val_main_v60 (F := Ideal) x1 x3 x4 x5 x6 x7 x8 (ix3 b n k)) n o := by
  rw [val_main_v87_apply, val_main_v85_apply, val_main_v80_apply, val_main_v74_apply, gproj3_at, zeroZ3_at, bg3_at]
  unfold Cert.Spec.layer Cert.Spec.glob Cert.Spec.relu
  simp only [Ideal.maximumf_def, Ideal.addf_def]
  have e1 : (∑ k : Fin 256, val_main_v70 (F := Ideal) x1 x3 x4 x5 x6 x7 x8 (lidx_main_v74 (ix3 b n o) k) * val_main_v73 (F := Ideal) x7 (ridx_main_v74 (ix3 b n o) k))
      = ∑ k : Fin 256, Cert.Spec.conv (fun o k => x5 (ix3 (2 : Fin 4) o k)) (fun o => x6 (ix2 (2 : Fin 4) o)) (fun n k => val_main_v60 (F := Ideal) x1 x3 x4 x5 x6 x7 x8 (ix3 b n k)) n k * x7 (ix3 (2 : Fin 4) o (Cert.Spec.lo k)) :=
    Finset.sum_congr rfl fun k _ => by
      have el : lidx_main_v74 (ix3 b n o) k = ix3 b n k :=
        funext fun a => by match a with | ⟨0, _⟩ => rfl | ⟨1, _⟩ => rfl | ⟨2, _⟩ => rfl
      have er : ridx_main_v74 (ix3 b n o) k = ix2 o k :=
        funext fun a => by match a with | ⟨0, _⟩ => rfl | ⟨1, _⟩ => rfl
      rw [el, er, wlo3_at, conv3_at]
  have e2 : (∑ k : Fin 256, val_main_v71 (F := Ideal) x1 x3 x4 x5 x6 x7 x8 (ix2 b k) * x7 (ix3 (2 : Fin 4) o (Cert.Spec.hi k)))
      = ∑ k : Fin 256, Cert.Spec.ptMax (fun n' => Cert.Spec.conv (fun o k => x5 (ix3 (2 : Fin 4) o k)) (fun o => x6 (ix2 (2 : Fin 4) o)) (fun n k => val_main_v60 (F := Ideal) x1 x3 x4 x5 x6 x7 x8 (ix3 b n k)) n' k) * x7 (ix3 (2 : Fin 4) o (Cert.Spec.hi k)) :=
    Finset.sum_congr rfl fun k _ => by
      rw [gmax3_at]
      exact congrArg (fun f => Cert.Spec.ptMax f * x7 (ix3 (2 : Fin 4) o (Cert.Spec.hi k))) (funext fun n' => conv3_at x1 x3 x4 x5 x6 x7 x8 b n' k)
  rw [e1, e2]

end

end Cert.RefValue

end
-- ==== Proof.RefLayer4.lean ====
/-
  The reference's fourth layer read at an index, for cloud `b`, from layer 3's output `y n k` at (b, n, k).

  The layer's weights are slice 3 of the stacked arrays, reshaped: a [1, 256, 256] slice read at (o, k) is entry
  (3, o, k), and the second half of the 512-column weight starts at column 256.  The convolution is a contraction
  over the 256 channels plus a broadcast bias, then the maximum with the zero word; its maximum over the points is
  contracted with the second half and broadcast back over the points; the first half is contracted with the
  activations; the two are added, then the bias, then the maximum with zero: the specification's `layer`.
-/
import proofs.«113704_j40656160424210_1_alg».proof.Proof.RefCommon

noncomputable section

namespace Cert.RefValue

open Idealize.ShloMosaic Idealize.ShloMosaic.ValueIdx Cert.ReferenceIdeal Cert.ReferenceIdeal.Read

section
variable (x1 : (⟨S16x1x8192x3, .f32⟩ : BufTy).Contents (Elt Ideal)) (x3 : (⟨S256x3, .f32⟩ : BufTy).Contents (Elt Ideal)) (x4 : (⟨S256, .f32⟩ : BufTy).Contents (Elt Ideal)) (x5 : (⟨S4x256x256, .f32⟩ : BufTy).Contents (Elt Ideal)) (x6 : (⟨S4x256, .f32⟩ : BufTy).Contents (Elt Ideal)) (x7 : (⟨S4x256x512, .f32⟩ : BufTy).Contents (Elt Ideal)) (x8 : (⟨S4x256, .f32⟩ : BufTy).Contents (Elt Ideal))

/-- The convolution's weight at (o, k) is Wl[3, o, k]. -/
theorem wl4_at (o k : Fin 256) : val_main_v89 (F := Ideal) x5 (ix2 o k) = x5 (ix3 (3 : Fin 4) o k) := by
  rw [val_main_v89_apply, val_main_v88_apply]
  refine congrArg x5 (funext fun a => Fin.ext ?_)
  have ho := o.isLt; have hk := k.isLt
  match a with
  | ⟨0, _⟩ => rfl
  | ⟨1, _⟩ => show (o.val * 256 + k.val) / 256 % 256 = o.val; omega
  | ⟨2, _⟩ => show (o.val * 256 + k.val) % 256 = k.val; omega

/-- The convolution's broadcast bias at (b, n, o) is bl[3, o]. -/
theorem bl4_at (b : Fin 16) (n : Fin 8192) (o : Fin 256) : val_main_v94 (F := Ideal) x6 (ix3 b n o) = x6 (ix2 (3 : Fin 4) o) := by
  rw [val_main_v94_apply, val_main_v93_apply, val_main_v92_apply, val_main_v91_apply]
  refine congrArg x6 (funext fun a => Fin.ext ?_)
  have ho := o.isLt
  match a with
  | ⟨0, _⟩ => rfl
  | ⟨1, _⟩ => show o.val % 256 = o.val; omega

/-- The broadcast zero of the convolution's relu. -/
theorem zeroA4_at (i : S16x8192x256.Idx) : val_main_v96 (F := Ideal) i = Cert.Spec.zeroW := by
  rw [val_main_v96_apply]; rfl

/-- The convolution's output at (b, n, o) is the specification's `conv` of the previous output. -/
theorem conv4_at (b : Fin 16) (n : Fin 8192) (o : Fin 256) :
    val_main_v97 (F := Ideal) x1 x3 x4 x5 x6 x7 x8 (ix3 b n o) = Cert.Spec.conv (fun o k => x5 (ix3 (3 : Fin 4) o k)) (fun o => x6 (ix2 (3 : Fin 4) o)) (fun n k => val_main_v87 (F := Ideal) x1 x3 x4 x5 x6 x7 x8 (ix3 b n k)) n o := by
  rw [val_main_v97_apply, val_main_v95_apply, val_main_v90_apply, zeroA4_at, bl4_at]
  unfold Cert.Spec.conv Cert.Spec.relu
  simp only [Ideal.maximumf_def, Ideal.addf_def]
  refine congrArg (fun s => max (s + x6 (ix2 (3 : Fin 4) o)) Cert.Spec.zeroW) (Finset.sum_congr rfl fun k _ => ?_)
  have el : lidx_main_v90 (ix3 b n o) k = ix3 b n k :=
    funext fun a => by match a with | ⟨0, _⟩ => rfl | ⟨1, _⟩ => rfl | ⟨2, _⟩ => rfl
  have er : ridx_main_v90 (ix3 b n o) k = ix2 o k :=
    funext fun a => by match a with | ⟨0, _⟩ => rfl | ⟨1, _⟩ => rfl
  rw [el, er, wl4_at]

/-- The maximum of the convolution's output over the points, at (b, o). -/
theorem gmax4_at (b : Fin 16) (o : Fin 256) :
    val_main_v98 (F := Ideal) x1 x3 x4 x5 x6 x7 x8 (ix2 b o) = Cert.Spec.ptMax (fun n => val_main_v97 (F := Ideal) x1 x3 x4 x5 x6 x7 x8 (ix3 b n o)) := by
  unfold val_main_v98
  exact reduce_pts3 (val_main_v97 (F := Ideal) x1 x3 x4 x5 x6 x7 x8) _ _ b o

/-- The first half of the second weight at (o, k) is Wg[3, o, k]. -/
theorem wlo4_at (o k : Fin 256) : val_main_v100 (F := Ideal) x7 (ix2 o k) = x7 (ix3 (3 : Fin 4) o (Cert.Spec.lo k)) := by
  rw [val_main_v100_apply, val_main_v99_apply]
  refine congrArg x7 (funext fun a => Fin.ext ?_)
  have ho := o.isLt; have hk := k.isLt
  match a with
  | ⟨0, _⟩ => rfl
  | ⟨1, _⟩ => show (o.val * 256 + k.val) / 256 % 256 = o.val; omega
  | ⟨2, _⟩ => show (o.val * 256 + k.val) % 256 = k.val; omega

/-- The second half of the second weight at (o, k) is Wg[3, o, 256 + k]. -/
theorem whi4_at (o k : Fin 256) : val_main_v103 (F := Ideal) x7 (ix2 o k) = x7 (ix3 (3 : Fin 4) o (Cert.Spec.hi k)) := by
  rw [val_main_v103_apply, val_main_v102_apply]
  refine congrArg x7 (funext fun a => Fin.ext ?_)
  have ho := o.isLt; have hk := k.isLt
  match a with
  | ⟨0, _⟩ => rfl
  | ⟨1, _⟩ => show (o.val * 256 + k.val) / 256 % 256 = o.val; omega
  | ⟨2, _⟩ => show 256 + (o.val * 256 + k.val) % 256 = 256 + k.val; omega

/-- The second bias, broadcast, at (b, n, o) is bg[3, o]. -/
theorem bg4_at (b : Fin 16) (n : Fin 8192) (o : Fin 256) : val_main_v111 (F := Ideal) x8 (ix3 b n o) = x8 (ix2 (3 : Fin 4) o) := by
  rw [val_main_v111_apply, val_main_v110_apply, val_main_v109_apply, val_main_v108_apply]
  refine congrArg x8 (funext fun a => Fin.ext ?_)
  have ho := o.isLt
  match a with
  | ⟨0, _⟩ => rfl
  | ⟨1, _⟩ => show o.val % 256 = o.val; omega

/-- The broadcast zero of the layer's last relu. -/
theorem zeroZ4_at (i : S16x8192x256.Idx) : val_main_v113 (F := Ideal) i = Cert.Spec.zeroW := by
  rw [val_main_v113_apply]; rfl

/-- The maxima over the points through the second half of the weight, broadcast back over the points. -/
theorem gproj4_at (b : Fin 16) (n : Fin 8192) (o : Fin 256) :
    val_main_v106 (F := Ideal) x1 x3 x4 x5 x6 x7 x8 (ix3 b n o)
      = ∑ k : Fin 256, val_main_v98 (F := Ideal) x1 x3 x4 x5 x6 x7 x8 (ix2 b k) * x7 (ix3 (3 : Fin 4) o (Cert.Spec.hi k)) := by
  rw [val_main_v106_apply, val_main_v105_apply, val_main_v104_apply]
  refine Finset.sum_congr rfl fun k _ => ?_
  have el : lidx_main_v104 (idx_main_v105 (idx_main_v106 (ix3 b n o))) k = ix2 b k :=
    funext fun a => by match a with | ⟨0, _⟩ => rfl | ⟨1, _⟩ => rfl
  have er : ridx_main_v104 (idx_main_v105 (idx_main_v106 (ix3 b n o))) k = ix2 o k :=
    funext fun a => by match a with | ⟨0, _⟩ => rfl | ⟨1, _⟩ => rfl
  rw [el, er, whi4_at]

/-- The layer's output at (b, n, o) is the specification's `layer` of the previous output. -/
theorem layer4_at (b : Fin 16) (n : Fin 8192) (o : Fin 256) :
    val_main_v114 (F := Ideal) x1 x3 x4 x5 x6 x7 x8 (ix3 b n o)
      = Cert.Spec.layer (fun o k => x5 (ix3 (3 : Fin 4) o k)) (fun o => x6 (ix2 (3 : Fin 4) o)) (fun o c => x7 (ix3 (3 : Fin 4) o c)) (fun o => x8 (ix2 (3 : Fin 4) o)) (fun n k => val_main_v87 (F := Ideal) x1 x3 x4 x5 x6 x7 x8 (ix3 b n k)) n o := by
  rw [val_main_v114_apply, val_main_v112_apply, val_main_v107_apply, val_main_v101_apply, gproj4_at, zeroZ4_at, bg4_at]
  unfold Cert.Spec.layer Cert.Spec.glob Cert.Spec.relu
  simp only [Ideal.maximumf_def, Ideal.addf_def]
  have e1 : (∑ k : Fin 256, val_main_v97 (F := Ideal) x1 x3 x4 x5 x6 x7 x8 (lidx_main_v101 (ix3 b n o) k) * val_main_v100 (F := Ideal) x7 (ridx_main_v101 (ix3 b n o) k))
      = ∑ k : Fin 256, Cert.Spec.conv (fun o k => x5 (ix3 (3 : Fin 4) o k)) (fun o => x6 (ix2 (3 : Fin 4) o)) (fun n k => val_main_v87 (F := Ideal) x1 x3 x4 x5 x6 x7 x8 (ix3 b n k)) n k * x7 (ix3 (3 : Fin 4) o (Cert.Spec.lo k)) :=
    Finset.sum_congr rfl fun k _ => by
      have el : lidx_main_v101 (ix3 b n o) k = ix3 b n k :=
        funext fun a => by match a with | ⟨0, _⟩ => rfl | ⟨1, _⟩ => rfl | ⟨2, _⟩ => rfl
      have er : ridx_main_v101 (ix3 b n o) k = ix2 o k :=
        funext fun a => by match a with | ⟨0, _⟩ => rfl | ⟨1, _⟩ => rfl
      rw [el, er, wlo4_at, conv4_at]
  have e2 : (∑ k : Fin 256, val_main_v98 (F := Ideal) x1 x3 x4 x5 x6 x7 x8 (ix2 b k) * x7 (ix3 (3 : Fin 4) o (Cert.Spec.hi k)))
      = ∑ k : Fin 256, Cert.Spec.ptMax (fun n' => Cert.Spec.conv (fun o k => x5 (ix3 (3 : Fin 4) o k)) (fun o => x6 (ix2 (3 : Fin 4) o)) (fun n k => val_main_v87 (F := Ideal) x1 x3 x4 x5 x6 x7 x8 (ix3 b n k)) n' k) * x7 (ix3 (3 : Fin 4) o (Cert.Spec.hi k)) :=
    Finset.sum_congr rfl fun k _ => by
      rw [gmax4_at]
      exact congrArg (fun f => Cert.Spec.ptMax f * x7 (ix3 (3 : Fin 4) o (Cert.Spec.hi k))) (funext fun n' => conv4_at x1 x3 x4 x5 x6 x7 x8 b n' k)
  rw [e1, e2]

end

end Cert.RefValue

end
-- ==== Proof.RefFeats.lean ====
/-
  The four layer outputs of the reference, and their concatenation, read at an index for cloud `b`.

  Each layer's output at (b, n, o) is the specification's `layer` of the previous output; chaining them from the
  input layer gives `feat1 … feat4`.  The concatenation along the channel axis of four [16, 8192, 256] arrays read at
  channel `c` is piece `c / 256` at channel `c % 256`: the specification's `cat`.
-/
import proofs.«113704_j40656160424210_1_alg».proof.Proof.RefIn
import proofs.«113704_j40656160424210_1_alg».proof.Proof.RefLayer1
import proofs.«113704_j40656160424210_1_alg».proof.Proof.RefLayer2
import proofs.«113704_j40656160424210_1_alg».proof.Proof.RefLayer3
import proofs.«113704_j40656160424210_1_alg».proof.Proof.RefLayer4
import Idealize.ShloMosaic.Lib.Pipeline.Value

noncomputable section

namespace Cert.RefValue

open Idealize.ShloMosaic Idealize.ShloMosaic.ValueIdx Cert.ReferenceIdeal Cert.ReferenceIdeal.Read

section
variable (x1 : (⟨S16x1x8192x3, .f32⟩ : BufTy).Contents (Elt Ideal)) (x3 : (⟨S256x3, .f32⟩ : BufTy).Contents (Elt Ideal)) (x4 : (⟨S256, .f32⟩ : BufTy).Contents (Elt Ideal)) (x5 : (⟨S4x256x256, .f32⟩ : BufTy).Contents (Elt Ideal)) (x6 : (⟨S4x256, .f32⟩ : BufTy).Contents (Elt Ideal)) (x7 : (⟨S4x256x512, .f32⟩ : BufTy).Contents (Elt Ideal)) (x8 : (⟨S4x256, .f32⟩ : BufTy).Contents (Elt Ideal))

theorem feat1_at (b : Fin 16) (n : Fin 8192) (o : Fin 256) :
    val_main_v33 (F := Ideal) x1 x3 x4 x5 x6 x7 x8 (ix3 b n o) = Cert.Spec.feat1 (fun n d => x1 (ix4 b (0 : Fin 1) n d)) (fun h d => x3 (ix2 h d)) (fun h => x4 (ix1 h)) (fun l o k => x5 (ix3 l o k)) (fun l o => x6 (ix2 l o)) (fun l o c => x7 (ix3 l o c)) (fun l o => x8 (ix2 l o)) n o := by
  rw [layer1_at]
  have hy : (fun n k => val_main_v6 (F := Ideal) x1 x3 x4 (ix3 b n k)) = Cert.Spec.inLayer (fun h d => x3 (ix2 h d)) (fun h => x4 (ix1 h)) (fun n d => x1 (ix4 b (0 : Fin 1) n d)) :=
    funext fun n => funext fun k => inLayer_at x1 x3 x4 b n k
  rw [hy]
  rfl

theorem feat2_at (b : Fin 16) (n : Fin 8192) (o : Fin 256) :
    val_main_v60 (F := Ideal) x1 x3 x4 x5 x6 x7 x8 (ix3 b n o) = Cert.Spec.feat2 (fun n d => x1 (ix4 b (0 : Fin 1) n d)) (fun h d => x3 (ix2 h d)) (fun h => x4 (ix1 h)) (fun l o k => x5 (ix3 l o k)) (fun l o => x6 (ix2 l o)) (fun l o c => x7 (ix3 l o c)) (fun l o => x8 (ix2 l o)) n o := by
  rw [layer2_at]
  have hy : (fun n k => val_main_v33 (F := Ideal) x1 x3 x4 x5 x6 x7 x8 (ix3 b n k)) = Cert.Spec.feat1 (fun n d => x1 (ix4 b (0 : Fin 1) n d)) (fun h d => x3 (ix2 h d)) (fun h => x4 (ix1 h)) (fun l o k => x5 (ix3 l o k)) (fun l o => x6 (ix2 l o)) (fun l o c => x7 (ix3 l o c)) (fun l o => x8 (ix2 l o)) :=
    funext fun n => funext fun k => feat1_at x1 x3 x4 x5 x6 x7 x8 b n k
  rw [hy]
  rfl

theorem feat3_at (b : Fin 16) (n : Fin 8192) (o : Fin 256) :
    val_main_v87 (F := Ideal) x1 x3 x4 x5 x6 x7 x8 (ix3 b n o) = Cert.Spec.feat3 (fun n d => x1 (ix4 b (0 : Fin 1) n d)) (fun h d => x3 (ix2 h d)) (fun h => x4 (ix1 h)) (fun l o k => x5 (ix3 l o k)) (fun l o => x6 (ix2 l o)) (fun l o c => x7 (ix3 l o c)) (fun l o => x8 (ix2 l o)) n o := by
  rw [layer3_at]
  have hy : (fun n k => val_main_v60 (F := Ideal) x1 x3 x4 x5 x6 x7 x8 (ix3 b n k)) = Cert.Spec.feat2 (fun n d => x1 (ix4 b (0 : Fin 1) n d)) (fun h d => x3 (ix2 h d)) (fun h => x4 (ix1 h)) (fun l o k => x5 (ix3 l o k)) (fun l o => x6 (ix2 l o)) (fun l o c => x7 (ix3 l o c)) (fun l o => x8 (ix2 l o)) :=
    funext fun n => funext fun k => feat2_at x1 x3 x4 x5 x6 x7 x8 b n k
  rw [hy]
  rfl

theorem feat4_at (b : Fin 16) (n : Fin 8192) (o : Fin 256) :
    val_main_v114 (F := Ideal) x1 x3 x4 x5 x6 x7 x8 (ix3 b n o) = Cert.Spec.feat4 (fun n d => x1 (ix4 b (0 : Fin 1) n d)) (fun h d => x3 (ix2 h d)) (fun h => x4 (ix1 h)) (fun l o k => x5 (ix3 l o k)) (fun l o => x6 (ix2 l o)) (fun l o c => x7 (ix3 l o c)) (fun l o => x8 (ix2 l o)) n o := by
  rw [layer4_at]
  have hy : (fun n k => val_main_v87 (F := Ideal) x1 x3 x4 x5 x6 x7 x8 (ix3 b n k)) = Cert.Spec.feat3 (fun n d => x1 (ix4 b (0 : Fin 1) n d)) (fun h d => x3 (ix2 h d)) (fun h => x4 (ix1 h)) (fun l o k => x5 (ix3 l o k)) (fun l o => x6 (ix2 l o)) (fun l o c => x7 (ix3 l o c)) (fun l o => x8 (ix2 l o)) :=
    funext fun n => funext fun k => feat3_at x1 x3 x4 x5 x6 x7 x8 b n k
  rw [hy]
  rfl

/-- The four layer outputs of the reference by number. -/
def stage (l : Fin 4) : S16x8192x256.Idx → EReal :=
  match l with
  | 0 => val_main_v33 (F := Ideal) x1 x3 x4 x5 x6 x7 x8
  | 1 => val_main_v60 (F := Ideal) x1 x3 x4 x5 x6 x7 x8
  | 2 => val_main_v87 (F := Ideal) x1 x3 x4 x5 x6 x7 x8
  | 3 => val_main_v114 (F := Ideal) x1 x3 x4 x5 x6 x7 x8

theorem feats_at (l : Fin 4) (b : Fin 16) (n : Fin 8192) (o : Fin 256) :
    stage x1 x3 x4 x5 x6 x7 x8 l (ix3 b n o) = Cert.Spec.feats (fun n d => x1 (ix4 b (0 : Fin 1) n d)) (fun h d => x3 (ix2 h d)) (fun h => x4 (ix1 h)) (fun l o k => x5 (ix3 l o k)) (fun l o => x6 (ix2 l o)) (fun l o c => x7 (ix3 l o c)) (fun l o => x8 (ix2 l o)) l n o := by
  match l with
  | 0 => exact feat1_at x1 x3 x4 x5 x6 x7 x8 b n o
  | 1 => exact feat2_at x1 x3 x4 x5 x6 x7 x8 b n o
  | 2 => exact feat3_at x1 x3 x4 x5 x6 x7 x8 b n o
  | 3 => exact feat4_at x1 x3 x4 x5 x6 x7 x8 b n o

/-- The concatenated array at (b, n, c) is the specification's `cat` for cloud `b`. -/
theorem cat_at (b : Fin 16) (n : Fin 8192) (c : Fin 1024) :
    val_main_v115 (F := Ideal) x1 x3 x4 x5 x6 x7 x8 (ix3 b n c) = Cert.Spec.cat (fun n d => x1 (ix4 b (0 : Fin 1) n d)) (fun h d => x3 (ix2 h d)) (fun h => x4 (ix1 h)) (fun l o k => x5 (ix3 l o k)) (fun l o => x6 (ix2 l o)) (fun l o c => x7 (ix3 l o c)) (fun l o => x8 (ix2 l o)) n c := by
  unfold val_main_v115 Cert.Spec.cat
  rw [← feats_at]
  exact concatenate_ofFn_apply (t := S16x8192x1024) (s₁ := S16x8192x256) 2 (stage x1 x3 x4 x5 x6 x7 x8) _ rfl 256 rfl (ix3 b n c)
    ⟨c.val / 256, by have := c.isLt; omega⟩ rfl (ix3 b n ⟨c.val % 256, Nat.mod_lt _ (by decide)⟩) rfl
    (fun a => match a with
      | ⟨0, _⟩ => fun _ => rfl
      | ⟨1, _⟩ => fun _ => rfl
      | ⟨2, _⟩ => fun ha => absurd rfl ha)

end

end Cert.RefValue

end
-- ==== Proof.RefOut.lean ====
/-
  The reference's tail read at an index for cloud `b`: the 1024-channel projection, the mask's penalty taken away,
  the maximum over the points, and the last projection.

  The projection contracts the concatenated channels with Wo and adds the broadcast bias: the specification's `out`.
  Its reshape to [16, 1, 8192, 256] reads (b, 0, n, o) at (b, n, o).  The penalty array is the word of 100000 times
  the negated mask as a float, at (b, 0, n), broadcast over the channels.  Their difference's maximum over the points
  from -∞ is `pooled`, and the contraction with Wf plus the bias is `res`.
-/
import proofs.«113704_j40656160424210_1_alg».proof.Proof.RefFeats
import proofs.«113704_j40656160424210_1_alg».proof.Proof.Goal

noncomputable section

namespace Cert.RefValue

open Idealize.ShloMosaic Idealize.ShloMosaic.ValueIdx Cert.ReferenceIdeal Cert.ReferenceIdeal.Read

section
variable (x1 : (⟨S16x1x8192x3, .f32⟩ : BufTy).Contents (Elt Ideal)) (x2 : (⟨S16x1x8192, .i1⟩ : BufTy).Contents (Elt Ideal)) (x3 : (⟨S256x3, .f32⟩ : BufTy).Contents (Elt Ideal)) (x4 : (⟨S256, .f32⟩ : BufTy).Contents (Elt Ideal)) (x5 : (⟨S4x256x256, .f32⟩ : BufTy).Contents (Elt Ideal)) (x6 : (⟨S4x256, .f32⟩ : BufTy).Contents (Elt Ideal)) (x7 : (⟨S4x256x512, .f32⟩ : BufTy).Contents (Elt Ideal)) (x8 : (⟨S4x256, .f32⟩ : BufTy).Contents (Elt Ideal)) (x9 : (⟨S256x1024, .f32⟩ : BufTy).Contents (Elt Ideal)) (x10 : (⟨S256, .f32⟩ : BufTy).Contents (Elt Ideal)) (x11 : (⟨S1024x256, .f32⟩ : BufTy).Contents (Elt Ideal)) (x12 : (⟨S1024, .f32⟩ : BufTy).Contents (Elt Ideal))

/-- The output projection's broadcast bias at (b, n, o) is bo[o]. -/
theorem bo_at (b : Fin 16) (n : Fin 8192) (o : Fin 256) : val_main_v118 (F := Ideal) x10 (ix3 b n o) = x10 (ix1 o) := by
  rw [val_main_v118_apply, val_main_v117_apply]
  exact congrArg x10 (funext fun a => by match a with | ⟨0, _⟩ => rfl)

/-- The output projection at (b, n, o) is the specification's `out` for cloud `b`. -/
theorem out_at (b : Fin 16) (n : Fin 8192) (o : Fin 256) :
    val_main_v119 (F := Ideal) x1 x3 x4 x5 x6 x7 x8 x9 x10 (ix3 b n o) = Cert.Spec.out (fun n d => x1 (ix4 b (0 : Fin 1) n d)) (fun h d => x3 (ix2 h d)) (fun h => x4 (ix1 h)) (fun l o k => x5 (ix3 l o k)) (fun l o => x6 (ix2 l o)) (fun l o c => x7 (ix3 l o c)) (fun l o => x8 (ix2 l o)) (fun o c => x9 (ix2 o c)) (fun o => x10 (ix1 o)) n o := by
  rw [val_main_v119_apply, val_main_v116_apply, bo_at]
  unfold Cert.Spec.out
  simp only [Ideal.addf_def]
  refine congrArg (fun s => s + x10 (ix1 o)) (Finset.sum_congr rfl fun c _ => ?_)
  have el : lidx_main_v116 (ix3 b n o) c = ix3 b n c :=
    funext fun a => by match a with | ⟨0, _⟩ => rfl | ⟨1, _⟩ => rfl | ⟨2, _⟩ => rfl
  have er : ridx_main_v116 (ix3 b n o) c = ix2 o c :=
    funext fun a => by match a with | ⟨0, _⟩ => rfl | ⟨1, _⟩ => rfl
  rw [el, er, cat_at]

/-- Entry (b, 0, n, o) of the reshaped projection is entry (b, n, o). -/
theorem out4_idx (b : Fin 16) (n : Fin 8192) (o : Fin 256) : idx_main_v120 (ix4 b (0 : Fin 1) n o) = ix3 b n o := by
  funext a; apply Fin.ext
  have hb := b.isLt; have hn := n.isLt; have ho := o.isLt
  match a with
  | ⟨0, _⟩ => show (((b.val * 1 + 0) * 8192 + n.val) * 256 + o.val) / 2097152 = b.val; omega
  | ⟨1, _⟩ => show (((b.val * 1 + 0) * 8192 + n.val) * 256 + o.val) / 256 % 8192 = n.val; omega
  | ⟨2, _⟩ => show (((b.val * 1 + 0) * 8192 + n.val) * 256 + o.val) % 256 = o.val; omega

/-- The penalty array at (b, 0, n, o) is the mask's penalty at point `n` of cloud `b`. -/
theorem pen_at (b : Fin 16) (n : Fin 8192) (o : Fin 256) :
    val_main_v126 (F := Ideal) x2 (ix4 b (0 : Fin 1) n o) = Cert.Goal.penalty x2 b n := by
  rw [val_main_v126_apply, val_main_v125_apply, val_main_v124_apply, val_main_v123_apply, val_main_v122_apply]
  have e : idx_main_v122 (idx_main_v126 (ix4 b (0 : Fin 1) n o)) = ix3 b (0 : Fin 1) n :=
    funext fun a => by match a with | ⟨0, _⟩ => rfl | ⟨1, _⟩ => rfl | ⟨2, _⟩ => rfl
  rw [e]
  rfl

/-- The maximum over the points of the projection less the penalty, at (b, 0, o), is the specification's `pooled`. -/
theorem pooled_at (b : Fin 16) (o : Fin 256) :
    val_main_v128 (F := Ideal) x1 x2 x3 x4 x5 x6 x7 x8 x9 x10 (ix3 b (0 : Fin 1) o)
      = Cert.Spec.pooled (fun n d => x1 (ix4 b (0 : Fin 1) n d)) (Cert.Goal.penalty x2 b) (fun h d => x3 (ix2 h d)) (fun h => x4 (ix1 h)) (fun l o k => x5 (ix3 l o k)) (fun l o => x6 (ix2 l o)) (fun l o c => x7 (ix3 l o c)) (fun l o => x8 (ix2 l o)) (fun o c => x9 (ix2 o c)) (fun o => x10 (ix1 o)) o := by
  unfold val_main_v128
  refine (reduce_pts4 (val_main_v127 (F := Ideal) x1 x2 x3 x4 x5 x6 x7 x8 x9 x10) _ _ b o).trans ?_
  unfold Cert.Spec.pooled
  refine congrArg Cert.Spec.ptMax (funext fun n => ?_)
  rw [val_main_v127_apply, val_main_v120_apply, pen_at, out4_idx, out_at]
  rfl

/-- The last projection's broadcast bias at (b, 0, j) is bf[j]. -/
theorem bf_at (b : Fin 16) (j : Fin 1024) : val_main_v131 (F := Ideal) x12 (ix3 b (0 : Fin 1) j) = x12 (ix1 j) := by
  rw [val_main_v131_apply, val_main_v130_apply]
  exact congrArg x12 (funext fun a => by match a with | ⟨0, _⟩ => rfl)

/-- The reference's result at (b, 0, j) is the specification's `res` for cloud `b`. -/
theorem res_at (b : Fin 16) (j : Fin 1024) :
    val_main_v132 (F := Ideal) x1 x2 x3 x4 x5 x6 x7 x8 x9 x10 x11 x12 (ix3 b (0 : Fin 1) j)
      = Cert.Spec.res (fun n d => x1 (ix4 b (0 : Fin 1) n d)) (Cert.Goal.penalty x2 b) (fun h d => x3 (ix2 h d)) (fun h => x4 (ix1 h)) (fun l o k => x5 (ix3 l o k)) (fun l o => x6 (ix2 l o)) (fun l o c => x7 (ix3 l o c)) (fun l o => x8 (ix2 l o)) (fun o c => x9 (ix2 o c)) (fun o => x10 (ix1 o)) (fun j h => x11 (ix2 j h)) (fun j => x12 (ix1 j)) j := by
  rw [val_main_v132_apply, val_main_v129_apply, bf_at]
  unfold Cert.Spec.res
  simp only [Ideal.addf_def]
  refine congrArg (fun s => s + x12 (ix1 j)) (Finset.sum_congr rfl fun h _ => ?_)
  have el : lidx_main_v129 (ix3 b (0 : Fin 1) j) h = ix3 b (0 : Fin 1) h :=
    funext fun a => by match a with | ⟨0, _⟩ => rfl | ⟨1, _⟩ => rfl | ⟨2, _⟩ => rfl
  have er : ridx_main_v129 (ix3 b (0 : Fin 1) j) h = ix2 j h :=
    funext fun a => by match a with | ⟨0, _⟩ => rfl | ⟨1, _⟩ => rfl
  rw [el, er, pooled_at]

end

end Cert.RefValue

end
-- ==== Proof.RefIsGoal.lean ====
/-
  The reference's result array is the goal function: entry (b, 0, j) is the specification's `res` for cloud `b`,
  with the mask's penalty as the per-point term.
-/
import proofs.«113704_j40656160424210_1_alg».proof.Proof.RefOut

noncomputable section

namespace Cert.RefValue

open Idealize.ShloMosaic Idealize.ShloMosaic.ValueIdx Cert.ReferenceIdeal Cert.ReferenceIdeal.Read

theorem ref_is_goal (x1 : (⟨S16x1x8192x3, .f32⟩ : BufTy).Contents (Elt Ideal)) (x2 : (⟨S16x1x8192, .i1⟩ : BufTy).Contents (Elt Ideal)) (x3 : (⟨S256x3, .f32⟩ : BufTy).Contents (Elt Ideal)) (x4 : (⟨S256, .f32⟩ : BufTy).Contents (Elt Ideal)) (x5 : (⟨S4x256x256, .f32⟩ : BufTy).Contents (Elt Ideal)) (x6 : (⟨S4x256, .f32⟩ : BufTy).Contents (Elt Ideal)) (x7 : (⟨S4x256x512, .f32⟩ : BufTy).Contents (Elt Ideal)) (x8 : (⟨S4x256, .f32⟩ : BufTy).Contents (Elt Ideal)) (x9 : (⟨S256x1024, .f32⟩ : BufTy).Contents (Elt Ideal)) (x10 : (⟨S256, .f32⟩ : BufTy).Contents (Elt Ideal)) (x11 : (⟨S1024x256, .f32⟩ : BufTy).Contents (Elt Ideal)) (x12 : (⟨S1024, .f32⟩ : BufTy).Contents (Elt Ideal)) :
    Cert.ReferenceIdeal.Read.val_main_v132 (F := Ideal) x1 x2 x3 x4 x5 x6 x7 x8 x9 x10 x11 x12 = Cert.Goal.G x1 x2 x3 x4 x5 x6 x7 x8 x9 x10 x11 x12 := by
  funext i
  obtain ⟨b, z, j, rfl⟩ : ∃ (b : Fin 16) (z : Fin 1) (j : Fin 1024), i = ix3 b z j := ⟨i 0, i 1, i 2, eq_ix3 i⟩
  obtain rfl : z = 0 := Subsingleton.elim _ _
  rw [res_at]
  rfl

end Cert.RefValue

end
-- ==== Proof.lean ====
/-
  The certificate: the kernel (a point-cloud encoder's pooling block as two pallas_calls — a conv block with a masked
  maximum over the points, one grid point per cloud, and a final projection) against its jnp reference.

  At the extended reals both programs compute, for each of the 16 clouds, the function of Proof/Spec.lean: an input
  layer, four layers (pointwise convolution, maximum over the points, a projection through the two halves of a
  512-column weight), a projection of the four layer outputs laid side by side, the mask's penalty taken away, the
  maximum over the points, a last projection (Proof/Goal.lean states the result array [16, 1, 1024] as one function
  `G` of the argument arrays).  The kernel works on transposed clouds with every product written weight · activation,
  accumulates the 1024 side-by-side channels as four blocks of 256 from a zero, and ADDS the word of -100000 times the
  negated mask where the reference SUBTRACTS the word of 100000 times it: commutativity and associativity of + and ·
  on the extended reals and `-(a · u) = (-a) · u` make the two equal, with no appeal to the inputs' finiteness.

  * the reference's result is `G`: Proof/RefIsGoal.lean (over the reference's run, Proof/RefRunThm.lean, read one
    operation at a time, Proof/RefRead.lean);
  * the kernel's result is `G`: Proof/KernelValue.lean (over the kernel's run with its result kept,
    Proof/KernelRun.lean; the two regions' arrays, Proof/Region0.lean and Proof/Region1.lean; the host operations
    around them, Proof/HostReads.lean; the two bodies at an index, Proof/Block0.lean and Proof/Block1.lean);
  * the three frames are the generated ones (the reference's is its run with the result dropped), and the idealized
    kernel is the kernel's own text read at the extended reals (no rewrite to account for).
-/
import proofs.«113704_j40656160424210_1_alg».proof.Defs
import proofs.«113704_j40656160424210_1_alg».proof.Proof.Gen.Kernel
import proofs.«113704_j40656160424210_1_alg».proof.Proof.Gen.Kernel.Skeleton
import proofs.«113704_j40656160424210_1_alg».proof.Proof.Gen.Kernel.Launch
import proofs.«113704_j40656160424210_1_alg».proof.Proof.Gen.Kernel.Points
import proofs.«113704_j40656160424210_1_alg».proof.Proof.Gen.Kernel.Frame
import proofs.«113704_j40656160424210_1_alg».proof.Proof.Gen.KernelIdeal
import proofs.«113704_j40656160424210_1_alg».proof.Proof.Gen.KernelIdeal.Skeleton
import proofs.«113704_j40656160424210_1_alg».proof.Proof.Gen.KernelIdeal.Launch
import proofs.«113704_j40656160424210_1_alg».proof.Proof.Gen.KernelIdeal.Points
import proofs.«113704_j40656160424210_1_alg».proof.Proof.Gen.KernelIdeal.Frame
import proofs.«113704_j40656160424210_1_alg».proof.Proof.Gen.ReferenceIdeal
import proofs.«113704_j40656160424210_1_alg».proof.Proof.Gen.Pre_finite_inputs
import proofs.«113704_j40656160424210_1_alg».proof.Proof.KernelRun
import proofs.«113704_j40656160424210_1_alg».proof.Proof.KernelValue
import proofs.«113704_j40656160424210_1_alg».proof.Proof.RefRunThm
import proofs.«113704_j40656160424210_1_alg».proof.Proof.RefIsGoal
import Idealize.ShloMosaic.Adequacy
import Idealize.ShloMosaic.Init

noncomputable section

namespace Cert.Proof

open Idealize.ShloMosaic Idealize.SL.Sem Cert.Kernel

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing: the idealized kernel is the kernel's text read at the extended reals. -/
theorem preserves : Cert.preserves_Kernel_KernelIdeal := trivial

/-- From memories agreeing on the arguments, both idealized programs end with the result `G` of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Goal.G (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Whole.kernel_value m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    have hA := hagree c
    rw [Cert.ReferenceIdeal.Read.val_main_v132_eq, Cert.RefValue.ref_is_goal,
      hA.2.1, hA.2.2.1, hA.2.2.2.1, hA.2.2.2.2.1, hA.2.2.2.2.2.1, hA.2.2.2.2.2.2.1, hA.2.2.2.2.2.2.2.1, hA.2.2.2.2.2.2.2.2.1, hA.2.2.2.2.2.2.2.2.2.1, hA.2.2.2.2.2.2.2.2.2.2.1, hA.2.2.2.2.2.2.2.2.2.2.2.1, hA.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
